-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x1024 : Shape := ⟨2, ![512, 1024]⟩
abbrev S512x1 : Shape := ⟨2, ![512, 1]⟩
abbrev S512x512 : Shape := ⟨2, ![512, 512]⟩
abbrev S1x4096 : Shape := ⟨2, ![1, 4096]⟩
abbrev S1x1 : Shape := ⟨2, ![1, 1]⟩
abbrev S64x128 : Shape := ⟨2, ![64, 128]⟩
abbrev S1x512 : Shape := ⟨2, ![1, 512]⟩
abbrev S8x128 : Shape := ⟨2, ![8, 128]⟩
abbrev S512 : Shape := ⟨1, ![512]⟩
abbrev S1 : Shape := ⟨1, ![1]⟩

abbrev nBuf : Space → Nat
  | .hbm => 55
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S1x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x1, .f32⟩
  | .hbm, ⟨50, _⟩ => ⟨S64x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1, .f32⟩
  | .local _ .vmem, ⟨5, _⟩ => ⟨S512x1, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1, .f32⟩
  | .local _ .vmem, ⟨13, _⟩ => ⟨S512x1, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x1, .f32⟩
  | .local _ .vmem, ⟨21, _⟩ => ⟨S512x1, .f32⟩
  | .local _ .vmem, ⟨22, _⟩ => ⟨S1x512, .f32⟩
  | .local _ .vmem, ⟨23, _⟩ => ⟨S1x512, .f32⟩
  | .local _ .vmem, ⟨24, _⟩ => ⟨S1x1, .f32⟩
  | .local _ .vmem, ⟨25, _⟩ => ⟨S512x1, .f32⟩
  | .local _ .vmem, ⟨26, _⟩ => ⟨S512x1, .f32⟩
  | .local _ .vmem, ⟨27, _⟩ => ⟨S1x512, .f32⟩
  | .local _ .vmem, ⟨28, _⟩ => ⟨S1x512, .f32⟩
  | .local _ .vmem, ⟨29, _⟩ => ⟨S1x1, .f32⟩
  | .local _ .vmem, ⟨30, _⟩ => ⟨S8x128, .f32⟩
  | .local _ .vmem, ⟨31, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_cst_14 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

class Facts₀ : Prop where
  bitsLt_bf16_f32 : FTy.bits .bf16 < FTy.bits .f32
  reducesTo_S4096x1024_S4096_d1 : S4096x1024.ReducesTo [1] S4096
  h_S_ : 0 < S_.numel
  bcast_S4096_S4096x1_0 : S4096.BroadcastsInDim S4096x1 (![0] : Fin 1 → Fin S4096x1.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  reducesTo_S4096x4096_S4096_d1 : S4096x4096.ReducesTo [1] S4096
  bcast_S_S4096x1 : S_.BroadcastsInDim S4096x1 (![] : Fin 0 → Fin S4096x1.rank)
  reducesTo_S4096x4096_S4096_d0 : S4096x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  reducesTo_S4096x4096_S_d0_1 : S4096x4096.ReducesTo [0, 1] S_
  shapeCasts_S_S1x1 : S_.ShapeCasts S1x1
  inb_S8x128_S8x128_0_0 : ∀ a, (![0, 0] : Fin 2 → Nat) a + S8x128.size a ≤ S8x128.size a
  h_S8x128 : 0 < S8x128.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x512 : S1x1.Broadcasts S512x512
  transposes_S512x512_p1_0_S512x512 : S512x512.Transposes [1, 0] S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S8x128_S8x128 : S8x128.ShapeCasts S8x128
  broadcasts_S1x1_S8x128 : S1x1.Broadcasts S8x128
  reducesTo_S64x128_S_d0_1 : S64x128.ReducesTo [0, 1] S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x4096.size a
  hwx2_1 : ∀ i : grid2.Coords, EltTy.bits .f32 = 32 ∨ (Rect.block (s := S4096x4096) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .f32 = 32 ∨ (Rect.block (s := S4096x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S4096x1.size a
  hwx2_5 : ∀ i : grid2.Coords, EltTy.bits .f32 = 32 ∨ (Rect.block (s := S4096x1) S512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x4096.size a
  hwx2_6 : ∀ i : grid2.Coords, EltTy.bits .f32 = 32 ∨ (Rect.block (s := S1x4096) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128.size a ≤ S64x128.size a
  hwx2_8 : ∀ i : grid2.Coords, EltTy.bits .f32 = 32 ∨ (Rect.block (s := S64x128) S8x128.size (cc2_transform_8 i) (hinb2_8 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S512x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v30) S1x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v33) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v34) S8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S1024x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S1x4096, .f32⟩
  | .hbm, ⟨67, _⟩ => ⟨S_, .f32⟩
  | .hbm, ⟨68, _⟩ => ⟨S1x4096, .f32⟩
  | .hbm, ⟨69, _⟩ => ⟨S1x4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_cst_14 : Ref sig .tc := ⟨.hbm, 67, rfl⟩
abbrev main_v50 : Ref sig .tc := ⟨.hbm, 68, rfl⟩
abbrev main_v51 : Ref sig .tc := ⟨.hbm, 69, rfl⟩
abbrev main_cst_15 : Ref sig .tc := ⟨.hbm, 70, rfl⟩
abbrev main_v52 : Ref sig .tc := ⟨.hbm, 71, rfl⟩
abbrev main_cst_16 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_17 : Ref sig .tc := ⟨.hbm, 82, rfl⟩
abbrev main_v62 : Ref sig .tc := ⟨.hbm, 83, rfl⟩
abbrev main_cst_18 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  transposes_S4096x1024_S1024x4096_1_0 : S4096x1024.Transposes [1, 0] S1024x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S_S4096x1 : S_.BroadcastsInDim S4096x1 (![] : Fin 0 → Fin S4096x1.rank)
  reducesTo_S4096x4096_S4096_d0 : S4096x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  reducesTo_S4096x4096_S_d0_1 : S4096x4096.ReducesTo [0, 1] S_
  bcast_S1x4096_S4096x4096_0_1 : S1x4096.BroadcastsInDim S4096x4096 (![0, 1] : Fin 2 → Fin S4096x4096.rank)
  transposes_S4096x4096_S4096x4096_1_0 : S4096x4096.Transposes [1, 0] S4096x4096
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.RbfRegionK.lean ====
/-
  The first two regions of the program. Each builds one 4096 x 4096 matrix of the one-sided Gaussian kernel,
      K[p, q] = exp ( (sum over k of a[p, k] * a[q, k]) - s[p] ),
  from an array a of 4096 rows of 1024 bf16 numbers and a column s of 4096 f32 numbers (region 0: a is the first
  argument rounded to bf16 and s the squared norms of its rows; region 1: the same of the second argument).

  The matrix is computed tile by tile on an 8 x 8 grid. At grid point (I, J):
    window 0 holds rows 512 I .. 512 I + 511 of a            (a 512 x 1024 block),
    window 1 holds rows 512 J .. 512 J + 511 of the SAME a   (a 512 x 1024 block),
    window 2 holds rows 512 I .. 512 I + 511 of s            (a 512 x 1 block),
    window 3 is the 512 x 512 tile (I, J) of the result.
  With x0, x1, x2 the three input blocks, the body stores into the whole output block
      exp (x0 * transpose x1 - x2 repeated along the columns),
  a function of the three input blocks alone (it reads the output block first; that value is not used), and leaves the
  input blocks as they were. Windows 0 and 2 move only when I changes, so they are copied in only at the points with
  J = 0; between such points their buffers still hold the block of the current I.

  Two input windows read one array. Outside the region the array is held at its full share; between the region's entry
  and its exit each of the two windows holds one half of that share (the left half and the right half), which is
  enough to read it. The entry splits the core's unscoped buffers into the three distinct buffers behind the four
  windows (the shared one dealt in halves) and the rest; the exit joins the halves again and puts the arrays, the
  result matrix at what the write-backs left, back among the unscoped buffers.
-/
import proofs.«147226_j26061861552238_2_alg».proof.Proof.Gen.Kernel.Launch
import proofs.«147226_j26061861552238_2_alg».proof.Proof.Gen.Kernel.Skeleton
import proofs.«147226_j26061861552238_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two Gaussian-kernel regions: proof data, body obligation, entry and exit -/

-- membership in a rectangle of full extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: `cc0__rbf_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S512x1024 := Rect.unit (s := S512x1024) ![0, 0] S512x1024.size inb_S512x1024_S512x1024_0_0
abbrev r0_1 : Rect S512x1024 := Rect.unit (s := S512x1024) ![0, 0] S512x1024.size inb_S512x1024_S512x1024_0_0
abbrev r0_2 : Rect S512x1 := Rect.unit (s := S512x1) ![0, 0] S512x1.size inb_S512x1_S512x1_0_0
abbrev r0_3 : Rect S512x512 := Rect.unit (s := S512x512) ![0, 0] S512x512.size inb_S512x512_S512x512_0_0

/-! ## What the body leaves in the output window's buffer -/

/-- Window 3's staging buffer after the body, from the input windows' blocks: its one whole-block store. -/
def out0_3 (x0 x1 : Vec F S512x1024 .bf16) (x2 : Vec F S512x1 .f32) : Vec F S512x512 .f32 :=
  View.canon [⟨r0_3, k0_pay1 (View.ld x0 r0_0) (View.ld x1 r0_1) (View.ld x2 r0_2)⟩]

/-- The one store is of the whole buffer, so it covers it. -/
theorem cover0_3 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

/-! ## The body's triple -/

set_option maxHeartbeats 1000000 in
/-- The kernel body on whole staging memrefs, the inputs' at read contents `x0 x1 x2` and the output's at anything, runs to
    the continuation holding the inputs' as they were and the output's at `out0_3` of the inputs'. The body also loads
    the output buffer before it stores into it; the value loaded is not used. -/
theorem sound_kernel0 (c : Dev nD) (E : Set ℕ) (i : grid0.Coords) (arg2 : Memref sig .tc .vmem S512x1024 .bf16) (harg2 : arg2.IsWhole)
    (arg3 : Memref sig .tc .vmem S512x1024 .bf16) (harg3 : arg3.IsWhole) (arg4 : Memref sig .tc .vmem S512x1 .f32) (harg4 : arg4.IsWhole)
    (arg5 : Memref sig .tc .vmem S512x512 .f32) (harg5 : arg5.IsWhole)
    (x0 x1 : Vec F S512x1024 .bf16) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__rbf_kernel i arg2 harg2 arg3 harg3 arg4 harg4 arg5 harg5) K := by
  simp only [cc0__rbf_kernel_eq_skeleton]; unfold cc0__rbf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t` each
    input's buffer at its block and the output's at `out0_3` of the input blocks; the invariant the scoped rest and the
    generator register, untouched; nothing owed. Windows 0 and 1 read one array (`main_v0`): each holds one half of its
    full share; window 2's array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq0 (c : Dev nD) (w : Fin cfg0.W) : (dat0 V c).A w = V c (Pipeline.arrRef spec0 w) := by
  dsimp only [dat0]
theorem Φ_eq0 (c : Dev nD) (t : Fin (cfg0.N + 1)) : (dat0 V c).Φ t = Pipeline.ΦA spec0 c := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

/-- The shares, window by window. -/
theorem share0_0 (c : Dev nD) : (dat0 V c).share 0 = fullShare.left := by unfold Dat.share; dsimp only [dat0]; rfl
theorem share0_1 (c : Dev nD) : (dat0 V c).share 1 = fullShare.right := by unfold Dat.share; dsimp only [dat0]; rfl
theorem share0_2 (c : Dev nD) : (dat0 V c).share 2 = fullShare := by unfold Dat.share; dsimp only [dat0]; rfl
theorem share0_3 (c : Dev nD) : (dat0 V c).share 3 = fullShare := by unfold Dat.share; dsimp only [dat0]; rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not: where it is not fetched
    the window's block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entry and exit: the arrays out of the core's unscoped buffers, and back -/

/-- The buffers behind the four windows' arrays are three. -/
theorem arrImage0 : Finset.univ.image (Pipeline.arrRef spec0) = {main_v0, main_v5, main_v10} := by decide

/-- The distinct buffers behind the windows' arrays, one by one. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v5) ↦{fullShare} W main_v5) ∗ (((c : Thread nD τ).loc main_v10) ↦{fullShare} W main_v10)) :=
  bigSep_eq_bigSepL_of_eq [main_v0, main_v5, main_v10] (by decide) (by decide) _

/-- The core's unscoped buffers are the buffers behind the windows' arrays and the rest. -/
theorem unscopedBufs_split0 (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs 0 winFacts₀0.arr_unscoped c W

/-- ENTRY: the core's unscoped buffers at contents `V c` are the pipeline's arrays at the proof data's entry contents —
    the shared input array's full share dealt in halves to windows 0 and 1 — and the unscoped rest. -/
theorem entry0 (c : Dev nD) :
    (unscopedBufs c (V c) : sProp 𝕄)
      ⊢ iprop((dat0 V c).arrays ((dat0 V c).arrAt · 0) ∗ Pipeline.unscopedRest spec0 c (V c)) := by
  rw [unscopedBufs_split0, arrBufs0_eq]
  refine sep_mono ?_ .rfl
  unfold Dat.arrays
  rw [bigSep_W0, share0_0, share0_1, share0_2, share0_3]
  have h0 : ∀ w, (dat0 V c).arrAt w 0 = V c (Pipeline.arrRef spec0 w) := fun w => A_eq0 V c w
  simp only [h0]
  rw [(arr_whole0 0).set_eq_univ, (arr_whole0 2).set_eq_univ, (arr_whole0 3).set_eq_univ]
  iintro ⟨Ha, Hs, Ho⟩
  icases (pointsTo_share (PosShare.mem_left_op_right fullShare)).1 $$ Ha with ⟨Hl, Hr⟩
  isplitl [Hl]; · iexact Hl
  isplitl [Hr]; · iexact Hr
  isplitl [Hs]; · iexact Hs
  iexact Ho

/-- EXIT: the pipeline's arrays at what it leaves and the unscoped rest are the core's unscoped buffers at any contents
    `V'` that has the arrays at what the pipeline leaves and agrees with `V c` off them: the two halves of the shared
    input array's share join again. -/
theorem exit0 (c : Dev nD) (V' : (b : Ref sig .tc) → Buf (Elt F) ((c : Thread nD τ).loc b))
    (hF : ∀ w, (dat0 V c).arrAt w cfg0.N = V' (Pipeline.arrRef spec0 w))
    (hrest : ∀ b, b ∉ Finset.univ.image (Pipeline.arrRef spec0) → V' b = V c b) :
    iprop((dat0 V c).arrays ((dat0 V c).arrAt · cfg0.N) ∗ Pipeline.unscopedRest spec0 c (V c))
      ⊢ (unscopedBufs c V' : sProp 𝕄) := by
  rw [unscopedBufs_split0, arrBufs0_eq]
  refine sep_mono ?_ (Entails.of_eq ?_)
  · unfold Dat.arrays
    rw [bigSep_W0, share0_0, share0_1, share0_2, share0_3]
    simp only [hF]
    rw [(arr_whole0 0).set_eq_univ, (arr_whole0 2).set_eq_univ, (arr_whole0 3).set_eq_univ]
    iintro ⟨Hl, Hr, Hs, Ho⟩
    isplitl [Hl Hr]
    · iapply (pointsTo_share (PosShare.mem_left_op_right fullShare)).2
      isplitl [Hl]; · iexact Hl
      iexact Hr
    isplitl [Hs]; · iexact Hs
    iexact Ho
  · unfold Pipeline.unscopedRest
    exact bigSep_congr fun b hb => by rw [hrest b (Finset.mem_sdiff.mp hb).2]

/-! # REGION 1: `cc1__rbf_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S512x1024 := Rect.unit (s := S512x1024) ![0, 0] S512x1024.size inb_S512x1024_S512x1024_0_0
abbrev r1_1 : Rect S512x1024 := Rect.unit (s := S512x1024) ![0, 0] S512x1024.size inb_S512x1024_S512x1024_0_0
abbrev r1_2 : Rect S512x1 := Rect.unit (s := S512x1) ![0, 0] S512x1.size inb_S512x1_S512x1_0_0
abbrev r1_3 : Rect S512x512 := Rect.unit (s := S512x512) ![0, 0] S512x512.size inb_S512x512_S512x512_0_0

/-! ## What the body leaves in the output window's buffer -/

/-- Window 3's staging buffer after the body, from the input windows' blocks: its one whole-block store. -/
def out1_3 (x0 x1 : Vec F S512x1024 .bf16) (x2 : Vec F S512x1 .f32) : Vec F S512x512 .f32 :=
  View.canon [⟨r1_3, k1_pay1 (View.ld x0 r1_0) (View.ld x1 r1_1) (View.ld x2 r1_2)⟩]

/-- The one store is of the whole buffer, so it covers it. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

/-! ## The body's triple -/

set_option maxHeartbeats 1000000 in
/-- The kernel body on whole staging memrefs, the inputs' at read contents `x0 x1 x2` and the output's at anything, runs to
    the continuation holding the inputs' as they were and the output's at `out1_3` of the inputs'. The body also loads
    the output buffer before it stores into it; the value loaded is not used. -/
theorem sound_kernel1 (c : Dev nD) (E : Set ℕ) (i : grid1.Coords) (arg2 : Memref sig .tc .vmem S512x1024 .bf16) (harg2 : arg2.IsWhole)
    (arg3 : Memref sig .tc .vmem S512x1024 .bf16) (harg3 : arg3.IsWhole) (arg4 : Memref sig .tc .vmem S512x1 .f32) (harg4 : arg4.IsWhole)
    (arg5 : Memref sig .tc .vmem S512x512 .f32) (harg5 : arg5.IsWhole)
    (x0 x1 : Vec F S512x1024 .bf16) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__rbf_kernel i arg2 harg2 arg3 harg3 arg4 harg4 arg5 harg5) K := by
  simp only [cc1__rbf_kernel_eq_skeleton]; unfold cc1__rbf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t` each
    input's buffer at its block and the output's at `out1_3` of the input blocks; the invariant the scoped rest and the
    generator register, untouched; nothing owed. Windows 0 and 1 read one array (`main_v1`): each holds one half of its
    full share; window 2's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]
theorem Φ_eq1 (c : Dev nD) (t : Fin (cfg1.N + 1)) : (dat1 V c).Φ t = Pipeline.ΦA spec1 c := rfl
theorem owed_eq1 (c : Dev nD) (t : Fin (cfg1.N + 1)) : (dat1 V c).owed t = 0 := rfl
theorem recorded_eq1 (c : Dev nD) (t : Fin (cfg1.N + 1)) : (dat1 V c).recorded t = Set.univ := rfl

/-- The shares, window by window. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl
theorem share1_3 (c : Dev nD) : (dat1 V c).share 3 = fullShare := by unfold Dat.share; dsimp only [dat1]; rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not: where it is not fetched
    the window's block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit: the arrays out of the core's unscoped buffers, and back -/

/-- The buffers behind the four windows' arrays are three. -/
theorem arrImage1 : Finset.univ.image (Pipeline.arrRef spec1) = {main_v1, main_v9, main_v11} := by decide

/-- The distinct buffers behind the windows' arrays, one by one. -/
theorem arrBufs1_eq (c : Dev nD) (W : (b : Ref sig .tc) → Buf (Elt F) ((c : Thread nD τ).loc b)) :
    (Pipeline.arrBufs spec1 c W : sProp 𝕄)
      = iprop((((c : Thread nD τ).loc main_v1) ↦{fullShare} W main_v1) ∗ (((c : Thread nD τ).loc main_v9) ↦{fullShare} W main_v9) ∗ (((c : Thread nD τ).loc main_v11) ↦{fullShare} W main_v11)) :=
  bigSep_eq_bigSepL_of_eq [main_v1, main_v9, main_v11] (by decide) (by decide) _

/-- The core's unscoped buffers are the buffers behind the windows' arrays and the rest. -/
theorem unscopedBufs_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the core's unscoped buffers at contents `V c` are the pipeline's arrays at the proof data's entry contents —
    the shared input array's full share dealt in halves to windows 0 and 1 — and the unscoped rest. -/
theorem entry1 (c : Dev nD) :
    (unscopedBufs c (V c) : sProp 𝕄)
      ⊢ iprop((dat1 V c).arrays ((dat1 V c).arrAt · 0) ∗ Pipeline.unscopedRest spec1 c (V c)) := by
  rw [unscopedBufs_split1, arrBufs1_eq]
  refine sep_mono ?_ .rfl
  unfold Dat.arrays
  rw [bigSep_W1, share1_0, share1_1, share1_2, share1_3]
  have h0 : ∀ w, (dat1 V c).arrAt w 0 = V c (Pipeline.arrRef spec1 w) := fun w => A_eq1 V c w
  simp only [h0]
  rw [(arr_whole1 0).set_eq_univ, (arr_whole1 2).set_eq_univ, (arr_whole1 3).set_eq_univ]
  iintro ⟨Ha, Hs, Ho⟩
  icases (pointsTo_share (PosShare.mem_left_op_right fullShare)).1 $$ Ha with ⟨Hl, Hr⟩
  isplitl [Hl]; · iexact Hl
  isplitl [Hr]; · iexact Hr
  isplitl [Hs]; · iexact Hs
  iexact Ho

/-- EXIT: the pipeline's arrays at what it leaves and the unscoped rest are the core's unscoped buffers at any contents
    `V'` that has the arrays at what the pipeline leaves and agrees with `V c` off them: the two halves of the shared
    input array's share join again. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  rw [unscopedBufs_split1, arrBufs1_eq]
  refine sep_mono ?_ (Entails.of_eq ?_)
  · unfold Dat.arrays
    rw [bigSep_W1, share1_0, share1_1, share1_2, share1_3]
    simp only [hF]
    rw [(arr_whole1 0).set_eq_univ, (arr_whole1 2).set_eq_univ, (arr_whole1 3).set_eq_univ]
    iintro ⟨Hl, Hr, Hs, Ho⟩
    isplitl [Hl Hr]
    · iapply (pointsTo_share (PosShare.mem_left_op_right fullShare)).2
      isplitl [Hl]; · iexact Hl
      iexact Hr
    isplitl [Hs]; · iexact Hs
    iexact Ho
  · unfold Pipeline.unscopedRest
    exact bigSep_congr fun b hb => by rw [hrest b (Finset.mem_sdiff.mp hb).2]

end Cert.Kernel.Hand

end
-- ==== Proof.TraceRegionK.lean ====
/-
  The trace region: its proof data and the body's obligation.

  The third region runs over an 8 × 8 grid of tiles (I, J). At tile (I, J) the body reads the 512 × 512 tile (I, J) of the
  first Gaussian-kernel matrix and the mirrored tile (J, I) of the second, together with the slices of their row means,
  column means and grand means that belong to those tiles. It centres each tile (entry minus its row's mean, minus its
  column's mean, plus the grand mean), multiplies the first centred tile entry by entry with the transpose of the second,
  and sums the tile to one number. That number, scaled by 2⁻¹⁰, is added to every entry of an 8 × 128 output block, which
  is row-block I of a 64 × 128 array. The block is filled with zeros at the first column tile J = 0, is carried from one
  column tile to the next, and is written back to the array after the last, J = 7.

  This file states that as data about the region, for any float instance and any contents the region may be entered with:
    * the block each of the nine windows holds at a grid point (`iblk2`);
    * one step of the accumulation as a function of the eight input blocks and of what the output block held (`acc2`),
      and the zeroed block (`zero2`);
    * what the output block holds after each grid point, by recursion on the point (`outsAt2`), with its two case
      equations: at a first column tile the step over the zeroed block (`after2_8_first`), at a later one the step over
      what the point before left (`after2_8_next`);
    * the body's triples in the two cases (`sound_kernel2_first`, `sound_kernel2_next`): on buffers holding the input
      blocks the body leaves the inputs as they were and the output block at the step;
    * what the body finds in each buffer at a point (`before2_0` … `before2_7`: an input's block, whether or not it was
      fetched there, since unfetched its block index has not moved; `before2_8_next`: the output block as the point
      before left it, since it is written back only after the last column tile);
    * the body's obligation at every grid point (`body_obligation2`).
-/
import proofs.«147226_j26061861552238_2_alg».proof.Proof.Gen.Kernel.Launch
import proofs.«147226_j26061861552238_2_alg».proof.Proof.Gen.Kernel.Skeleton
import proofs.«147226_j26061861552238_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is the whole of its buffer -/

abbrev rK : Rect S512x512 := Rect.unit (s := S512x512) ![0, 0] S512x512.size inb_S512x512_S512x512_0_0
abbrev rC : Rect S512x1 := Rect.unit (s := S512x1) ![0, 0] S512x1.size inb_S512x1_S512x1_0_0
abbrev rR : Rect S1x512 := Rect.unit (s := S1x512) ![0, 0] S1x512.size inb_S1x512_S1x512_0_0
abbrev rS : Rect S1x1 := Rect.unit (s := S1x1) ![0, 0] S1x1.size inb_S1x1_S1x1_0_0
abbrev rO : Rect S8x128 := Rect.unit (s := S8x128) ![0, 0] S8x128.size inb_S8x128_S8x128_0_0

/-! ## One step of the accumulation -/

/-- What the zeroing store of a row-block's first point leaves in the output buffer. -/
def zero2 : Vec F S8x128 .f32 := View.canon [⟨rO, k2_pay2 (F := F)⟩]

/-- The output buffer after the body, from the eight input blocks and the buffer's contents `prev` when the
    accumulating store is reached: the tile's scalar, scaled, added to every entry of `prev`. -/
def acc2 (x0 x1 : Vec F S512x512 .f32) (x2 : Vec F S512x1 .f32) (x3 : Vec F S1x512 .f32) (x4 : Vec F S1x1 .f32)
    (x5 : Vec F S512x1 .f32) (x6 : Vec F S1x512 .f32) (x7 : Vec F S1x1 .f32) (prev : Vec F S8x128 .f32) : Vec F S8x128 .f32 :=
  View.canon [⟨rO, k2_pay1 (k2_pay3 (View.ld x0 rK) (View.ld x1 rK) (View.ld x2 rC) (View.ld x3 rR) (View.ld x4 rS)
    (View.ld x5 rC) (View.ld x6 rR) (View.ld x7 rS)) (View.ld prev rO)⟩]

/-! ## What the output holds after each point -/

/-- The output buffer after the body at position `n`: at the first point of a row-block the step over the zeroed
    buffer, at a later one the step over what the point before left (the buffer is not written back between). -/
def outsAt2 (c : Dev nD) : (n : ℕ) → n < cfg2.N → Vec F S8x128 .f32
  | 0, hn => acc2 (iblk2 V c 0 ⟨0, hn⟩) (iblk2 V c 1 ⟨0, hn⟩) (iblk2 V c 2 ⟨0, hn⟩) (iblk2 V c 3 ⟨0, hn⟩) (iblk2 V c 4 ⟨0, hn⟩)
      (iblk2 V c 5 ⟨0, hn⟩) (iblk2 V c 6 ⟨0, hn⟩) (iblk2 V c 7 ⟨0, hn⟩) zero2
  | n + 1, hn =>
    if (n + 1) % 8 = 0 then
      acc2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (iblk2 V c 7 ⟨n + 1, hn⟩) zero2
    else
      acc2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (iblk2 V c 7 ⟨n + 1, hn⟩) (outsAt2 c n (Nat.lt_of_succ_lt hn))

/-! ## The pipeline's proof data -/

/-- The proof data of the pipeline on core `c`: the arrays as the region finds them; after the body at point `t`
    each input's buffer at its block and the output's at `outsAt2`; the scoped rest and the generator register as
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem Φ_eq2 (c : Dev nD) (t) : (dat2 V c).Φ t = Pipeline.ΦA spec2 c := rfl
theorem owed_eq2 (c : Dev nD) (t) : (dat2 V c).owed t = 0 := rfl
theorem recorded_eq2 (c : Dev nD) (t) : (dat2 V c).recorded t = Set.univ := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = outsAt2 V c t.val t.isLt := by dsimp only [dat2]

/-- `outsAt2` at the first point of a row-block: the step over the zeroed buffer. -/
theorem outsAt2_first (c : Dev nD) (t : Fin cfg2.N) (h0 : t.val % 8 = 0) :
    outsAt2 V c t.val t.isLt = acc2 (iblk2 V c 0 t) (iblk2 V c 1 t) (iblk2 V c 2 t) (iblk2 V c 3 t) (iblk2 V c 4 t)
      (iblk2 V c 5 t) (iblk2 V c 6 t) (iblk2 V c 7 t) zero2 := by
  obtain ⟨n, hn⟩ := t
  cases n with
  | zero => exact rfl
  | succ n => exact (if_pos h0).trans rfl

/-- `outsAt2` at a later point of a row-block: the step over what the point before left. -/
theorem outsAt2_next (c : Dev nD) (t : Fin cfg2.N) (h0 : ¬t.val % 8 = 0) :
    outsAt2 V c t.val t.isLt = acc2 (iblk2 V c 0 t) (iblk2 V c 1 t) (iblk2 V c 2 t) (iblk2 V c 3 t) (iblk2 V c 4 t)
      (iblk2 V c 5 t) (iblk2 V c 6 t) (iblk2 V c 7 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- At the first point of a row-block the output holds the step over the zeroed buffer; -/
theorem after2_8_first (c : Dev nD) (t : Fin cfg2.N) (h : t.val % 8 = 0) :
    (dat2 V c).after 8 t = acc2 (iblk2 V c 0 t) (iblk2 V c 1 t) (iblk2 V c 2 t) (iblk2 V c 3 t) (iblk2 V c 4 t)
      (iblk2 V c 5 t) (iblk2 V c 6 t) (iblk2 V c 7 t) zero2 :=
  (after2_8 V c t).trans (outsAt2_first V c t h)

/-- at a later point, the step over what the point before left. -/
theorem after2_8_next (c : Dev nD) (t : Fin cfg2.N) (h : t.val % 8 ≠ 0) :
    (dat2 V c).after 8 t = acc2 (iblk2 V c 0 t) (iblk2 V c 1 t) (iblk2 V c 2 t) (iblk2 V c 3 t) (iblk2 V c 4 t)
      (iblk2 V c 5 t) (iblk2 V c 6 t) (iblk2 V c 7 t)
      ((dat2 V c).after 8 ⟨t.val - 1, Nat.lt_of_le_of_lt (Nat.sub_le _ _) t.isLt⟩) := by
  rw [after2_8 V c t, after2_8 V c ⟨t.val - 1, Nat.lt_of_le_of_lt (Nat.sub_le _ _) t.isLt⟩]
  exact outsAt2_next V c t h

/-! ## The body's branch condition -/

/-- The condition of the body's one conditional, from the grid coordinates: the column-block index is zero. -/
abbrev cond2 (i : grid2.Coords) : Prop :=
  (Scalar.cmpi .ne (Scalar.extui (Scalar.cmpi .eq (BitVec.ofNat 32 (i 1).val) 0#32)) 0#32) = 1#1

/-- It holds exactly at the first point of each row-block — decided over the grid. -/
theorem hcond2 : ∀ t : Fin cfg2.N, cond2 (grid2.coords t) ↔ t.val % 8 = 0 :=
  (by decide +kernel : ∀ t : Fin grid2.N, cond2 (grid2.coords t) ↔ t.val % 8 = 0)

/-! ## The output buffer through its whole-buffer rectangle -/

/-- Every index of the output buffer lies in the whole-buffer rectangle. -/
theorem memO (y : S8x128.Idx) : y ∈ (rO).set := by
  obtain ⟨pc, hm, hy⟩ := View.cover_of_tiled ([⟨rO, fun _ => ()⟩] : List (View.Piece (fun _ => Unit) S8x128 .f32)) S8x128.size (by rfl) y
  rcases List.mem_singleton.mp hm with rfl
  exact hy

/-- So a list of stores that begins with a whole-buffer store covers the buffer. -/
theorem coverO (p0 : rO.shape.Idx → Elt F .f32) (L : List (View.Piece (Elt F) S8x128 .f32)) (y : S8x128.Idx) :
    ∃ pc ∈ ((⟨rO, p0⟩ :: L) : List (View.Piece (Elt F) S8x128 .f32)), y ∈ pc.1.set :=
  ⟨⟨rO, p0⟩, List.mem_cons_self, memO y⟩

/-- The first point's two stores read back: the zeroing store is wholly overwritten, and what the accumulating store
    read of the buffer in between is the zeroed buffer. -/
theorem read_first (v : View sig .tc .vmem S8x128 .f32) (f : v.ty.Contents (Elt F)) (g : FVec F S1x1 .f32) :
    v.read (Elt F) (v.writes (Elt F) f [⟨rO, k2_pay1 g (v.readCov [⟨rO, k2_pay2 (F := F)⟩] rO)⟩, ⟨rO, k2_pay2 (F := F)⟩])
      = View.canon [⟨rO, k2_pay1 g (View.ld (zero2 (F := F)) rO)⟩] := by
  rw [View.read_writes_eq_canon _ _ _ (coverO _ _), View.readCov_eq_canon_ld v _ rO (coverO _ _)]
  funext y
  obtain ⟨x, rfl⟩ : ∃ x, (rO).emb x = y := (rO).exists_idx_of_mem (memO y)
  rw [View.canon_cons_emb, View.canon_cons_emb]
  rfl

set_option maxHeartbeats 1000000 in
/-- The body at a later point of a row-block, on whole staging memrefs: the inputs' at contents `xW`, the output's
    at `prev`; it runs to the continuation holding the inputs' as they were and the output's at the step over `prev`. -/
theorem sound_kernel2_next (c : Dev nD) (E : Set ℕ) (i : grid2.Coords) (a0 : Memref sig .tc .vmem S512x512 .f32) (h0 : a0.IsWhole) (a1 : Memref sig .tc .vmem S512x512 .f32) (h1 : a1.IsWhole)
    (a2 : Memref sig .tc .vmem S512x1 .f32) (h2 : a2.IsWhole) (a3 : Memref sig .tc .vmem S1x512 .f32) (h3 : a3.IsWhole)
    (a4 : Memref sig .tc .vmem S1x1 .f32) (h4 : a4.IsWhole) (a5 : Memref sig .tc .vmem S512x1 .f32) (h5 : a5.IsWhole)
    (a6 : Memref sig .tc .vmem S1x512 .f32) (h6 : a6.IsWhole) (a7 : Memref sig .tc .vmem S1x1 .f32) (h7 : a7.IsWhole)
    (a8 : Memref sig .tc .vmem S8x128 .f32) (h8 : a8.IsWhole)
    (hc : ¬cond2 i) (x0 x1 : Vec F S512x512 .f32) (x2 : Vec F S512x1 .f32) (x3 : Vec F S1x512 .f32) (x4 : Vec F S1x1 .f32)
    (x5 : Vec F S512x1 .f32) (x6 : Vec F S1x512 .f32) (x7 : Vec F S1x1 .f32) (prev : Vec F S8x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare prev
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (acc2 x0 x1 x2 x3 x4 x5 x6 x7 prev)) -∗ K ⟨⟩))
      ⊢ wp frame (wpE (defs₀ (F := F)) Variants.none c none) E (cc2__trace_kernel i a0 h0 a1 h1 a2 h2 a3 h3 a4 h4 a5 h5 a6 h6 a7 h7 a8 h8) K := by
  simp only [cc2__trace_kernel_eq_skeleton]; unfold cc2__trace_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_run_names
  exact View.read_writes_eq_canon _ _ _ (coverO _ _)

set_option maxHeartbeats 1000000 in
/-- The body at the first point of a row-block: the inputs' at contents `xW`, the output's at anything; it runs to
    the continuation holding the inputs' as they were and the output's at the step over the zeroed buffer. -/
theorem sound_kernel2_first (c : Dev nD) (E : Set ℕ) (i : grid2.Coords) (a0 : Memref sig .tc .vmem S512x512 .f32) (h0 : a0.IsWhole) (a1 : Memref sig .tc .vmem S512x512 .f32) (h1 : a1.IsWhole)
    (a2 : Memref sig .tc .vmem S512x1 .f32) (h2 : a2.IsWhole) (a3 : Memref sig .tc .vmem S1x512 .f32) (h3 : a3.IsWhole)
    (a4 : Memref sig .tc .vmem S1x1 .f32) (h4 : a4.IsWhole) (a5 : Memref sig .tc .vmem S512x1 .f32) (h5 : a5.IsWhole)
    (a6 : Memref sig .tc .vmem S1x512 .f32) (h6 : a6.IsWhole) (a7 : Memref sig .tc .vmem S1x1 .f32) (h7 : a7.IsWhole)
    (a8 : Memref sig .tc .vmem S8x128 .f32) (h8 : a8.IsWhole)
    (hc : cond2 i) (x0 x1 : Vec F S512x512 .f32) (x2 : Vec F S512x1 .f32) (x3 : Vec F S1x512 .f32) (x4 : Vec F S1x1 .f32)
    (x5 : Vec F S512x1 .f32) (x6 : Vec F S1x512 .f32) (x7 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (acc2 x0 x1 x2 x3 x4 x5 x6 x7 zero2)) -∗ K ⟨⟩))
      ⊢ wp frame (wpE (defs₀ (F := F)) Variants.none c none) E (cc2__trace_kernel i a0 h0 a1 h1 a2 h2 a3 h3 a4 h4 a5 h5 a6 h6 a7 h7 a8 h8) K := by
  simp only [cc2__trace_kernel_eq_skeleton]; unfold cc2__trace_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_run_names
  exact read_first _ _ _

/-! ## What the body finds in each staging buffer -/

/-- Each input's current staging buffer holds its block at every point, fetched there or not: unfetched, the block
    index has not moved since the point before. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-- At a later point of a row-block the output's current staging buffer holds what the body left at the point
    before: the buffer was not written back between (the write-back is at the row-block's last point). -/
theorem before2_8_next (c : Dev nD) (t : Fin cfg2.N) (h0 : ¬t.val % 8 = 0) (d) :
    (dat2 V c).before 8 t d = (dat2 V c).after 8 ⟨t.val - 1, Nat.lt_of_le_of_lt (Nat.sub_le _ _) t.isLt⟩ :=
  Dat.before_out_kept _ 8 rfl t (by omega)
    (Bool.eq_false_iff.mpr fun h => by have := (flush2_8 _).mp h; dsimp only at this; omega)
    (fun _ => rfl) (fun _ _ => rfl) d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 1000000 in
/-- The body at any point: the inputs' memrefs hold their blocks; the closed form of the condition says which case
    the point is in; at a later point of a row-block the output's memref holds what the point before left; so the
    kernel's triple applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val % 8 = 0
  · rw [after2_8_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_first c Set.univ (grid2.coords t) _ _ _ _ _ _ _ _ _ _ _ _ _ _ _ _ _ _ ((hcond2 t).mpr h0)
      (iblk2 V c 0 t) (iblk2 V c 1 t) (iblk2 V c 2 t) (iblk2 V c 3 t) (iblk2 V c 4 t) (iblk2 V c 5 t) (iblk2 V c 6 t) (iblk2 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [after2_8_next V c t h0]
    simp only [before2_8_next V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_next c Set.univ (grid2.coords t) _ _ _ _ _ _ _ _ _ _ _ _ _ _ _ _ _ _ (fun h => h0 ((hcond2 t).mp h))
      (iblk2 V c 0 t) (iblk2 V c 1 t) (iblk2 V c 2 t) (iblk2 V c 3 t) (iblk2 V c 4 t) (iblk2 V c 5 t) (iblk2 V c 6 t) (iblk2 V c 7 t)
      ((dat2 V c).after 8 ⟨t.val - 1, Nat.lt_of_le_of_lt (Nat.sub_le _ _) t.isLt⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand2

end
-- ==== Proof.AsmRunK.lean ====
/-
  The whole program's run from the three kernel regions' records.

  The program is six items in order: a stretch of host operations, the first Gaussian-kernel region, the second, a stretch
  that takes row, column and grand means of the two matrices, the trace region, and a last stretch that sums the trace
  region's output and divides. Between two items every buffer that outlives the regions is held whole at a known value:
  the launch memory, then each host stretch applied in turn, then each region's output array replaced by what the region
  leaves. Given each region's record the run ends with every such buffer at the last of these values.
-/
import proofs.«147226_j26061861552238_2_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- The run, given the regions' records: every weakly fair execution of the program from memory `m` ends, and in the final
    memory every buffer that outlives the kernel regions holds what the last of the seven valuations gives it — the
    arguments among them, and the result. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD, ∀ b ∈ Pipeline.ucRefs τ sig, r.2.mem ((c : Thread nD τ).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, (hpost0 c).trans (hpre1 c), hpost1 c, hpre2 c, hpost2 c, sep_mono .rfl (hE3 c)⟩)
    (hinit := ?_) (QY := fun c s => ∀ b ∈ Pipeline.ucRefs τ sig, s.mem ((c : Thread nD τ).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.Kernel.Gen

end
-- ==== Proof.AsmK.lean ====
/-
  The three kernel regions as segments of the program, and the program's run.

  Between two items of the program every buffer that outlives the regions is held at a known value. The first region
  is entered from the values the first host stretch leaves and changes only the first Gaussian-kernel matrix, to what
  its 64 write-backs leave; the second likewise for the second matrix; the trace region is entered from the values the
  middle stretch leaves and changes only its 64×128 output. Each region's record splits its arrays out of the held
  buffers at entry (the two windows that read one array each take half of its share) and puts them back at exit.
-/
import proofs.«147226_j26061861552238_2_alg».proof.Proof.RbfRegionK
import proofs.«147226_j26061861552238_2_alg».proof.Proof.TraceRegionK
import proofs.«147226_j26061861552238_2_alg».proof.Proof.AsmRunK

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand Cert.Kernel.Hand2

variable {F : FTy → Type} [FloatOps F]

local notation "𝕄" => MT nD τ sig Unit (Elt F) ℕ (UR sig nD τ) ℕ

variable (m : (ℓ : Loc nD τ sig) → Buf (Elt F) ℓ)

/-! ## The values between the items -/

/-- What the first region is entered from: the first host stretch applied to the launch memory. -/
abbrev E1 : (c : Dev nD) → (b : Ref sig .tc) → Buf (Elt F) ((c : Thread nD τ).loc b) := fun c b => Gen.V1 m c b
/-- The first Gaussian-kernel matrix as the first region leaves it. -/
def A10 (c : Dev nD) : Buf (Elt F) ((c : Thread nD τ).loc main_v10) := (dat0 (E1 m) c).arrAt 3 cfg0.N
def W2 (c : Dev nD) : Valuation τ sig (Elt F) := Function.update (Gen.V1 m c) main_v10 (A10 m c)
abbrev E2 : (c : Dev nD) → (b : Ref sig .tc) → Buf (Elt F) ((c : Thread nD τ).loc b) := fun c b => W2 m c b
/-- The second Gaussian-kernel matrix as the second region leaves it. -/
def A11 (c : Dev nD) : Buf (Elt F) ((c : Thread nD τ).loc main_v11) := (dat1 (E2 m) c).arrAt 3 cfg1.N
def W3 (c : Dev nD) : Valuation τ sig (Elt F) := Function.update (W2 m c) main_v11 (A11 m c)
abbrev E3 : (c : Dev nD) → (b : Ref sig .tc) → Buf (Elt F) ((c : Thread nD τ).loc b) := fun c b => W3 m c b
def W4 (c : Dev nD) : Valuation τ sig (Elt F) := StableHlo.after hostOps2 (W3 m c)
abbrev E4 : (c : Dev nD) → (b : Ref sig .tc) → Buf (Elt F) ((c : Thread nD τ).loc b) := fun c b => W4 m c b
/-- The trace region's output as it leaves it. -/
def A34 (c : Dev nD) : Buf (Elt F) ((c : Thread nD τ).loc main_v34) := (dat2 (E4 m) c).arrAt 8 cfg2.N
def W5 (c : Dev nD) : Valuation τ sig (Elt F) := Function.update (W4 m c) main_v34 (A34 m c)
abbrev E5 : (c : Dev nD) → (b : Ref sig .tc) → Buf (Elt F) ((c : Thread nD τ).loc b) := fun c b => W5 m c b

/-- What the regions leave, as the unknowns of the seven valuations. -/
def outs : Gen.Outs (F := F) := fun _ r c =>
  Function.update (Function.update (Function.update (fun r : Ref sig .tc => Gen.V0 m c r) main_v10 (A10 m c)) main_v11 (A11 m c)) main_v34 (A34 m c) r

theorem outs_10 (J : ℕ) (c : Dev nD) : outs m J main_v10 c = A10 m c := by
  unfold outs
  rw [Function.update_of_ne (by decide), Function.update_of_ne (by decide), Function.update_self]
theorem outs_11 (J : ℕ) (c : Dev nD) : outs m J main_v11 c = A11 m c := by
  unfold outs
  rw [Function.update_of_ne (by decide), Function.update_self]
theorem outs_34 (J : ℕ) (c : Dev nD) : outs m J main_v34 c = A34 m c := by
  unfold outs
  rw [Function.update_self]

theorem V2_eq (c : Dev nD) : Gen.V2 m (outs m) c = W2 m c := by
  unfold W2; simp only [Gen.V2, outs_10]
theorem V3_eq (c : Dev nD) : Gen.V3 m (outs m) c = W3 m c := by
  show Function.update (Gen.V2 m (outs m) c) main_v11 (outs m 3 main_v11 c) = _
  rw [V2_eq, outs_11]; rfl
theorem V4_eq (c : Dev nD) : Gen.V4 m (outs m) c = W4 m c := by
  show StableHlo.after hostOps2 (Gen.V3 m (outs m) c) = _
  rw [V3_eq]; rfl
theorem V5_eq (c : Dev nD) : Gen.V5 m (outs m) c = W5 m c := by
  show Function.update (Gen.V4 m (outs m) c) main_v34 (outs m 5 main_v34 c) = _
  rw [V4_eq, outs_34]; rfl

/-! ## The proof data family and what rides beside the buffers -/

/-- Every region's proof data, each at its region's entry values: a literal match on the region. -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) c
  | ⟨2, _⟩ => fun c => dat2 (E4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev Rr (c : Dev nD) : sProp 𝕄 := iprop((∃ r, prngReg c r) ∗ ∃ W, owes (c : Thread nD τ) (0 : CellTallies nD τ sig Unit) W)

/-! ## The first region -/

/-- At the first region's exit each of its arrays holds what the region leaves: the inputs as entered, the output its write-backs. -/
theorem hF0 (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (Function.update_of_ne (StableHlo.devRef_ne_of_ne (by decide) : (Proc.devRef .tc main_v0 : DevRef τ sig) ≠ Proc.devRef .tc main_v10) _ _).symm)
  | ⟨1, _⟩ => exact ((dat0 (E1 m) c).arrAt_in 1 rfl _).trans ((A_eq0 (E1 m) c 1).trans (Function.update_of_ne (StableHlo.devRef_ne_of_ne (by decide) : (Proc.devRef .tc main_v0 : DevRef τ sig) ≠ Proc.devRef .tc main_v10) _ _).symm)
  | ⟨2, _⟩ => exact ((dat0 (E1 m) c).arrAt_in 2 rfl _).trans ((A_eq0 (E1 m) c 2).trans (Function.update_of_ne (StableHlo.devRef_ne_of_ne (by decide) : (Proc.devRef .tc main_v5 : DevRef τ sig) ≠ Proc.devRef .tc main_v10) _ _).symm)
  | ⟨3, _⟩ => exact (Function.update_self (Proc.devRef .tc main_v10 : DevRef τ sig) (A10 m c) (Gen.V1 m c)).symm
theorem hrest0 (c : Dev nD) : ∀ b, b ∉ Finset.univ.image (Pipeline.arrRef spec0) → E2 m c b = E1 m c b := fun b hb =>
  Function.update_of_ne (StableHlo.devRef_ne_of_ne (fun e => hb (Finset.mem_image.mpr ⟨3, Finset.mem_univ _, e.symm⟩)) : (Proc.devRef .tc b : DevRef τ sig) ≠ Proc.devRef .tc main_v10) _ _

set_option backward.isDefEq.respectTransparency.types false in
/-- The first region over the held buffers: entered from the first stretch's values, left with the first matrix replaced. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (unscopedBufs c (E1 m c) : sProp 𝕄) ⊢ iprop((pdats m 0 c).arrays ((pdats m 0 c).arrAt · 0) ∗ Pipeline.unscopedRest spec0 c (E1 m c)) := entry0 (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E1 m c)) ⊢ (unscopedBufs c (E2 m c) : sProp 𝕄) := exit0 (E1 m) c (E2 m c) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- At the second region's exit each of its arrays holds what the region leaves: the inputs as entered, the output its write-backs. -/
theorem hF1 (c : Dev nD) (w : Fin cfg1.W) : (dat1 (E2 m) c).arrAt w cfg1.N = E3 m c (Pipeline.arrRef spec1 w) := by
  match w with
  | ⟨0, _⟩ => exact ((dat1 (E2 m) c).arrAt_in 0 rfl _).trans ((A_eq1 (E2 m) c 0).trans (Function.update_of_ne (StableHlo.devRef_ne_of_ne (by decide) : (Proc.devRef .tc main_v1 : DevRef τ sig) ≠ Proc.devRef .tc main_v11) _ _).symm)
  | ⟨1, _⟩ => exact ((dat1 (E2 m) c).arrAt_in 1 rfl _).trans ((A_eq1 (E2 m) c 1).trans (Function.update_of_ne (StableHlo.devRef_ne_of_ne (by decide) : (Proc.devRef .tc main_v1 : DevRef τ sig) ≠ Proc.devRef .tc main_v11) _ _).symm)
  | ⟨2, _⟩ => exact ((dat1 (E2 m) c).arrAt_in 2 rfl _).trans ((A_eq1 (E2 m) c 2).trans (Function.update_of_ne (StableHlo.devRef_ne_of_ne (by decide) : (Proc.devRef .tc main_v9 : DevRef τ sig) ≠ Proc.devRef .tc main_v11) _ _).symm)
  | ⟨3, _⟩ => exact (Function.update_self (Proc.devRef .tc main_v11 : DevRef τ sig) (A11 m c) (W2 m c)).symm
theorem hrest1 (c : Dev nD) : ∀ b, b ∉ Finset.univ.image (Pipeline.arrRef spec1) → E3 m c b = E2 m c b := fun b hb =>
  Function.update_of_ne (StableHlo.devRef_ne_of_ne (fun e => hb (Finset.mem_image.mpr ⟨3, Finset.mem_univ _, e.symm⟩)) : (Proc.devRef .tc b : DevRef τ sig) ≠ Proc.devRef .tc main_v11) _ _

set_option backward.isDefEq.respectTransparency.types false in
/-- The second region over the held buffers: entered from what the first region leaves, left with the second matrix replaced. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄) ⊢ iprop((pdats m 1 c).arrays ((pdats m 1 c).arrAt · 0) ∗ Pipeline.unscopedRest spec1 c (E2 m c)) := entry1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E2 m c)) ⊢ (unscopedBufs c (E3 m c) : sProp 𝕄) := exit1 (E2 m) c (E3 m c) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The trace region -/

set_option maxHeartbeats 2000000 in
/-- At the trace region's exit each of its arrays holds what the region leaves: the eight inputs as entered, the output its write-backs. -/
theorem hF2 (c : Dev nD) (w : Fin cfg2.W) : (dat2 (E4 m) c).arrAt w cfg2.N = E5 m c (Pipeline.arrRef spec2 w) := by
  match w with
  | ⟨0, _⟩ => exact ((dat2 (E4 m) c).arrAt_in 0 rfl _).trans ((A_eq2 (E4 m) c 0).trans (Function.update_of_ne (StableHlo.devRef_ne_of_ne (by decide) : (Proc.devRef .tc main_v10 : DevRef τ sig) ≠ Proc.devRef .tc main_v34) _ _).symm)
  | ⟨1, _⟩ => exact ((dat2 (E4 m) c).arrAt_in 1 rfl _).trans ((A_eq2 (E4 m) c 1).trans (Function.update_of_ne (StableHlo.devRef_ne_of_ne (by decide) : (Proc.devRef .tc main_v11 : DevRef τ sig) ≠ Proc.devRef .tc main_v34) _ _).symm)
  | ⟨2, _⟩ => exact ((dat2 (E4 m) c).arrAt_in 2 rfl _).trans ((A_eq2 (E4 m) c 2).trans (Function.update_of_ne (StableHlo.devRef_ne_of_ne (by decide) : (Proc.devRef .tc main_v15 : DevRef τ sig) ≠ Proc.devRef .tc main_v34) _ _).symm)
  | ⟨3, _⟩ => exact ((dat2 (E4 m) c).arrAt_in 3 rfl _).trans ((A_eq2 (E4 m) c 3).trans (Function.update_of_ne (StableHlo.devRef_ne_of_ne (by decide) : (Proc.devRef .tc main_v19 : DevRef τ sig) ≠ Proc.devRef .tc main_v34) _ _).symm)
  | ⟨4, _⟩ => exact ((dat2 (E4 m) c).arrAt_in 4 rfl _).trans ((A_eq2 (E4 m) c 4).trans (Function.update_of_ne (StableHlo.devRef_ne_of_ne (by decide) : (Proc.devRef .tc main_v22 : DevRef τ sig) ≠ Proc.devRef .tc main_v34) _ _).symm)
  | ⟨5, _⟩ => exact ((dat2 (E4 m) c).arrAt_in 5 rfl _).trans ((A_eq2 (E4 m) c 5).trans (Function.update_of_ne (StableHlo.devRef_ne_of_ne (by decide) : (Proc.devRef .tc main_v26 : DevRef τ sig) ≠ Proc.devRef .tc main_v34) _ _).symm)
  | ⟨6, _⟩ => exact ((dat2 (E4 m) c).arrAt_in 6 rfl _).trans ((A_eq2 (E4 m) c 6).trans (Function.update_of_ne (StableHlo.devRef_ne_of_ne (by decide) : (Proc.devRef .tc main_v30 : DevRef τ sig) ≠ Proc.devRef .tc main_v34) _ _).symm)
  | ⟨7, _⟩ => exact ((dat2 (E4 m) c).arrAt_in 7 rfl _).trans ((A_eq2 (E4 m) c 7).trans (Function.update_of_ne (StableHlo.devRef_ne_of_ne (by decide) : (Proc.devRef .tc main_v33 : DevRef τ sig) ≠ Proc.devRef .tc main_v34) _ _).symm)
  | ⟨8, _⟩ =>
    show (dat2 (E4 m) c).arrAt 8 cfg2.N
      = Function.update (W4 m c) (Proc.devRef .tc main_v34 : DevRef τ sig) ((dat2 (E4 m) c).arrAt 8 cfg2.N) (Proc.devRef .tc main_v34)
    exact (Function.update_self (Proc.devRef .tc main_v34 : DevRef τ sig) ((dat2 (E4 m) c).arrAt 8 cfg2.N) (W4 m c)).symm
theorem hrest2 (c : Dev nD) : ∀ b, b ∉ Finset.univ.image (Pipeline.arrRef spec2) → E5 m c b = E4 m c b := fun b hb =>
  Function.update_of_ne (StableHlo.devRef_ne_of_ne (fun e => hb (Finset.mem_image.mpr ⟨8, Finset.mem_univ _, e.symm⟩)) : (Proc.devRef .tc b : DevRef τ sig) ≠ Proc.devRef .tc main_v34) _ _

set_option backward.isDefEq.respectTransparency.types false in
/-- The trace region over the held buffers: entered from the middle stretch's values, left with its output replaced. Its
    nine arrays are distinct buffers, each held whole. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference is among those the held state tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program ends, and every buffer that outlives the regions then holds the last
    valuation's value: the host stretches applied in turn, each region's output at what its write-backs leave. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V6 m (outs m) c b) :=
  Gen.run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => Entails.of_eq (by rw [V2_eq]; rfl))
    (R1 := reg1 m) (hpre1 := fun c => Entails.of_eq (by rw [V2_eq]; rfl)) (hpost1 := fun c => Entails.of_eq (by rw [V3_eq]; rfl))
    (R2 := reg2 m) (hpre2 := fun c => Entails.of_eq (by rw [V4_eq]; rfl)) (hpost2 := fun c => Entails.of_eq (by rw [V5_eq]; rfl))

/-- The frame: the program runs to the end and its two argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V6_main_arg0 m (outs m) c),
     (h c _ (mem_uc main_arg1 (by decide))).trans (Gen.V6_main_arg1 m (outs m) c)⟩) (run_all m ρ)

end Cert.Kernel.Asm

end
-- ==== Proof.RbfRegionI.lean ====
/-
  The first two regions of the program. Each builds one 4096 x 4096 matrix of the one-sided Gaussian kernel,
      K[p, q] = exp ( (sum over k of a[p, k] * a[q, k]) - s[p] ),
  from an array a of 4096 rows of 1024 bf16 numbers and a column s of 4096 f32 numbers (region 0: a is the first
  argument rounded to bf16 and s the squared norms of its rows; region 1: the same of the second argument).

  The matrix is computed tile by tile on an 8 x 8 grid. At grid point (I, J):
    window 0 holds rows 512 I .. 512 I + 511 of a            (a 512 x 1024 block),
    window 1 holds rows 512 J .. 512 J + 511 of the SAME a   (a 512 x 1024 block),
    window 2 holds rows 512 I .. 512 I + 511 of s            (a 512 x 1 block),
    window 3 is the 512 x 512 tile (I, J) of the result.
  With x0, x1, x2 the three input blocks, the body stores into the whole output block
      exp (x0 * transpose x1 - x2 repeated along the columns),
  a function of the three input blocks alone (it reads the output block first; that value is not used), and leaves the
  input blocks as they were. Windows 0 and 2 move only when I changes, so they are copied in only at the points with
  J = 0; between such points their buffers still hold the block of the current I.

  Two input windows read one array. Outside the region the array is held at its full share; between the region's entry
  and its exit each of the two windows holds one half of that share (the left half and the right half), which is
  enough to read it. The entry splits the core's unscoped buffers into the three distinct buffers behind the four
  windows (the shared one dealt in halves) and the rest; the exit joins the halves again and puts the arrays, the
  result matrix at what the write-backs left, back among the unscoped buffers.
-/
import proofs.«147226_j26061861552238_2_alg».proof.Proof.Gen.KernelIdeal.Launch
import proofs.«147226_j26061861552238_2_alg».proof.Proof.Gen.KernelIdeal.Skeleton
import proofs.«147226_j26061861552238_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two Gaussian-kernel regions: proof data, body obligation, entry and exit -/

-- membership in a rectangle of full extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: `cc0__rbf_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S512x1024 := Rect.unit (s := S512x1024) ![0, 0] S512x1024.size inb_S512x1024_S512x1024_0_0
abbrev r0_1 : Rect S512x1024 := Rect.unit (s := S512x1024) ![0, 0] S512x1024.size inb_S512x1024_S512x1024_0_0
abbrev r0_2 : Rect S512x1 := Rect.unit (s := S512x1) ![0, 0] S512x1.size inb_S512x1_S512x1_0_0
abbrev r0_3 : Rect S512x512 := Rect.unit (s := S512x512) ![0, 0] S512x512.size inb_S512x512_S512x512_0_0

/-! ## What the body leaves in the output window's buffer -/

/-- Window 3's staging buffer after the body, from the input windows' blocks: its one whole-block store. -/
def out0_3 (x0 x1 : Vec F S512x1024 .bf16) (x2 : Vec F S512x1 .f32) : Vec F S512x512 .f32 :=
  View.canon [⟨r0_3, k0_pay1 (View.ld x0 r0_0) (View.ld x1 r0_1) (View.ld x2 r0_2)⟩]

/-- The one store is of the whole buffer, so it covers it. -/
theorem cover0_3 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

/-! ## The body's triple -/

set_option maxHeartbeats 1000000 in
/-- The kernel body on whole staging memrefs, the inputs' at read contents `x0 x1 x2` and the output's at anything, runs to
    the continuation holding the inputs' as they were and the output's at `out0_3` of the inputs'. The body also loads
    the output buffer before it stores into it; the value loaded is not used. -/
theorem sound_kernel0 (c : Dev nD) (E : Set ℕ) (i : grid0.Coords) (arg2 : Memref sig .tc .vmem S512x1024 .bf16) (harg2 : arg2.IsWhole)
    (arg3 : Memref sig .tc .vmem S512x1024 .bf16) (harg3 : arg3.IsWhole) (arg4 : Memref sig .tc .vmem S512x1 .f32) (harg4 : arg4.IsWhole)
    (arg5 : Memref sig .tc .vmem S512x512 .f32) (harg5 : arg5.IsWhole)
    (x0 x1 : Vec F S512x1024 .bf16) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__rbf_kernel i arg2 harg2 arg3 harg3 arg4 harg4 arg5 harg5) K := by
  simp only [cc0__rbf_kernel_eq_skeleton]; unfold cc0__rbf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t` each
    input's buffer at its block and the output's at `out0_3` of the input blocks; the invariant the scoped rest and the
    generator register, untouched; nothing owed. Windows 0 and 1 read one array (`main_v0`): each holds one half of its
    full share; window 2's array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq0 (c : Dev nD) (w : Fin cfg0.W) : (dat0 V c).A w = V c (Pipeline.arrRef spec0 w) := by
  dsimp only [dat0]
theorem Φ_eq0 (c : Dev nD) (t : Fin (cfg0.N + 1)) : (dat0 V c).Φ t = Pipeline.ΦA spec0 c := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

/-- The shares, window by window. -/
theorem share0_0 (c : Dev nD) : (dat0 V c).share 0 = fullShare.left := by unfold Dat.share; dsimp only [dat0]; rfl
theorem share0_1 (c : Dev nD) : (dat0 V c).share 1 = fullShare.right := by unfold Dat.share; dsimp only [dat0]; rfl
theorem share0_2 (c : Dev nD) : (dat0 V c).share 2 = fullShare := by unfold Dat.share; dsimp only [dat0]; rfl
theorem share0_3 (c : Dev nD) : (dat0 V c).share 3 = fullShare := by unfold Dat.share; dsimp only [dat0]; rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not: where it is not fetched
    the window's block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entry and exit: the arrays out of the core's unscoped buffers, and back -/

/-- The buffers behind the four windows' arrays are three. -/
theorem arrImage0 : Finset.univ.image (Pipeline.arrRef spec0) = {main_v0, main_v5, main_v10} := by decide

/-- The distinct buffers behind the windows' arrays, one by one. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v5) ↦{fullShare} W main_v5) ∗ (((c : Thread nD τ).loc main_v10) ↦{fullShare} W main_v10)) :=
  bigSep_eq_bigSepL_of_eq [main_v0, main_v5, main_v10] (by decide) (by decide) _

/-- The core's unscoped buffers are the buffers behind the windows' arrays and the rest. -/
theorem unscopedBufs_split0 (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs 0 winFacts₀0.arr_unscoped c W

/-- ENTRY: the core's unscoped buffers at contents `V c` are the pipeline's arrays at the proof data's entry contents —
    the shared input array's full share dealt in halves to windows 0 and 1 — and the unscoped rest. -/
theorem entry0 (c : Dev nD) :
    (unscopedBufs c (V c) : sProp 𝕄)
      ⊢ iprop((dat0 V c).arrays ((dat0 V c).arrAt · 0) ∗ Pipeline.unscopedRest spec0 c (V c)) := by
  rw [unscopedBufs_split0, arrBufs0_eq]
  refine sep_mono ?_ .rfl
  unfold Dat.arrays
  rw [bigSep_W0, share0_0, share0_1, share0_2, share0_3]
  have h0 : ∀ w, (dat0 V c).arrAt w 0 = V c (Pipeline.arrRef spec0 w) := fun w => A_eq0 V c w
  simp only [h0]
  rw [(arr_whole0 0).set_eq_univ, (arr_whole0 2).set_eq_univ, (arr_whole0 3).set_eq_univ]
  iintro ⟨Ha, Hs, Ho⟩
  icases (pointsTo_share (PosShare.mem_left_op_right fullShare)).1 $$ Ha with ⟨Hl, Hr⟩
  isplitl [Hl]; · iexact Hl
  isplitl [Hr]; · iexact Hr
  isplitl [Hs]; · iexact Hs
  iexact Ho

/-- EXIT: the pipeline's arrays at what it leaves and the unscoped rest are the core's unscoped buffers at any contents
    `V'` that has the arrays at what the pipeline leaves and agrees with `V c` off them: the two halves of the shared
    input array's share join again. -/
theorem exit0 (c : Dev nD) (V' : (b : Ref sig .tc) → Buf (Elt F) ((c : Thread nD τ).loc b))
    (hF : ∀ w, (dat0 V c).arrAt w cfg0.N = V' (Pipeline.arrRef spec0 w))
    (hrest : ∀ b, b ∉ Finset.univ.image (Pipeline.arrRef spec0) → V' b = V c b) :
    iprop((dat0 V c).arrays ((dat0 V c).arrAt · cfg0.N) ∗ Pipeline.unscopedRest spec0 c (V c))
      ⊢ (unscopedBufs c V' : sProp 𝕄) := by
  rw [unscopedBufs_split0, arrBufs0_eq]
  refine sep_mono ?_ (Entails.of_eq ?_)
  · unfold Dat.arrays
    rw [bigSep_W0, share0_0, share0_1, share0_2, share0_3]
    simp only [hF]
    rw [(arr_whole0 0).set_eq_univ, (arr_whole0 2).set_eq_univ, (arr_whole0 3).set_eq_univ]
    iintro ⟨Hl, Hr, Hs, Ho⟩
    isplitl [Hl Hr]
    · iapply (pointsTo_share (PosShare.mem_left_op_right fullShare)).2
      isplitl [Hl]; · iexact Hl
      iexact Hr
    isplitl [Hs]; · iexact Hs
    iexact Ho
  · unfold Pipeline.unscopedRest
    exact bigSep_congr fun b hb => by rw [hrest b (Finset.mem_sdiff.mp hb).2]

/-! # REGION 1: `cc1__rbf_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S512x1024 := Rect.unit (s := S512x1024) ![0, 0] S512x1024.size inb_S512x1024_S512x1024_0_0
abbrev r1_1 : Rect S512x1024 := Rect.unit (s := S512x1024) ![0, 0] S512x1024.size inb_S512x1024_S512x1024_0_0
abbrev r1_2 : Rect S512x1 := Rect.unit (s := S512x1) ![0, 0] S512x1.size inb_S512x1_S512x1_0_0
abbrev r1_3 : Rect S512x512 := Rect.unit (s := S512x512) ![0, 0] S512x512.size inb_S512x512_S512x512_0_0

/-! ## What the body leaves in the output window's buffer -/

/-- Window 3's staging buffer after the body, from the input windows' blocks: its one whole-block store. -/
def out1_3 (x0 x1 : Vec F S512x1024 .bf16) (x2 : Vec F S512x1 .f32) : Vec F S512x512 .f32 :=
  View.canon [⟨r1_3, k1_pay1 (View.ld x0 r1_0) (View.ld x1 r1_1) (View.ld x2 r1_2)⟩]

/-- The one store is of the whole buffer, so it covers it. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

/-! ## The body's triple -/

set_option maxHeartbeats 1000000 in
/-- The kernel body on whole staging memrefs, the inputs' at read contents `x0 x1 x2` and the output's at anything, runs to
    the continuation holding the inputs' as they were and the output's at `out1_3` of the inputs'. The body also loads
    the output buffer before it stores into it; the value loaded is not used. -/
theorem sound_kernel1 (c : Dev nD) (E : Set ℕ) (i : grid1.Coords) (arg2 : Memref sig .tc .vmem S512x1024 .bf16) (harg2 : arg2.IsWhole)
    (arg3 : Memref sig .tc .vmem S512x1024 .bf16) (harg3 : arg3.IsWhole) (arg4 : Memref sig .tc .vmem S512x1 .f32) (harg4 : arg4.IsWhole)
    (arg5 : Memref sig .tc .vmem S512x512 .f32) (harg5 : arg5.IsWhole)
    (x0 x1 : Vec F S512x1024 .bf16) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__rbf_kernel i arg2 harg2 arg3 harg3 arg4 harg4 arg5 harg5) K := by
  simp only [cc1__rbf_kernel_eq_skeleton]; unfold cc1__rbf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t` each
    input's buffer at its block and the output's at `out1_3` of the input blocks; the invariant the scoped rest and the
    generator register, untouched; nothing owed. Windows 0 and 1 read one array (`main_v1`): each holds one half of its
    full share; window 2's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]
theorem Φ_eq1 (c : Dev nD) (t : Fin (cfg1.N + 1)) : (dat1 V c).Φ t = Pipeline.ΦA spec1 c := rfl
theorem owed_eq1 (c : Dev nD) (t : Fin (cfg1.N + 1)) : (dat1 V c).owed t = 0 := rfl
theorem recorded_eq1 (c : Dev nD) (t : Fin (cfg1.N + 1)) : (dat1 V c).recorded t = Set.univ := rfl

/-- The shares, window by window. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl
theorem share1_3 (c : Dev nD) : (dat1 V c).share 3 = fullShare := by unfold Dat.share; dsimp only [dat1]; rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not: where it is not fetched
    the window's block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit: the arrays out of the core's unscoped buffers, and back -/

/-- The buffers behind the four windows' arrays are three. -/
theorem arrImage1 : Finset.univ.image (Pipeline.arrRef spec1) = {main_v1, main_v9, main_v11} := by decide

/-- The distinct buffers behind the windows' arrays, one by one. -/
theorem arrBufs1_eq (c : Dev nD) (W : (b : Ref sig .tc) → Buf (Elt F) ((c : Thread nD τ).loc b)) :
    (Pipeline.arrBufs spec1 c W : sProp 𝕄)
      = iprop((((c : Thread nD τ).loc main_v1) ↦{fullShare} W main_v1) ∗ (((c : Thread nD τ).loc main_v9) ↦{fullShare} W main_v9) ∗ (((c : Thread nD τ).loc main_v11) ↦{fullShare} W main_v11)) :=
  bigSep_eq_bigSepL_of_eq [main_v1, main_v9, main_v11] (by decide) (by decide) _

/-- The core's unscoped buffers are the buffers behind the windows' arrays and the rest. -/
theorem unscopedBufs_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the core's unscoped buffers at contents `V c` are the pipeline's arrays at the proof data's entry contents —
    the shared input array's full share dealt in halves to windows 0 and 1 — and the unscoped rest. -/
theorem entry1 (c : Dev nD) :
    (unscopedBufs c (V c) : sProp 𝕄)
      ⊢ iprop((dat1 V c).arrays ((dat1 V c).arrAt · 0) ∗ Pipeline.unscopedRest spec1 c (V c)) := by
  rw [unscopedBufs_split1, arrBufs1_eq]
  refine sep_mono ?_ .rfl
  unfold Dat.arrays
  rw [bigSep_W1, share1_0, share1_1, share1_2, share1_3]
  have h0 : ∀ w, (dat1 V c).arrAt w 0 = V c (Pipeline.arrRef spec1 w) := fun w => A_eq1 V c w
  simp only [h0]
  rw [(arr_whole1 0).set_eq_univ, (arr_whole1 2).set_eq_univ, (arr_whole1 3).set_eq_univ]
  iintro ⟨Ha, Hs, Ho⟩
  icases (pointsTo_share (PosShare.mem_left_op_right fullShare)).1 $$ Ha with ⟨Hl, Hr⟩
  isplitl [Hl]; · iexact Hl
  isplitl [Hr]; · iexact Hr
  isplitl [Hs]; · iexact Hs
  iexact Ho

/-- EXIT: the pipeline's arrays at what it leaves and the unscoped rest are the core's unscoped buffers at any contents
    `V'` that has the arrays at what the pipeline leaves and agrees with `V c` off them: the two halves of the shared
    input array's share join again. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  rw [unscopedBufs_split1, arrBufs1_eq]
  refine sep_mono ?_ (Entails.of_eq ?_)
  · unfold Dat.arrays
    rw [bigSep_W1, share1_0, share1_1, share1_2, share1_3]
    simp only [hF]
    rw [(arr_whole1 0).set_eq_univ, (arr_whole1 2).set_eq_univ, (arr_whole1 3).set_eq_univ]
    iintro ⟨Hl, Hr, Hs, Ho⟩
    isplitl [Hl Hr]
    · iapply (pointsTo_share (PosShare.mem_left_op_right fullShare)).2
      isplitl [Hl]; · iexact Hl
      iexact Hr
    isplitl [Hs]; · iexact Hs
    iexact Ho
  · unfold Pipeline.unscopedRest
    exact bigSep_congr fun b hb => by rw [hrest b (Finset.mem_sdiff.mp hb).2]

end Cert.KernelIdeal.Hand

end
-- ==== Proof.TraceRegionI.lean ====
/-
  The trace region: its proof data and the body's obligation.

  The third region runs over an 8 × 8 grid of tiles (I, J). At tile (I, J) the body reads the 512 × 512 tile (I, J) of the
  first Gaussian-kernel matrix and the mirrored tile (J, I) of the second, together with the slices of their row means,
  column means and grand means that belong to those tiles. It centres each tile (entry minus its row's mean, minus its
  column's mean, plus the grand mean), multiplies the first centred tile entry by entry with the transpose of the second,
  and sums the tile to one number. That number, scaled by 2⁻¹⁰, is added to every entry of an 8 × 128 output block, which
  is row-block I of a 64 × 128 array. The block is filled with zeros at the first column tile J = 0, is carried from one
  column tile to the next, and is written back to the array after the last, J = 7.

  This file states that as data about the region, for any float instance and any contents the region may be entered with:
    * the block each of the nine windows holds at a grid point (`iblk2`);
    * one step of the accumulation as a function of the eight input blocks and of what the output block held (`acc2`),
      and the zeroed block (`zero2`);
    * what the output block holds after each grid point, by recursion on the point (`outsAt2`), with its two case
      equations: at a first column tile the step over the zeroed block (`after2_8_first`), at a later one the step over
      what the point before left (`after2_8_next`);
    * the body's triples in the two cases (`sound_kernel2_first`, `sound_kernel2_next`): on buffers holding the input
      blocks the body leaves the inputs as they were and the output block at the step;
    * what the body finds in each buffer at a point (`before2_0` … `before2_7`: an input's block, whether or not it was
      fetched there, since unfetched its block index has not moved; `before2_8_next`: the output block as the point
      before left it, since it is written back only after the last column tile);
    * the body's obligation at every grid point (`body_obligation2`).
-/
import proofs.«147226_j26061861552238_2_alg».proof.Proof.Gen.KernelIdeal.Launch
import proofs.«147226_j26061861552238_2_alg».proof.Proof.Gen.KernelIdeal.Skeleton
import proofs.«147226_j26061861552238_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is the whole of its buffer -/

abbrev rK : Rect S512x512 := Rect.unit (s := S512x512) ![0, 0] S512x512.size inb_S512x512_S512x512_0_0
abbrev rC : Rect S512x1 := Rect.unit (s := S512x1) ![0, 0] S512x1.size inb_S512x1_S512x1_0_0
abbrev rR : Rect S1x512 := Rect.unit (s := S1x512) ![0, 0] S1x512.size inb_S1x512_S1x512_0_0
abbrev rS : Rect S1x1 := Rect.unit (s := S1x1) ![0, 0] S1x1.size inb_S1x1_S1x1_0_0
abbrev rO : Rect S8x128 := Rect.unit (s := S8x128) ![0, 0] S8x128.size inb_S8x128_S8x128_0_0

/-! ## One step of the accumulation -/

/-- What the zeroing store of a row-block's first point leaves in the output buffer. -/
def zero2 : Vec F S8x128 .f32 := View.canon [⟨rO, k2_pay2 (F := F)⟩]

/-- The output buffer after the body, from the eight input blocks and the buffer's contents `prev` when the
    accumulating store is reached: the tile's scalar, scaled, added to every entry of `prev`. -/
def acc2 (x0 x1 : Vec F S512x512 .f32) (x2 : Vec F S512x1 .f32) (x3 : Vec F S1x512 .f32) (x4 : Vec F S1x1 .f32)
    (x5 : Vec F S512x1 .f32) (x6 : Vec F S1x512 .f32) (x7 : Vec F S1x1 .f32) (prev : Vec F S8x128 .f32) : Vec F S8x128 .f32 :=
  View.canon [⟨rO, k2_pay1 (k2_pay3 (View.ld x0 rK) (View.ld x1 rK) (View.ld x2 rC) (View.ld x3 rR) (View.ld x4 rS)
    (View.ld x5 rC) (View.ld x6 rR) (View.ld x7 rS)) (View.ld prev rO)⟩]

/-! ## What the output holds after each point -/

/-- The output buffer after the body at position `n`: at the first point of a row-block the step over the zeroed
    buffer, at a later one the step over what the point before left (the buffer is not written back between). -/
def outsAt2 (c : Dev nD) : (n : ℕ) → n < cfg2.N → Vec F S8x128 .f32
  | 0, hn => acc2 (iblk2 V c 0 ⟨0, hn⟩) (iblk2 V c 1 ⟨0, hn⟩) (iblk2 V c 2 ⟨0, hn⟩) (iblk2 V c 3 ⟨0, hn⟩) (iblk2 V c 4 ⟨0, hn⟩)
      (iblk2 V c 5 ⟨0, hn⟩) (iblk2 V c 6 ⟨0, hn⟩) (iblk2 V c 7 ⟨0, hn⟩) zero2
  | n + 1, hn =>
    if (n + 1) % 8 = 0 then
      acc2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (iblk2 V c 7 ⟨n + 1, hn⟩) zero2
    else
      acc2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (iblk2 V c 7 ⟨n + 1, hn⟩) (outsAt2 c n (Nat.lt_of_succ_lt hn))

/-! ## The pipeline's proof data -/

/-- The proof data of the pipeline on core `c`: the arrays as the region finds them; after the body at point `t`
    each input's buffer at its block and the output's at `outsAt2`; the scoped rest and the generator register as
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem Φ_eq2 (c : Dev nD) (t) : (dat2 V c).Φ t = Pipeline.ΦA spec2 c := rfl
theorem owed_eq2 (c : Dev nD) (t) : (dat2 V c).owed t = 0 := rfl
theorem recorded_eq2 (c : Dev nD) (t) : (dat2 V c).recorded t = Set.univ := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = outsAt2 V c t.val t.isLt := by dsimp only [dat2]

/-- `outsAt2` at the first point of a row-block: the step over the zeroed buffer. -/
theorem outsAt2_first (c : Dev nD) (t : Fin cfg2.N) (h0 : t.val % 8 = 0) :
    outsAt2 V c t.val t.isLt = acc2 (iblk2 V c 0 t) (iblk2 V c 1 t) (iblk2 V c 2 t) (iblk2 V c 3 t) (iblk2 V c 4 t)
      (iblk2 V c 5 t) (iblk2 V c 6 t) (iblk2 V c 7 t) zero2 := by
  obtain ⟨n, hn⟩ := t
  cases n with
  | zero => exact rfl
  | succ n => exact (if_pos h0).trans rfl

/-- `outsAt2` at a later point of a row-block: the step over what the point before left. -/
theorem outsAt2_next (c : Dev nD) (t : Fin cfg2.N) (h0 : ¬t.val % 8 = 0) :
    outsAt2 V c t.val t.isLt = acc2 (iblk2 V c 0 t) (iblk2 V c 1 t) (iblk2 V c 2 t) (iblk2 V c 3 t) (iblk2 V c 4 t)
      (iblk2 V c 5 t) (iblk2 V c 6 t) (iblk2 V c 7 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- At the first point of a row-block the output holds the step over the zeroed buffer; -/
theorem after2_8_first (c : Dev nD) (t : Fin cfg2.N) (h : t.val % 8 = 0) :
    (dat2 V c).after 8 t = acc2 (iblk2 V c 0 t) (iblk2 V c 1 t) (iblk2 V c 2 t) (iblk2 V c 3 t) (iblk2 V c 4 t)
      (iblk2 V c 5 t) (iblk2 V c 6 t) (iblk2 V c 7 t) zero2 :=
  (after2_8 V c t).trans (outsAt2_first V c t h)

/-- at a later point, the step over what the point before left. -/
theorem after2_8_next (c : Dev nD) (t : Fin cfg2.N) (h : t.val % 8 ≠ 0) :
    (dat2 V c).after 8 t = acc2 (iblk2 V c 0 t) (iblk2 V c 1 t) (iblk2 V c 2 t) (iblk2 V c 3 t) (iblk2 V c 4 t)
      (iblk2 V c 5 t) (iblk2 V c 6 t) (iblk2 V c 7 t)
      ((dat2 V c).after 8 ⟨t.val - 1, Nat.lt_of_le_of_lt (Nat.sub_le _ _) t.isLt⟩) := by
  rw [after2_8 V c t, after2_8 V c ⟨t.val - 1, Nat.lt_of_le_of_lt (Nat.sub_le _ _) t.isLt⟩]
  exact outsAt2_next V c t h

/-! ## The body's branch condition -/

/-- The condition of the body's one conditional, from the grid coordinates: the column-block index is zero. -/
abbrev cond2 (i : grid2.Coords) : Prop :=
  (Scalar.cmpi .ne (Scalar.extui (Scalar.cmpi .eq (BitVec.ofNat 32 (i 1).val) 0#32)) 0#32) = 1#1

/-- It holds exactly at the first point of each row-block — decided over the grid. -/
theorem hcond2 : ∀ t : Fin cfg2.N, cond2 (grid2.coords t) ↔ t.val % 8 = 0 :=
  (by decide +kernel : ∀ t : Fin grid2.N, cond2 (grid2.coords t) ↔ t.val % 8 = 0)

/-! ## The output buffer through its whole-buffer rectangle -/

/-- Every index of the output buffer lies in the whole-buffer rectangle. -/
theorem memO (y : S8x128.Idx) : y ∈ (rO).set := by
  obtain ⟨pc, hm, hy⟩ := View.cover_of_tiled ([⟨rO, fun _ => ()⟩] : List (View.Piece (fun _ => Unit) S8x128 .f32)) S8x128.size (by rfl) y
  rcases List.mem_singleton.mp hm with rfl
  exact hy

/-- So a list of stores that begins with a whole-buffer store covers the buffer. -/
theorem coverO (p0 : rO.shape.Idx → Elt F .f32) (L : List (View.Piece (Elt F) S8x128 .f32)) (y : S8x128.Idx) :
    ∃ pc ∈ ((⟨rO, p0⟩ :: L) : List (View.Piece (Elt F) S8x128 .f32)), y ∈ pc.1.set :=
  ⟨⟨rO, p0⟩, List.mem_cons_self, memO y⟩

/-- The first point's two stores read back: the zeroing store is wholly overwritten, and what the accumulating store
    read of the buffer in between is the zeroed buffer. -/
theorem read_first (v : View sig .tc .vmem S8x128 .f32) (f : v.ty.Contents (Elt F)) (g : FVec F S1x1 .f32) :
    v.read (Elt F) (v.writes (Elt F) f [⟨rO, k2_pay1 g (v.readCov [⟨rO, k2_pay2 (F := F)⟩] rO)⟩, ⟨rO, k2_pay2 (F := F)⟩])
      = View.canon [⟨rO, k2_pay1 g (View.ld (zero2 (F := F)) rO)⟩] := by
  rw [View.read_writes_eq_canon _ _ _ (coverO _ _), View.readCov_eq_canon_ld v _ rO (coverO _ _)]
  funext y
  obtain ⟨x, rfl⟩ : ∃ x, (rO).emb x = y := (rO).exists_idx_of_mem (memO y)
  rw [View.canon_cons_emb, View.canon_cons_emb]
  rfl

set_option maxHeartbeats 1000000 in
/-- The body at a later point of a row-block, on whole staging memrefs: the inputs' at contents `xW`, the output's
    at `prev`; it runs to the continuation holding the inputs' as they were and the output's at the step over `prev`. -/
theorem sound_kernel2_next (c : Dev nD) (E : Set ℕ) (i : grid2.Coords) (a0 : Memref sig .tc .vmem S512x512 .f32) (h0 : a0.IsWhole) (a1 : Memref sig .tc .vmem S512x512 .f32) (h1 : a1.IsWhole)
    (a2 : Memref sig .tc .vmem S512x1 .f32) (h2 : a2.IsWhole) (a3 : Memref sig .tc .vmem S1x512 .f32) (h3 : a3.IsWhole)
    (a4 : Memref sig .tc .vmem S1x1 .f32) (h4 : a4.IsWhole) (a5 : Memref sig .tc .vmem S512x1 .f32) (h5 : a5.IsWhole)
    (a6 : Memref sig .tc .vmem S1x512 .f32) (h6 : a6.IsWhole) (a7 : Memref sig .tc .vmem S1x1 .f32) (h7 : a7.IsWhole)
    (a8 : Memref sig .tc .vmem S8x128 .f32) (h8 : a8.IsWhole)
    (hc : ¬cond2 i) (x0 x1 : Vec F S512x512 .f32) (x2 : Vec F S512x1 .f32) (x3 : Vec F S1x512 .f32) (x4 : Vec F S1x1 .f32)
    (x5 : Vec F S512x1 .f32) (x6 : Vec F S1x512 .f32) (x7 : Vec F S1x1 .f32) (prev : Vec F S8x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare prev
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (acc2 x0 x1 x2 x3 x4 x5 x6 x7 prev)) -∗ K ⟨⟩))
      ⊢ wp frame (wpE (defs₀ (F := F)) Variants.none c none) E (cc2__trace_kernel i a0 h0 a1 h1 a2 h2 a3 h3 a4 h4 a5 h5 a6 h6 a7 h7 a8 h8) K := by
  simp only [cc2__trace_kernel_eq_skeleton]; unfold cc2__trace_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_run_names
  exact View.read_writes_eq_canon _ _ _ (coverO _ _)

set_option maxHeartbeats 1000000 in
/-- The body at the first point of a row-block: the inputs' at contents `xW`, the output's at anything; it runs to
    the continuation holding the inputs' as they were and the output's at the step over the zeroed buffer. -/
theorem sound_kernel2_first (c : Dev nD) (E : Set ℕ) (i : grid2.Coords) (a0 : Memref sig .tc .vmem S512x512 .f32) (h0 : a0.IsWhole) (a1 : Memref sig .tc .vmem S512x512 .f32) (h1 : a1.IsWhole)
    (a2 : Memref sig .tc .vmem S512x1 .f32) (h2 : a2.IsWhole) (a3 : Memref sig .tc .vmem S1x512 .f32) (h3 : a3.IsWhole)
    (a4 : Memref sig .tc .vmem S1x1 .f32) (h4 : a4.IsWhole) (a5 : Memref sig .tc .vmem S512x1 .f32) (h5 : a5.IsWhole)
    (a6 : Memref sig .tc .vmem S1x512 .f32) (h6 : a6.IsWhole) (a7 : Memref sig .tc .vmem S1x1 .f32) (h7 : a7.IsWhole)
    (a8 : Memref sig .tc .vmem S8x128 .f32) (h8 : a8.IsWhole)
    (hc : cond2 i) (x0 x1 : Vec F S512x512 .f32) (x2 : Vec F S512x1 .f32) (x3 : Vec F S1x512 .f32) (x4 : Vec F S1x1 .f32)
    (x5 : Vec F S512x1 .f32) (x6 : Vec F S1x512 .f32) (x7 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (acc2 x0 x1 x2 x3 x4 x5 x6 x7 zero2)) -∗ K ⟨⟩))
      ⊢ wp frame (wpE (defs₀ (F := F)) Variants.none c none) E (cc2__trace_kernel i a0 h0 a1 h1 a2 h2 a3 h3 a4 h4 a5 h5 a6 h6 a7 h7 a8 h8) K := by
  simp only [cc2__trace_kernel_eq_skeleton]; unfold cc2__trace_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_run_names
  exact read_first _ _ _

/-! ## What the body finds in each staging buffer -/

/-- Each input's current staging buffer holds its block at every point, fetched there or not: unfetched, the block
    index has not moved since the point before. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-- At a later point of a row-block the output's current staging buffer holds what the body left at the point
    before: the buffer was not written back between (the write-back is at the row-block's last point). -/
theorem before2_8_next (c : Dev nD) (t : Fin cfg2.N) (h0 : ¬t.val % 8 = 0) (d) :
    (dat2 V c).before 8 t d = (dat2 V c).after 8 ⟨t.val - 1, Nat.lt_of_le_of_lt (Nat.sub_le _ _) t.isLt⟩ :=
  Dat.before_out_kept _ 8 rfl t (by omega)
    (Bool.eq_false_iff.mpr fun h => by have := (flush2_8 _).mp h; dsimp only at this; omega)
    (fun _ => rfl) (fun _ _ => rfl) d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 1000000 in
/-- The body at any point: the inputs' memrefs hold their blocks; the closed form of the condition says which case
    the point is in; at a later point of a row-block the output's memref holds what the point before left; so the
    kernel's triple applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val % 8 = 0
  · rw [after2_8_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_first c Set.univ (grid2.coords t) _ _ _ _ _ _ _ _ _ _ _ _ _ _ _ _ _ _ ((hcond2 t).mpr h0)
      (iblk2 V c 0 t) (iblk2 V c 1 t) (iblk2 V c 2 t) (iblk2 V c 3 t) (iblk2 V c 4 t) (iblk2 V c 5 t) (iblk2 V c 6 t) (iblk2 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [after2_8_next V c t h0]
    simp only [before2_8_next V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_next c Set.univ (grid2.coords t) _ _ _ _ _ _ _ _ _ _ _ _ _ _ _ _ _ _ (fun h => h0 ((hcond2 t).mp h))
      (iblk2 V c 0 t) (iblk2 V c 1 t) (iblk2 V c 2 t) (iblk2 V c 3 t) (iblk2 V c 4 t) (iblk2 V c 5 t) (iblk2 V c 6 t) (iblk2 V c 7 t)
      ((dat2 V c).after 8 ⟨t.val - 1, Nat.lt_of_le_of_lt (Nat.sub_le _ _) t.isLt⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand2

end
-- ==== Proof.AsmRunI.lean ====
/-
  The whole program's run from the three kernel regions' records.

  The program is six items in order: a stretch of host operations, the first Gaussian-kernel region, the second, a stretch
  that takes row, column and grand means of the two matrices, the trace region, and a last stretch that sums the trace
  region's output and divides. Between two items every buffer that outlives the regions is held whole at a known value:
  the launch memory, then each host stretch applied in turn, then each region's output array replaced by what the region
  leaves. Given each region's record the run ends with every such buffer at the last of these values.
-/
import proofs.«147226_j26061861552238_2_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- The run, given the regions' records: every weakly fair execution of the program from memory `m` ends, and in the final
    memory every buffer that outlives the kernel regions holds what the last of the seven valuations gives it — the
    arguments among them, and the result. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD, ∀ b ∈ Pipeline.ucRefs τ sig, r.2.mem ((c : Thread nD τ).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, (hpost0 c).trans (hpre1 c), hpost1 c, hpre2 c, hpost2 c, sep_mono .rfl (hE3 c)⟩)
    (hinit := ?_) (QY := fun c s => ∀ b ∈ Pipeline.ucRefs τ sig, s.mem ((c : Thread nD τ).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.KernelIdeal.Gen

end
-- ==== Proof.AsmI.lean ====
/-
  The three kernel regions as segments of the program, and the program's run.

  Between two items of the program every buffer that outlives the regions is held at a known value. The first region
  is entered from the values the first host stretch leaves and changes only the first Gaussian-kernel matrix, to what
  its 64 write-backs leave; the second likewise for the second matrix; the trace region is entered from the values the
  middle stretch leaves and changes only its 64×128 output. Each region's record splits its arrays out of the held
  buffers at entry (the two windows that read one array each take half of its share) and puts them back at exit.
-/
import proofs.«147226_j26061861552238_2_alg».proof.Proof.RbfRegionI
import proofs.«147226_j26061861552238_2_alg».proof.Proof.TraceRegionI
import proofs.«147226_j26061861552238_2_alg».proof.Proof.AsmRunI

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand Cert.KernelIdeal.Hand2

variable {F : FTy → Type} [FloatOps F]

local notation "𝕄" => MT nD τ sig Unit (Elt F) ℕ (UR sig nD τ) ℕ

variable (m : (ℓ : Loc nD τ sig) → Buf (Elt F) ℓ)

/-! ## The values between the items -/

/-- What the first region is entered from: the first host stretch applied to the launch memory. -/
abbrev E1 : (c : Dev nD) → (b : Ref sig .tc) → Buf (Elt F) ((c : Thread nD τ).loc b) := fun c b => Gen.V1 m c b
/-- The first Gaussian-kernel matrix as the first region leaves it. -/
def A10 (c : Dev nD) : Buf (Elt F) ((c : Thread nD τ).loc main_v10) := (dat0 (E1 m) c).arrAt 3 cfg0.N
def W2 (c : Dev nD) : Valuation τ sig (Elt F) := Function.update (Gen.V1 m c) main_v10 (A10 m c)
abbrev E2 : (c : Dev nD) → (b : Ref sig .tc) → Buf (Elt F) ((c : Thread nD τ).loc b) := fun c b => W2 m c b
/-- The second Gaussian-kernel matrix as the second region leaves it. -/
def A11 (c : Dev nD) : Buf (Elt F) ((c : Thread nD τ).loc main_v11) := (dat1 (E2 m) c).arrAt 3 cfg1.N
def W3 (c : Dev nD) : Valuation τ sig (Elt F) := Function.update (W2 m c) main_v11 (A11 m c)
abbrev E3 : (c : Dev nD) → (b : Ref sig .tc) → Buf (Elt F) ((c : Thread nD τ).loc b) := fun c b => W3 m c b
def W4 (c : Dev nD) : Valuation τ sig (Elt F) := StableHlo.after hostOps2 (W3 m c)
abbrev E4 : (c : Dev nD) → (b : Ref sig .tc) → Buf (Elt F) ((c : Thread nD τ).loc b) := fun c b => W4 m c b
/-- The trace region's output as it leaves it. -/
def A34 (c : Dev nD) : Buf (Elt F) ((c : Thread nD τ).loc main_v34) := (dat2 (E4 m) c).arrAt 8 cfg2.N
def W5 (c : Dev nD) : Valuation τ sig (Elt F) := Function.update (W4 m c) main_v34 (A34 m c)
abbrev E5 : (c : Dev nD) → (b : Ref sig .tc) → Buf (Elt F) ((c : Thread nD τ).loc b) := fun c b => W5 m c b

/-- What the regions leave, as the unknowns of the seven valuations. -/
def outs : Gen.Outs (F := F) := fun _ r c =>
  Function.update (Function.update (Function.update (fun r : Ref sig .tc => Gen.V0 m c r) main_v10 (A10 m c)) main_v11 (A11 m c)) main_v34 (A34 m c) r

theorem outs_10 (J : ℕ) (c : Dev nD) : outs m J main_v10 c = A10 m c := by
  unfold outs
  rw [Function.update_of_ne (by decide), Function.update_of_ne (by decide), Function.update_self]
theorem outs_11 (J : ℕ) (c : Dev nD) : outs m J main_v11 c = A11 m c := by
  unfold outs
  rw [Function.update_of_ne (by decide), Function.update_self]
theorem outs_34 (J : ℕ) (c : Dev nD) : outs m J main_v34 c = A34 m c := by
  unfold outs
  rw [Function.update_self]

theorem V2_eq (c : Dev nD) : Gen.V2 m (outs m) c = W2 m c := by
  unfold W2; simp only [Gen.V2, outs_10]
theorem V3_eq (c : Dev nD) : Gen.V3 m (outs m) c = W3 m c := by
  show Function.update (Gen.V2 m (outs m) c) main_v11 (outs m 3 main_v11 c) = _
  rw [V2_eq, outs_11]; rfl
theorem V4_eq (c : Dev nD) : Gen.V4 m (outs m) c = W4 m c := by
  show StableHlo.after hostOps2 (Gen.V3 m (outs m) c) = _
  rw [V3_eq]; rfl
theorem V5_eq (c : Dev nD) : Gen.V5 m (outs m) c = W5 m c := by
  show Function.update (Gen.V4 m (outs m) c) main_v34 (outs m 5 main_v34 c) = _
  rw [V4_eq, outs_34]; rfl

/-! ## The proof data family and what rides beside the buffers -/

/-- Every region's proof data, each at its region's entry values: a literal match on the region. -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) c
  | ⟨2, _⟩ => fun c => dat2 (E4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev Rr (c : Dev nD) : sProp 𝕄 := iprop((∃ r, prngReg c r) ∗ ∃ W, owes (c : Thread nD τ) (0 : CellTallies nD τ sig Unit) W)

/-! ## The first region -/

/-- At the first region's exit each of its arrays holds what the region leaves: the inputs as entered, the output its write-backs. -/
theorem hF0 (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (Function.update_of_ne (StableHlo.devRef_ne_of_ne (by decide) : (Proc.devRef .tc main_v0 : DevRef τ sig) ≠ Proc.devRef .tc main_v10) _ _).symm)
  | ⟨1, _⟩ => exact ((dat0 (E1 m) c).arrAt_in 1 rfl _).trans ((A_eq0 (E1 m) c 1).trans (Function.update_of_ne (StableHlo.devRef_ne_of_ne (by decide) : (Proc.devRef .tc main_v0 : DevRef τ sig) ≠ Proc.devRef .tc main_v10) _ _).symm)
  | ⟨2, _⟩ => exact ((dat0 (E1 m) c).arrAt_in 2 rfl _).trans ((A_eq0 (E1 m) c 2).trans (Function.update_of_ne (StableHlo.devRef_ne_of_ne (by decide) : (Proc.devRef .tc main_v5 : DevRef τ sig) ≠ Proc.devRef .tc main_v10) _ _).symm)
  | ⟨3, _⟩ => exact (Function.update_self (Proc.devRef .tc main_v10 : DevRef τ sig) (A10 m c) (Gen.V1 m c)).symm
theorem hrest0 (c : Dev nD) : ∀ b, b ∉ Finset.univ.image (Pipeline.arrRef spec0) → E2 m c b = E1 m c b := fun b hb =>
  Function.update_of_ne (StableHlo.devRef_ne_of_ne (fun e => hb (Finset.mem_image.mpr ⟨3, Finset.mem_univ _, e.symm⟩)) : (Proc.devRef .tc b : DevRef τ sig) ≠ Proc.devRef .tc main_v10) _ _

set_option backward.isDefEq.respectTransparency.types false in
/-- The first region over the held buffers: entered from the first stretch's values, left with the first matrix replaced. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (unscopedBufs c (E1 m c) : sProp 𝕄) ⊢ iprop((pdats m 0 c).arrays ((pdats m 0 c).arrAt · 0) ∗ Pipeline.unscopedRest spec0 c (E1 m c)) := entry0 (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E1 m c)) ⊢ (unscopedBufs c (E2 m c) : sProp 𝕄) := exit0 (E1 m) c (E2 m c) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- At the second region's exit each of its arrays holds what the region leaves: the inputs as entered, the output its write-backs. -/
theorem hF1 (c : Dev nD) (w : Fin cfg1.W) : (dat1 (E2 m) c).arrAt w cfg1.N = E3 m c (Pipeline.arrRef spec1 w) := by
  match w with
  | ⟨0, _⟩ => exact ((dat1 (E2 m) c).arrAt_in 0 rfl _).trans ((A_eq1 (E2 m) c 0).trans (Function.update_of_ne (StableHlo.devRef_ne_of_ne (by decide) : (Proc.devRef .tc main_v1 : DevRef τ sig) ≠ Proc.devRef .tc main_v11) _ _).symm)
  | ⟨1, _⟩ => exact ((dat1 (E2 m) c).arrAt_in 1 rfl _).trans ((A_eq1 (E2 m) c 1).trans (Function.update_of_ne (StableHlo.devRef_ne_of_ne (by decide) : (Proc.devRef .tc main_v1 : DevRef τ sig) ≠ Proc.devRef .tc main_v11) _ _).symm)
  | ⟨2, _⟩ => exact ((dat1 (E2 m) c).arrAt_in 2 rfl _).trans ((A_eq1 (E2 m) c 2).trans (Function.update_of_ne (StableHlo.devRef_ne_of_ne (by decide) : (Proc.devRef .tc main_v9 : DevRef τ sig) ≠ Proc.devRef .tc main_v11) _ _).symm)
  | ⟨3, _⟩ => exact (Function.update_self (Proc.devRef .tc main_v11 : DevRef τ sig) (A11 m c) (W2 m c)).symm
theorem hrest1 (c : Dev nD) : ∀ b, b ∉ Finset.univ.image (Pipeline.arrRef spec1) → E3 m c b = E2 m c b := fun b hb =>
  Function.update_of_ne (StableHlo.devRef_ne_of_ne (fun e => hb (Finset.mem_image.mpr ⟨3, Finset.mem_univ _, e.symm⟩)) : (Proc.devRef .tc b : DevRef τ sig) ≠ Proc.devRef .tc main_v11) _ _

set_option backward.isDefEq.respectTransparency.types false in
/-- The second region over the held buffers: entered from what the first region leaves, left with the second matrix replaced. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄) ⊢ iprop((pdats m 1 c).arrays ((pdats m 1 c).arrAt · 0) ∗ Pipeline.unscopedRest spec1 c (E2 m c)) := entry1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E2 m c)) ⊢ (unscopedBufs c (E3 m c) : sProp 𝕄) := exit1 (E2 m) c (E3 m c) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The trace region -/

set_option maxHeartbeats 2000000 in
/-- At the trace region's exit each of its arrays holds what the region leaves: the eight inputs as entered, the output its write-backs. -/
theorem hF2 (c : Dev nD) (w : Fin cfg2.W) : (dat2 (E4 m) c).arrAt w cfg2.N = E5 m c (Pipeline.arrRef spec2 w) := by
  match w with
  | ⟨0, _⟩ => exact ((dat2 (E4 m) c).arrAt_in 0 rfl _).trans ((A_eq2 (E4 m) c 0).trans (Function.update_of_ne (StableHlo.devRef_ne_of_ne (by decide) : (Proc.devRef .tc main_v10 : DevRef τ sig) ≠ Proc.devRef .tc main_v34) _ _).symm)
  | ⟨1, _⟩ => exact ((dat2 (E4 m) c).arrAt_in 1 rfl _).trans ((A_eq2 (E4 m) c 1).trans (Function.update_of_ne (StableHlo.devRef_ne_of_ne (by decide) : (Proc.devRef .tc main_v11 : DevRef τ sig) ≠ Proc.devRef .tc main_v34) _ _).symm)
  | ⟨2, _⟩ => exact ((dat2 (E4 m) c).arrAt_in 2 rfl _).trans ((A_eq2 (E4 m) c 2).trans (Function.update_of_ne (StableHlo.devRef_ne_of_ne (by decide) : (Proc.devRef .tc main_v15 : DevRef τ sig) ≠ Proc.devRef .tc main_v34) _ _).symm)
  | ⟨3, _⟩ => exact ((dat2 (E4 m) c).arrAt_in 3 rfl _).trans ((A_eq2 (E4 m) c 3).trans (Function.update_of_ne (StableHlo.devRef_ne_of_ne (by decide) : (Proc.devRef .tc main_v19 : DevRef τ sig) ≠ Proc.devRef .tc main_v34) _ _).symm)
  | ⟨4, _⟩ => exact ((dat2 (E4 m) c).arrAt_in 4 rfl _).trans ((A_eq2 (E4 m) c 4).trans (Function.update_of_ne (StableHlo.devRef_ne_of_ne (by decide) : (Proc.devRef .tc main_v22 : DevRef τ sig) ≠ Proc.devRef .tc main_v34) _ _).symm)
  | ⟨5, _⟩ => exact ((dat2 (E4 m) c).arrAt_in 5 rfl _).trans ((A_eq2 (E4 m) c 5).trans (Function.update_of_ne (StableHlo.devRef_ne_of_ne (by decide) : (Proc.devRef .tc main_v26 : DevRef τ sig) ≠ Proc.devRef .tc main_v34) _ _).symm)
  | ⟨6, _⟩ => exact ((dat2 (E4 m) c).arrAt_in 6 rfl _).trans ((A_eq2 (E4 m) c 6).trans (Function.update_of_ne (StableHlo.devRef_ne_of_ne (by decide) : (Proc.devRef .tc main_v30 : DevRef τ sig) ≠ Proc.devRef .tc main_v34) _ _).symm)
  | ⟨7, _⟩ => exact ((dat2 (E4 m) c).arrAt_in 7 rfl _).trans ((A_eq2 (E4 m) c 7).trans (Function.update_of_ne (StableHlo.devRef_ne_of_ne (by decide) : (Proc.devRef .tc main_v33 : DevRef τ sig) ≠ Proc.devRef .tc main_v34) _ _).symm)
  | ⟨8, _⟩ =>
    show (dat2 (E4 m) c).arrAt 8 cfg2.N
      = Function.update (W4 m c) (Proc.devRef .tc main_v34 : DevRef τ sig) ((dat2 (E4 m) c).arrAt 8 cfg2.N) (Proc.devRef .tc main_v34)
    exact (Function.update_self (Proc.devRef .tc main_v34 : DevRef τ sig) ((dat2 (E4 m) c).arrAt 8 cfg2.N) (W4 m c)).symm
theorem hrest2 (c : Dev nD) : ∀ b, b ∉ Finset.univ.image (Pipeline.arrRef spec2) → E5 m c b = E4 m c b := fun b hb =>
  Function.update_of_ne (StableHlo.devRef_ne_of_ne (fun e => hb (Finset.mem_image.mpr ⟨8, Finset.mem_univ _, e.symm⟩)) : (Proc.devRef .tc b : DevRef τ sig) ≠ Proc.devRef .tc main_v34) _ _

set_option backward.isDefEq.respectTransparency.types false in
/-- The trace region over the held buffers: entered from the middle stretch's values, left with its output replaced. Its
    nine arrays are distinct buffers, each held whole. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference is among those the held state tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program ends, and every buffer that outlives the regions then holds the last
    valuation's value: the host stretches applied in turn, each region's output at what its write-backs leave. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V6 m (outs m) c b) :=
  Gen.run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => Entails.of_eq (by rw [V2_eq]; rfl))
    (R1 := reg1 m) (hpre1 := fun c => Entails.of_eq (by rw [V2_eq]; rfl)) (hpost1 := fun c => Entails.of_eq (by rw [V3_eq]; rfl))
    (R2 := reg2 m) (hpre2 := fun c => Entails.of_eq (by rw [V4_eq]; rfl)) (hpost2 := fun c => Entails.of_eq (by rw [V5_eq]; rfl))

/-- The frame: the program runs to the end and its two argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V6_main_arg0 m (outs m) c),
     (h c _ (mem_uc main_arg1 (by decide))).trans (Gen.V6_main_arg1 m (outs m) c)⟩) (run_all m ρ)

end Cert.KernelIdeal.Asm

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.PayloadI.lean ====
/-
  The Gaussian-kernel tile at an entry, at the ideal values.

  One grid point of the first two regions multiplies a block of 512 rows with the transpose of another block of 512
  rows (a product that contracts the 1024 columns of both operands), subtracts each output row's squared norm, read from a
  column vector, and exponentiates. At entry (p, q) of the tile that is exp(∑ₖ a[p,k]·b[q,k] − s[p,0]).
-/
import proofs.«147226_j26061861552238_2_alg».proof.Proof.Gen.KernelIdeal.Skeleton
import proofs.«147226_j26061861552238_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The product's dimension record: both operands contract their second axis. -/
abbrev dotD : DotDims S512x1024 S512x1024 S512x512 := dot_S512x1024_S512x1024_S512x512_1_1_0_0_n_n

theorem lhs0 (i : S512x512.Idx) (q : dotD.contr.Idx) : (dotD.lhsIdx i q 0).val = (i 0).val := by
  unfold DotDims.lhsIdx
  rw [dif_neg (show ¬(0 : Fin S512x1024.rank) ∈ dotD.lhsBatch by decide), dif_pos (show (0 : Fin S512x1024.rank) ∈ dotD.lhsNonContracting by decide)]
  rfl
theorem lhs1 (i : S512x512.Idx) (q : dotD.contr.Idx) : (dotD.lhsIdx i q 1).val = (q ⟨0, by decide⟩).val :=
  dotD.lhsIdx_val_of_single rfl i q
theorem rhs0 (i : S512x512.Idx) (q : dotD.contr.Idx) : (dotD.rhsIdx i q 0).val = (i 1).val := by
  unfold DotDims.rhsIdx
  rw [dif_neg (show ¬(0 : Fin S512x1024.rank) ∈ dotD.rhsBatch by decide), dif_pos (show (0 : Fin S512x1024.rank) ∈ dotD.rhsNonContracting by decide)]
  rfl
theorem rhs1 (i : S512x512.Idx) (q : dotD.contr.Idx) : (dotD.rhsIdx i q 1).val = (q ⟨0, by decide⟩).val :=
  dotD.rhsIdx_val_of_single rfl i q

/-- The block product into a zero accumulator at entry (p, q): the sum over the 1024 columns of a[p,k]·b[q,k]. -/
theorem matmul_at (l r : FVec Ideal S512x1024 .bf16) (p q : Fin 512) :
    matmul dotD none l r (constant (F := Ideal) S512x512 .f32 0x00000000#32) (ix2 p q)
      = ∑ k : Fin 1024, l (ix2 p k) * r (ix2 q k) := by
  refine (Ideal.matmul_constant_zero_apply dotD none l r (ix2 p q)).trans ?_
  rw [← Equiv.sum_comp (contrEquiv1 dotD 1024 rfl rfl).symm]
  refine Finset.sum_congr rfl fun k _ => ?_
  have hk := contrEquiv1_symm_val dotD 1024 rfl rfl k
  have el : dotD.lhsIdx (ix2 p q) ((contrEquiv1 dotD 1024 rfl rfl).symm k) = ix2 p k := funext fun a => Fin.ext (by
    match a with
    | ⟨0, _⟩ => exact lhs0 _ _
    | ⟨1, _⟩ => exact (lhs1 _ _).trans hk)
  have er : dotD.rhsIdx (ix2 p q) ((contrEquiv1 dotD 1024 rfl rfl).symm k) = ix2 q k := funext fun a => Fin.ext (by
    match a with
    | ⟨0, _⟩ => exact rhs0 _ _
    | ⟨1, _⟩ => exact (rhs1 _ _).trans hk)
  rw [el, er]

/-- The first region's tile at entry (p, q). -/
theorem k0_pay1_at (v0 v2 : Vec Ideal S512x1024 .bf16) (v5 : Vec Ideal S512x1 .f32) (p q : Fin 512) :
    k0_pay1 v0 v2 v5 (ix2 p q) = Ideal.exp ((∑ k : Fin 1024, v0 (ix2 p k) * v2 (ix2 q k)) - v5 (ix2 p (0 : Fin 1))) := by
  unfold k0_pay1
  show Ideal.exp (matmul dotD none (shapeCast S512x1024 v0 _) (shapeCast S512x1024 v2 _) (constant (F := Ideal) S512x512 .f32 0x00000000#32) (ix2 p q)
      - broadcastTo S512x512 (shapeCast S512x1 v5 _) _ (ix2 p q)) = _
  rw [shapeCast_self, shapeCast_self, shapeCast_self, matmul_at, Cert.LibKeepdims.broadcastTo_a1_ab_apply]

/-- The second region's tile at entry (p, q): the same function. -/
theorem k1_pay1_at (v0 v2 : Vec Ideal S512x1024 .bf16) (v5 : Vec Ideal S512x1 .f32) (p q : Fin 512) :
    k1_pay1 v0 v2 v5 (ix2 p q) = Ideal.exp ((∑ k : Fin 1024, v0 (ix2 p k) * v2 (ix2 q k)) - v5 (ix2 p (0 : Fin 1))) :=
  k0_pay1_at v0 v2 v5 p q

end Cert.KernelIdeal.Pay

end
-- ==== Proof.RbfValueI.lean ====
/-
  The first two regions' output arrays, at the ideal values, read at an entry.

  Each of the two regions fills a 4096 x 4096 matrix tile by tile on an 8 x 8 grid. At grid point (I, J) the body stores
  the 512 x 512 tile (I, J): entry (r, c) of the tile is exp(∑ₖ a[512 I + r, k] · a[512 J + c, k] − s[512 I + r, 0]), read off
  rows-block I and rows-block J of the one input array `a` and rows-block I of the column `s`. So every point writes
  back its tile of ONE matrix K[p, q] = exp(∑ₖ a[p, k] · a[q, k] − s[p, 0]), the 64 tiles cover the array, and the array
  ends holding K.
-/
import proofs.«147226_j26061861552238_2_alg».proof.Proof.RbfRegionI
import proofs.«147226_j26061861552238_2_alg».proof.Proof.PayloadI
import Idealize.ShloMosaic.Lib.Pipeline.Value
import Idealize.ShloMosaic.Lib.ValueIdx

noncomputable section

namespace Cert.KernelIdeal.RbfValue

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole-buffer rectangles' offsets are zero on both axes. -/
theorem offs_zero : (![0, 0] : Fin 2 → Nat) = fun _ => 0 := funext fun a => by fin_cases a <;> rfl

/-- The Gaussian-kernel matrix of the rows of `a` with squared norms `s`, at entry (p, q). -/
def rbfAt (a : S4096x1024.Idx → EReal) (s : S4096x1.Idx → EReal) (p q : Fin 4096) : EReal :=
  Ideal.exp ((∑ k : Fin 1024, a (ix2 p k) * a (ix2 q k)) - s (ix2 p (0 : Fin 1)))

/-- The matrix as an array: entry `i` is entry (i 0, i 1). -/
def rbf (a : S4096x1024.Idx → EReal) (s : S4096x1.Idx → EReal) : S4096x4096.Idx → EReal :=
  fun i => rbfAt a s (i 0) (i 1)

/-! ## Region 0: the matrix of the first input's rows -/

/-- The index maps over the grid: the first input's row block and the norms' block move with the tile's row block, the
    second input's row block with the tile's column block; the inputs' column blocks stay at 0. -/
theorem idx_facts0 : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (0 : Fin 2)
    ∧ win0_2.index t (1 : Fin 2) = 0
    ∧ win0_3.index t (0 : Fin 2) ≤ 7 ∧ win0_3.index t (1 : Fin 2) ≤ 7 :=
  (by decide +kernel : ∀ t : Fin grid0.N, _)

/-- Every tile of the 8 x 8 tiling is some point's. -/
theorem idx_onto0 : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- Row `r` of the first input's block at point `t` is row `I * 512 + r` of the array, `I` the block's index. -/
theorem iblk0_0_apply (c : Dev nD) (t : Fin cfg0.N) (r : Fin 512) (k : Fin 1024) (p : Fin 4096)
    (hp : p.val = win0_0.index t (0 : Fin 2) * 512 + r.val) (h1 : win0_0.index t (1 : Fin 2) = 0) :
    (iblk0 V c 0 t : Vec Ideal S512x1024 .bf16) (ix2 r k) = (V c main_v0 : S4096x1024.Idx → EReal) (ix2 p k) := by
  unfold iblk0
  rw [View.read_apply]
  show V c main_v0 _ = V c main_v0 _
  congr 1
  funext a
  apply Fin.ext
  match a with
  | ⟨0, _⟩ => show win0_0.index t (0 : Fin 2) * 512 + 1 * r.val = p.val; omega
  | ⟨1, _⟩ => show win0_0.index t (1 : Fin 2) * 1024 + 1 * k.val = k.val; rw [h1]; omega

/-- The same for the second input's block, a block of the same array. -/
theorem iblk0_1_apply (c : Dev nD) (t : Fin cfg0.N) (r : Fin 512) (k : Fin 1024) (p : Fin 4096)
    (hp : p.val = win0_1.index t (0 : Fin 2) * 512 + r.val) (h1 : win0_1.index t (1 : Fin 2) = 0) :
    (iblk0 V c 1 t : Vec Ideal S512x1024 .bf16) (ix2 r k) = (V c main_v0 : S4096x1024.Idx → EReal) (ix2 p k) := by
  unfold iblk0
  rw [View.read_apply]
  show V c main_v0 _ = V c main_v0 _
  congr 1
  funext a
  apply Fin.ext
  match a with
  | ⟨0, _⟩ => show win0_1.index t (0 : Fin 2) * 512 + 1 * r.val = p.val; omega
  | ⟨1, _⟩ => show win0_1.index t (1 : Fin 2) * 1024 + 1 * k.val = k.val; rw [h1]; omega

/-- Row `r` of the norms' block at point `t` is row `I * 512 + r` of the norms' column. -/
theorem iblk0_2_apply (c : Dev nD) (t : Fin cfg0.N) (r : Fin 512) (p : Fin 4096)
    (hp : p.val = win0_2.index t (0 : Fin 2) * 512 + r.val) (h1 : win0_2.index t (1 : Fin 2) = 0) :
    (iblk0 V c 2 t : Vec Ideal S512x1 .f32) (ix2 r (0 : Fin 1)) = (V c main_v5 : S4096x1.Idx → EReal) (ix2 p (0 : Fin 1)) := by
  unfold iblk0
  rw [View.read_apply]
  show V c main_v5 _ = V c main_v5 _
  congr 1
  funext a
  apply Fin.ext
  match a with
  | ⟨0, _⟩ => show win0_2.index t (0 : Fin 2) * 512 + 1 * r.val = p.val; omega
  | ⟨1, _⟩ => show win0_2.index t (1 : Fin 2) * 1 + 1 * 0 = 0; rw [h1]

/-- One tile at an entry: when row `r` of the first loaded block is row `p` of `a`, row `cc` of the second is row `q` of
    `a`, and entry `r` of the third is entry `p` of `s`, entry (r, cc) of the tile the body stores is entry (p, q) of the
    matrix: both are exp of the rows' inner product less the norm. -/
theorem tile0_apply (a : S4096x1024.Idx → EReal) (s : S4096x1.Idx → EReal)
    (x0 x1 : Vec Ideal S512x1024 .bf16) (x2 : Vec Ideal S512x1 .f32) (r cc : Fin 512) (p q : Fin 4096)
    (h0 : ∀ k : Fin 1024, x0 (ix2 r k) = a (ix2 p k))
    (h1 : ∀ k : Fin 1024, x1 (ix2 cc k) = a (ix2 q k))
    (h2 : x2 (ix2 r (0 : Fin 1)) = s (ix2 p (0 : Fin 1))) :
    k0_pay1 x0 x1 x2 (ix2 r cc) = rbfAt a s p q := by
  refine (k0_pay1_at x0 x1 x2 r cc).trans ?_
  unfold rbfAt
  rw [h2]
  exact congrArg (fun z => Ideal.exp (z - s (ix2 p (0 : Fin 1))))
    (Finset.sum_congr rfl fun k _ => by rw [h0 k, h1 k])

/-- What point `t` writes back is its tile of the matrix of the arrays as the region finds them. -/
theorem flushed_eq0 (c : Dev nD) (t : Fin cfg0.N) :
    (dat0 V c).flushed 3 t = ((cfg0.win 3).blk t).view.read (Elt Ideal) (rbf (V c main_v0) (V c main_v5)) := by
  show (cfg0.win 3).cut (grid0.coords t) ((dat0 V c).after 3 t) = _
  rw [after0_3]
  unfold out0_3
  rw [View.canon_unit_zero offs_zero]
  simp only [View.ld_unit_zero (S := S512x1024) offs_zero, View.ld_unit_zero (S := S512x1) offs_zero]
  obtain ⟨e00, e01, e10, e11, e20, e21, b0, b1⟩ := idx_facts0 t
  funext y
  obtain ⟨r, cc, rfl⟩ : ∃ (r cc : Fin 512), y = ix2 r cc := ⟨y 0, y 1, eq_ix2 (n0 := 512) (n1 := 512) y⟩
  rw [View.read_apply]
  show k0_pay1 (iblk0 V c 0 t) (iblk0 V c 1 t) (iblk0 V c 2 t) (ix2 r cc)
      = rbfAt (V c main_v0) (V c main_v5) (((cfg0.win 3).blk t).view.emb (ix2 r cc) 0) (((cfg0.win 3).blk t).view.emb (ix2 r cc) 1)
  have hp : ((((cfg0.win 3).blk t).view.emb (ix2 r cc) 0 : Fin 4096) : Nat) = win0_3.index t (0 : Fin 2) * 512 + r.val := by
    show win0_3.index t (0 : Fin 2) * 512 + 1 * r.val = _; omega
  have hq : ((((cfg0.win 3).blk t).view.emb (ix2 r cc) 1 : Fin 4096) : Nat) = win0_3.index t (1 : Fin 2) * 512 + cc.val := by
    show win0_3.index t (1 : Fin 2) * 512 + 1 * cc.val = _; omega
  exact tile0_apply (V c main_v0) (V c main_v5) (iblk0 V c 0 t) (iblk0 V c 1 t) (iblk0 V c 2 t) r cc _ _
    (fun k => iblk0_0_apply V c t r k _ (by rw [e00]; exact hp) e01)
    (fun k => iblk0_1_apply V c t cc k _ (by rw [e10]; exact hq) e11)
    (iblk0_2_apply V c t r _ (by rw [e20]; exact hp) e21)

/-- An index of the matrix is in point `t`'s tile iff each coordinate is in the tile's range on its axis. -/
theorem mem_blk0 (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v10).slice (win0_3.rect t)).set ↔ _
  rw [View.set_slice_whole, Rect.mem_set_unit]
  exact Iff.rfl

/-- The tiles cover the matrix: entry (i 0, i 1) is in the tile of the point with block index (i 0 / 512, i 1 / 512). -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto0 ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The first region leaves its output array at the matrix of the arrays as it finds them. -/
theorem array0 (c : Dev nD) : (dat0 V c).arrAt 3 cfg0.N = rbf (V c main_v0) (V c main_v5) :=
  (dat0 V c).arrAt_eq_of_cover 3 (rbf (V c main_v0) (V c main_v5)) (fun t _ => flushed_eq0 V c t) cover0

/-- Entry (p, q) of the first region's output array after the region. -/
theorem final0 (c : Dev nD) (p q : Fin 4096) :
    (dat0 V c).arrAt 3 cfg0.N (ix2 p q) = rbfAt (V c main_v0) (V c main_v5) p q :=
  congrFun (array0 V c) (ix2 p q)

/-- The same entry with the matrix spelt out: exp of the inner product of rows p and q of the input array less row p's
    squared norm, the two arrays it is read off named `a` and `s`. -/
theorem final0_exp (c : Dev nD) (a : S4096x1024.Idx → EReal) (s : S4096x1.Idx → EReal)
    (ha : a = V c main_v0) (hs : s = V c main_v5) (p q : Fin 4096) :
    (dat0 V c).arrAt 3 cfg0.N (ix2 p q)
      = Ideal.exp ((∑ k : Fin 1024, a (ix2 p k) * a (ix2 q k)) - s (ix2 p (0 : Fin 1))) := by
  subst ha hs
  exact final0 V c p q

/-! ## Region 1: the same kernel on the second input's rows -/

/-- The index maps over the grid: the first input's row block and the norms' block move with the tile's row block, the
    second input's row block with the tile's column block; the inputs' column blocks stay at 0. -/
theorem idx_facts1 : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = win1_3.index t (0 : Fin 2)
    ∧ win1_2.index t (1 : Fin 2) = 0
    ∧ win1_3.index t (0 : Fin 2) ≤ 7 ∧ win1_3.index t (1 : Fin 2) ≤ 7 :=
  (by decide +kernel : ∀ t : Fin grid1.N, _)

/-- Every tile of the 8 x 8 tiling is some point's. -/
theorem idx_onto1 : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- Row `r` of the first input's block at point `t` is row `I * 512 + r` of the array, `I` the block's index. -/
theorem iblk1_0_apply (c : Dev nD) (t : Fin cfg1.N) (r : Fin 512) (k : Fin 1024) (p : Fin 4096)
    (hp : p.val = win1_0.index t (0 : Fin 2) * 512 + r.val) (h1 : win1_0.index t (1 : Fin 2) = 0) :
    (iblk1 V c 0 t : Vec Ideal S512x1024 .bf16) (ix2 r k) = (V c main_v1 : S4096x1024.Idx → EReal) (ix2 p k) := by
  unfold iblk1
  rw [View.read_apply]
  show V c main_v1 _ = V c main_v1 _
  congr 1
  funext a
  apply Fin.ext
  match a with
  | ⟨0, _⟩ => show win1_0.index t (0 : Fin 2) * 512 + 1 * r.val = p.val; omega
  | ⟨1, _⟩ => show win1_0.index t (1 : Fin 2) * 1024 + 1 * k.val = k.val; rw [h1]; omega

/-- The same for the second input's block, a block of the same array. -/
theorem iblk1_1_apply (c : Dev nD) (t : Fin cfg1.N) (r : Fin 512) (k : Fin 1024) (p : Fin 4096)
    (hp : p.val = win1_1.index t (0 : Fin 2) * 512 + r.val) (h1 : win1_1.index t (1 : Fin 2) = 0) :
    (iblk1 V c 1 t : Vec Ideal S512x1024 .bf16) (ix2 r k) = (V c main_v1 : S4096x1024.Idx → EReal) (ix2 p k) := by
  unfold iblk1
  rw [View.read_apply]
  show V c main_v1 _ = V c main_v1 _
  congr 1
  funext a
  apply Fin.ext
  match a with
  | ⟨0, _⟩ => show win1_1.index t (0 : Fin 2) * 512 + 1 * r.val = p.val; omega
  | ⟨1, _⟩ => show win1_1.index t (1 : Fin 2) * 1024 + 1 * k.val = k.val; rw [h1]; omega

/-- Row `r` of the norms' block at point `t` is row `I * 512 + r` of the norms' column. -/
theorem iblk1_2_apply (c : Dev nD) (t : Fin cfg1.N) (r : Fin 512) (p : Fin 4096)
    (hp : p.val = win1_2.index t (0 : Fin 2) * 512 + r.val) (h1 : win1_2.index t (1 : Fin 2) = 0) :
    (iblk1 V c 2 t : Vec Ideal S512x1 .f32) (ix2 r (0 : Fin 1)) = (V c main_v9 : S4096x1.Idx → EReal) (ix2 p (0 : Fin 1)) := by
  unfold iblk1
  rw [View.read_apply]
  show V c main_v9 _ = V c main_v9 _
  congr 1
  funext a
  apply Fin.ext
  match a with
  | ⟨0, _⟩ => show win1_2.index t (0 : Fin 2) * 512 + 1 * r.val = p.val; omega
  | ⟨1, _⟩ => show win1_2.index t (1 : Fin 2) * 1 + 1 * 0 = 0; rw [h1]

/-- One tile at an entry: when row `r` of the first loaded block is row `p` of `a`, row `cc` of the second is row `q` of
    `a`, and entry `r` of the third is entry `p` of `s`, entry (r, cc) of the tile the body stores is entry (p, q) of the
    matrix: both are exp of the rows' inner product less the norm. -/
theorem tile1_apply (a : S4096x1024.Idx → EReal) (s : S4096x1.Idx → EReal)
    (x0 x1 : Vec Ideal S512x1024 .bf16) (x2 : Vec Ideal S512x1 .f32) (r cc : Fin 512) (p q : Fin 4096)
    (h0 : ∀ k : Fin 1024, x0 (ix2 r k) = a (ix2 p k))
    (h1 : ∀ k : Fin 1024, x1 (ix2 cc k) = a (ix2 q k))
    (h2 : x2 (ix2 r (0 : Fin 1)) = s (ix2 p (0 : Fin 1))) :
    k1_pay1 x0 x1 x2 (ix2 r cc) = rbfAt a s p q := by
  refine (k1_pay1_at x0 x1 x2 r cc).trans ?_
  unfold rbfAt
  rw [h2]
  exact congrArg (fun z => Ideal.exp (z - s (ix2 p (0 : Fin 1))))
    (Finset.sum_congr rfl fun k _ => by rw [h0 k, h1 k])

/-- What point `t` writes back is its tile of the matrix of the arrays as the region finds them. -/
theorem flushed_eq1 (c : Dev nD) (t : Fin cfg1.N) :
    (dat1 V c).flushed 3 t = ((cfg1.win 3).blk t).view.read (Elt Ideal) (rbf (V c main_v1) (V c main_v9)) := by
  show (cfg1.win 3).cut (grid1.coords t) ((dat1 V c).after 3 t) = _
  rw [after1_3]
  unfold out1_3
  rw [View.canon_unit_zero offs_zero]
  simp only [View.ld_unit_zero (S := S512x1024) offs_zero, View.ld_unit_zero (S := S512x1) offs_zero]
  obtain ⟨e00, e01, e10, e11, e20, e21, b0, b1⟩ := idx_facts1 t
  funext y
  obtain ⟨r, cc, rfl⟩ : ∃ (r cc : Fin 512), y = ix2 r cc := ⟨y 0, y 1, eq_ix2 (n0 := 512) (n1 := 512) y⟩
  rw [View.read_apply]
  show k1_pay1 (iblk1 V c 0 t) (iblk1 V c 1 t) (iblk1 V c 2 t) (ix2 r cc)
      = rbfAt (V c main_v1) (V c main_v9) (((cfg1.win 3).blk t).view.emb (ix2 r cc) 0) (((cfg1.win 3).blk t).view.emb (ix2 r cc) 1)
  have hp : ((((cfg1.win 3).blk t).view.emb (ix2 r cc) 0 : Fin 4096) : Nat) = win1_3.index t (0 : Fin 2) * 512 + r.val := by
    show win1_3.index t (0 : Fin 2) * 512 + 1 * r.val = _; omega
  have hq : ((((cfg1.win 3).blk t).view.emb (ix2 r cc) 1 : Fin 4096) : Nat) = win1_3.index t (1 : Fin 2) * 512 + cc.val := by
    show win1_3.index t (1 : Fin 2) * 512 + 1 * cc.val = _; omega
  exact tile1_apply (V c main_v1) (V c main_v9) (iblk1 V c 0 t) (iblk1 V c 1 t) (iblk1 V c 2 t) r cc _ _
    (fun k => iblk1_0_apply V c t r k _ (by rw [e00]; exact hp) e01)
    (fun k => iblk1_1_apply V c t cc k _ (by rw [e10]; exact hq) e11)
    (iblk1_2_apply V c t r _ (by rw [e20]; exact hp) e21)

/-- An index of the matrix is in point `t`'s tile iff each coordinate is in the tile's range on its axis. -/
theorem mem_blk1 (t : Fin cfg1.N) (i : S4096x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v11).slice (win1_3.rect t)).set ↔ _
  rw [View.set_slice_whole, Rect.mem_set_unit]
  exact Iff.rfl

/-- The tiles cover the matrix: entry (i 0, i 1) is in the tile of the point with block index (i 0 / 512, i 1 / 512). -/
theorem cover1 (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto1 ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- The second region leaves its output array at the matrix of the arrays as it finds them. -/
theorem array1 (c : Dev nD) : (dat1 V c).arrAt 3 cfg1.N = rbf (V c main_v1) (V c main_v9) :=
  (dat1 V c).arrAt_eq_of_cover 3 (rbf (V c main_v1) (V c main_v9)) (fun t _ => flushed_eq1 V c t) cover1

/-- Entry (p, q) of the second region's output array after the region. -/
theorem final1 (c : Dev nD) (p q : Fin 4096) :
    (dat1 V c).arrAt 3 cfg1.N (ix2 p q) = rbfAt (V c main_v1) (V c main_v9) p q :=
  congrFun (array1 V c) (ix2 p q)

/-- The same entry with the matrix spelt out: exp of the inner product of rows p and q of the input array less row p's
    squared norm, the two arrays it is read off named `a` and `s`. -/
theorem final1_exp (c : Dev nD) (a : S4096x1024.Idx → EReal) (s : S4096x1.Idx → EReal)
    (ha : a = V c main_v1) (hs : s = V c main_v9) (p q : Fin 4096) :
    (dat1 V c).arrAt 3 cfg1.N (ix2 p q)
      = Ideal.exp ((∑ k : Fin 1024, a (ix2 p k) * a (ix2 q k)) - s (ix2 p (0 : Fin 1))) := by
  subst ha hs
  exact final1 V c p q

end Cert.KernelIdeal.RbfValue

end
-- ==== Proof.PayloadTraceI.lean ====
/-
  The trace tile at the ideal values.

  One grid point of the third region centres a 512×512 tile of the first Gaussian-kernel matrix (entry minus its row's
  mean, minus its column's mean, plus the grand mean), centres the mirrored tile of the second matrix the same way,
  multiplies the first with the transpose of the second entry by entry and sums the tile: a single number. It then adds
  that number, scaled by 2⁻¹⁰, to every entry of the 8×128 output block.
-/
import proofs.«147226_j26061861552238_2_alg».proof.Proof.Gen.KernelIdeal.Skeleton
import proofs.«147226_j26061861552238_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- A centred tile entry: the entry minus the row statistic, minus the column statistic, plus the scalar. -/
def cenTile (k : Vec Ideal S512x512 .f32) (rm : Vec Ideal S512x1 .f32) (cm : Vec Ideal S1x512 .f32) (gm : Vec Ideal S1x1 .f32)
    (r c : Fin 512) : EReal :=
  k (ix2 r c) - rm (ix2 r (0 : Fin 1)) - cm (ix2 (0 : Fin 1) c) + gm (ix2 (0 : Fin 1) (0 : Fin 1))

/-- A [1,1] vector broadcast to [a,b] reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The tile's number: the sum over the tile of the first centred entry times the mirrored second centred entry. -/
theorem k2_pay3_at (v3 v5 : Vec Ideal S512x512 .f32) (v7 : Vec Ideal S512x1 .f32) (v11 : Vec Ideal S1x512 .f32) (v15 : Vec Ideal S1x1 .f32)
    (v19 : Vec Ideal S512x1 .f32) (v23 : Vec Ideal S1x512 .f32) (v27 : Vec Ideal S1x1 .f32) :
    k2_pay3 v3 v5 v7 v11 v15 v19 v23 v27 (ix2 (0 : Fin 1) (0 : Fin 1))
      = ∑ r : Fin 512, ∑ c : Fin 512, cenTile v3 v7 v11 v15 r c * cenTile v5 v19 v23 v27 c r := by
  unfold k2_pay3
  refine (Cert.LibKeepdims.shapeCast_a_a1_apply _ _ (0 : Fin 1) (0 : Fin 1)).trans ?_
  refine (Cert.LibKeepdims.add_axis0_apply _ _ _ _ _ (0 : Fin 1)).trans ?_
  refine Finset.sum_congr rfl fun r _ => ?_
  refine (Cert.LibKeepdims.shapeCast_a_a1_apply _ _ r (0 : Fin 1)).trans ?_
  refine (Cert.LibKeepdims.add_axis1_apply _ _ _ _ _ r).trans ?_
  refine Finset.sum_congr rfl fun c _ => ?_
  refine (mulf_apply _ _ _).trans ?_
  rw [transpose_ix2_apply]
  unfold cenTile
  simp only [addf_apply, subf_apply, shapeCast_self, Cert.LibKeepdims.broadcastTo_a1_ab_apply, broadcastTo_1b_ab_apply, broadcastTo_11_ab_apply]

/-- The accumulation step at an entry: what the block held plus the tile's number scaled by 2⁻¹⁰. -/
theorem k2_pay1_at (v36 : FVec Ideal S1x1 .f32) (v37 : Vec Ideal S8x128 .f32) (a : Fin 8) (b : Fin 128) :
    k2_pay1 v36 v37 (ix2 a b) = v37 (ix2 a b) + v36 (ix2 (0 : Fin 1) (0 : Fin 1)) * Ideal.ofBits .f32 0x3A800000#32 := by
  unfold k2_pay1
  show (shapeCast S8x128 v37 _) (ix2 a b) + broadcastTo S8x128 (shapeCast S1x1 (mulf v36 (broadcast S1x1 (Scalar.ofBits (F := Ideal) .f32 0x3A800000#32))) _) _ (ix2 a b) = _
  rw [shapeCast_self, shapeCast_self, broadcastTo_11_ab_apply]
  rfl

/-- The block of zeros the first point of a row of tiles starts from. -/
theorem k2_pay2_at (a : Fin 8) (b : Fin 128) : k2_pay2 (F := Ideal) (ix2 a b) = Ideal.ofBits .f32 0x00000000#32 := rfl

end Cert.KernelIdeal.Pay

end
-- ==== Proof.HsicSpec.lean ====
/-
  The value both programs compute, as ONE function of the two argument arrays, and the algebra that
  a tiled, scaled accumulation of it is the same number.

  For an array x of 4096 rows of 1024 extended reals:
    dot x p q  = sum over k of x[p,k] * x[q,k]            (row p against row q)
    sqn x p    = sum over k of x[p,k] * x[p,k]            (row p against itself)
    rbf x p q  = exp (dot x p q - sqn x p)                 (the one-sided Gaussian kernel matrix)
  For a 4096 x 4096 matrix K: its row means, column means and grand mean (divisors 4096, 4096, 2^24,
  written as the f32 words that denote them), and the doubly centred matrix
    cen K p q  = K p q - rowMean K p - colMean K q + grandMean K.
  The result is
    hsic x y   = (sum over (p,q) of cen (rbf x) p q * cen (rbf y) q p) / 16769025      (16769025 = 4095^2).
  Every sum starts from nothing: a program's "zero plus the sum" meets these after `zero_add`.
-/
import Mathlib
import Idealize.ShloMosaic.PureOps.Ideal
import Idealize.ShloMosaic.PureOps.Ideal.Laws
import Idealize.ShloMosaic.Lib.ValueIdx

noncomputable section

open scoped BigOperators

namespace Cert.Hsic

open Idealize.ShloMosaic Idealize.ShloMosaic.ValueIdx

/-- An argument array: 4096 rows of 1024 extended reals. -/
abbrev Arr : Type := (⟨2, ![4096, 1024]⟩ : Shape).Idx → EReal

/-- A square matrix by its two coordinates. -/
abbrev Mat : Type := Fin 4096 → Fin 4096 → EReal

/-- The f32 words of the three divisors: 4096, 2^24 and 4095^2. -/
abbrev c4096 : EReal := Ideal.ofBits .f32 0x45800000#32
abbrev c2p24 : EReal := Ideal.ofBits .f32 0x4B800000#32
abbrev cN : EReal := Ideal.ofBits .f32 0x4B7FE001#32

/-- Row p against row q. -/
def dot (x : Arr) (p q : Fin 4096) : EReal := ∑ k : Fin 1024, x (ix2 p k) * x (ix2 q k)

/-- Row p against itself. -/
def sqn (x : Arr) (p : Fin 4096) : EReal := ∑ k : Fin 1024, x (ix2 p k) * x (ix2 p k)

/-- The one-sided Gaussian kernel matrix. -/
def rbf (x : Arr) : Mat := fun p q => Ideal.exp (dot x p q - sqn x p)

/-- Row means, column means and the grand mean of a matrix. -/
def rowMean (K : Mat) (p : Fin 4096) : EReal := Ideal.div (∑ q : Fin 4096, K p q) c4096
def colMean (K : Mat) (q : Fin 4096) : EReal := Ideal.div (∑ p : Fin 4096, K p q) c4096
def grandMean (K : Mat) : EReal := Ideal.div (∑ p : Fin 4096, ∑ q : Fin 4096, K p q) c2p24

/-- The doubly centred matrix. -/
def cen (K : Mat) : Mat := fun p q => K p q - rowMean K p - colMean K q + grandMean K

/-- The result. -/
def hsic (x y : Arr) : EReal :=
  Ideal.div (∑ p : Fin 4096, ∑ q : Fin 4096, cen (rbf x) p q * cen (rbf y) q p) cN

/-- An array is finite when every element is a real number. -/
def Finite (x : Arr) : Prop := ∀ i, ∃ r : ℝ, x i = (r : EReal)

/-! ## The constants' words as reals -/

theorem ofBits_4096 : c4096 = ((4096 : ℝ) : EReal) := by
  simp [Ideal.ofBits, Ideal.ieee, -EReal.coe_mul] <;> norm_num
theorem ofBits_2p24 : c2p24 = ((16777216 : ℝ) : EReal) := by
  simp [Ideal.ofBits, Ideal.ieee, -EReal.coe_mul] <;> norm_num
theorem ofBits_N : cN = ((16769025 : ℝ) : EReal) := by
  simp [Ideal.ofBits, Ideal.ieee, -EReal.coe_mul] <;> norm_num
theorem ofBits_two : Ideal.ofBits .f32 0x40000000#32 = ((2 : ℝ) : EReal) := by
  simp [Ideal.ofBits, Ideal.ieee, -EReal.coe_mul] <;> norm_num
theorem ofBits_scale : Ideal.ofBits .f32 0x3A800000#32 = ((1 / 1024 : ℝ) : EReal) := by
  simp [Ideal.ofBits, Ideal.ieee, -EReal.coe_mul] <;> norm_num

/-! ## Sums and quotients of reals inside the extended reals -/

/-- A finite sum of reals, taken in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real, taken in the extended reals, is the real quotient. -/
theorem div_coe_coe (a b : ℝ) (hb : b ≠ 0) : Ideal.div (a : EReal) (b : EReal) = ((a / b : ℝ) : EReal) := by
  rw [Ideal.div_coe hb, ← EReal.coe_mul, mul_one_div]

/-! ## The same quantities over the reals -/

/-- A real array and a real matrix. -/
abbrev ArrR : Type := (⟨2, ![4096, 1024]⟩ : Shape).Idx → ℝ
abbrev MatR : Type := Fin 4096 → Fin 4096 → ℝ

/-- A real array, and a real matrix, inside the extended reals. -/
abbrev up (x : ArrR) : Arr := fun i => (x i : EReal)
abbrev upM (K : MatR) : Mat := fun p q => (K p q : EReal)

def dotR (x : ArrR) (p q : Fin 4096) : ℝ := ∑ k : Fin 1024, x (ix2 p k) * x (ix2 q k)
def sqnR (x : ArrR) (p : Fin 4096) : ℝ := ∑ k : Fin 1024, x (ix2 p k) * x (ix2 p k)
def rbfR (x : ArrR) : MatR := fun p q => Real.exp (dotR x p q - sqnR x p)
def rowMeanR (K : MatR) (p : Fin 4096) : ℝ := (∑ q : Fin 4096, K p q) / 4096
def colMeanR (K : MatR) (q : Fin 4096) : ℝ := (∑ p : Fin 4096, K p q) / 4096
def grandMeanR (K : MatR) : ℝ := (∑ p : Fin 4096, ∑ q : Fin 4096, K p q) / 16777216
def cenR (K : MatR) : MatR := fun p q => K p q - rowMeanR K p - colMeanR K q + grandMeanR K
def hsicR (x y : ArrR) : ℝ :=
  (∑ p : Fin 4096, ∑ q : Fin 4096, cenR (rbfR x) p q * cenR (rbfR y) q p) / 16769025

/-- A finite array is a real array. -/
theorem Finite.exists_up {x : Arr} (hx : Finite x) : ∃ xr : ArrR, x = up xr := by
  choose xr hxr using hx
  exact ⟨xr, funext hxr⟩

theorem dot_up (x : ArrR) (p q : Fin 4096) : dot (up x) p q = (dotR x p q : EReal) := by
  unfold dot dotR
  simp only [← EReal.coe_mul]
  exact coe_sum _ _

theorem sqn_up (x : ArrR) (p : Fin 4096) : sqn (up x) p = (sqnR x p : EReal) := by
  unfold sqn sqnR
  simp only [← EReal.coe_mul]
  exact coe_sum _ _

theorem rbf_up (x : ArrR) : rbf (up x) = upM (rbfR x) := by
  funext p q
  unfold rbf rbfR
  rw [dot_up, sqn_up, ← EReal.coe_sub, Ideal.exp_coe]

theorem rowMean_up (K : MatR) (p : Fin 4096) : rowMean (upM K) p = (rowMeanR K p : EReal) := by
  unfold rowMean rowMeanR
  rw [ofBits_4096, coe_sum, div_coe_coe _ _ (by norm_num)]

theorem colMean_up (K : MatR) (q : Fin 4096) : colMean (upM K) q = (colMeanR K q : EReal) := by
  unfold colMean colMeanR
  rw [ofBits_4096, coe_sum, div_coe_coe _ _ (by norm_num)]

theorem grandMean_up (K : MatR) : grandMean (upM K) = (grandMeanR K : EReal) := by
  unfold grandMean grandMeanR
  rw [ofBits_2p24]
  simp only [coe_sum]
  rw [div_coe_coe _ _ (by norm_num)]

theorem cen_up (K : MatR) : cen (upM K) = upM (cenR K) := by
  funext p q
  unfold cen cenR
  rw [rowMean_up, colMean_up, grandMean_up, ← EReal.coe_sub, ← EReal.coe_sub, ← EReal.coe_add]

theorem hsic_up (x y : ArrR) : hsic (up x) (up y) = (hsicR x y : EReal) := by
  unfold hsic hsicR
  rw [rbf_up, rbf_up, cen_up, cen_up, ofBits_N]
  simp only [← EReal.coe_mul, coe_sum]
  rw [div_coe_coe _ _ (by norm_num)]

/-! ## Under finiteness every quantity is a real -/

theorem dot_real {x : Arr} (hx : Finite x) (p q : Fin 4096) : ∃ r : ℝ, dot x p q = (r : EReal) := by
  obtain ⟨xr, rfl⟩ := hx.exists_up; exact ⟨_, dot_up xr p q⟩
theorem sqn_real {x : Arr} (hx : Finite x) (p : Fin 4096) : ∃ r : ℝ, sqn x p = (r : EReal) := by
  obtain ⟨xr, rfl⟩ := hx.exists_up; exact ⟨_, sqn_up xr p⟩
theorem rbf_real {x : Arr} (hx : Finite x) (p q : Fin 4096) : ∃ r : ℝ, rbf x p q = (r : EReal) := by
  obtain ⟨xr, rfl⟩ := hx.exists_up; exact ⟨_, congrFun (congrFun (rbf_up xr) p) q⟩
theorem rowMean_real {x : Arr} (hx : Finite x) (p : Fin 4096) : ∃ r : ℝ, rowMean (rbf x) p = (r : EReal) := by
  obtain ⟨xr, rfl⟩ := hx.exists_up; rw [rbf_up]; exact ⟨_, rowMean_up _ p⟩
theorem colMean_real {x : Arr} (hx : Finite x) (q : Fin 4096) : ∃ r : ℝ, colMean (rbf x) q = (r : EReal) := by
  obtain ⟨xr, rfl⟩ := hx.exists_up; rw [rbf_up]; exact ⟨_, colMean_up _ q⟩
theorem grandMean_real {x : Arr} (hx : Finite x) : ∃ r : ℝ, grandMean (rbf x) = (r : EReal) := by
  obtain ⟨xr, rfl⟩ := hx.exists_up; rw [rbf_up]; exact ⟨_, grandMean_up _⟩
theorem cen_real {x : Arr} (hx : Finite x) (p q : Fin 4096) : ∃ r : ℝ, cen (rbf x) p q = (r : EReal) := by
  obtain ⟨xr, rfl⟩ := hx.exists_up; rw [rbf_up, cen_up]; exact ⟨_, rfl⟩
theorem hsic_real {x y : Arr} (hx : Finite x) (hy : Finite y) : ∃ r : ℝ, hsic x y = (r : EReal) := by
  obtain ⟨xr, rfl⟩ := hx.exists_up; obtain ⟨yr, rfl⟩ := hy.exists_up; exact ⟨_, hsic_up xr yr⟩

/-! ## Sums over positions written as tile and offset -/

/-- Offset b of tile a, tiles of B positions, is a position below A·B. -/
theorem lt_blocks {A B N : ℕ} (h : A * B = N) (a : Fin A) (b : Fin B) : B * a.val + b.val < N := by
  subst h
  calc B * a.val + b.val < B * a.val + B := Nat.add_lt_add_left b.isLt _
    _ = B * (a.val + 1) := by ring
    _ ≤ B * A := Nat.mul_le_mul_left _ a.isLt
    _ = A * B := Nat.mul_comm _ _

/-- A sum over the positions below A·B is the sum over the tiles of the sums over the offsets inside each tile. -/
theorem sum_blocks {M : Type*} [AddCommMonoid M] (A B N : ℕ) (h : A * B = N) (g : Fin N → M) :
    ∑ k : Fin N, g k = ∑ a : Fin A, ∑ b : Fin B, g ⟨B * a.val + b.val, lt_blocks h a b⟩ := by
  subst h
  rw [← Equiv.sum_comp finProdFinEquiv g, Fintype.sum_prod_type]
  refine Finset.sum_congr rfl fun a _ => Finset.sum_congr rfl fun b _ => congrArg g (Fin.ext ?_)
  show b.val + B * a.val = B * a.val + b.val
  exact Nat.add_comm _ _

/-- Row (or column) r of tile I, tiles of 512. -/
abbrev pos (I : Fin 8) (r : Fin 512) : Fin 4096 := ⟨512 * I.val + r.val, by omega⟩

/-- The row block of a row of the 64-row partial-sum array, blocks of 8 rows. -/
abbrev blk (i : Fin 64) : Fin 8 := ⟨i.val / 8, by omega⟩

theorem sum_pos {M : Type*} [AddCommMonoid M] (g : Fin 4096 → M) :
    ∑ p : Fin 4096, g p = ∑ I : Fin 8, ∑ r : Fin 512, g (pos I r) :=
  sum_blocks 8 512 4096 (by norm_num) g

/-- The tile sums reassemble the sum over the whole matrix. -/
theorem sum_tiles_R (G : Fin 4096 → Fin 4096 → ℝ) :
    ∑ I : Fin 8, ∑ J : Fin 8, ∑ r : Fin 512, ∑ c : Fin 512, G (pos I r) (pos J c)
      = ∑ p : Fin 4096, ∑ q : Fin 4096, G p q := by
  refine ((sum_pos (fun p => ∑ q : Fin 4096, G p q)).trans ?_).symm
  refine Finset.sum_congr rfl fun I _ => ?_
  refine (Finset.sum_congr rfl fun r _ => sum_pos (fun q => G (pos I r) q)).trans ?_
  exact Finset.sum_comm

/-- 8 rows of 128 lanes, each holding a block's sum scaled by 1/1024, sum to the blocks' sums. -/
theorem sum_rows_R (f : Fin 8 → ℝ) :
    ∑ i : Fin 64, ∑ _j : Fin 128, f (blk i) * (1 / 1024) = ∑ I : Fin 8, f I := by
  refine (sum_blocks 8 8 64 (by norm_num) (fun i => ∑ _j : Fin 128, f (blk i) * (1 / 1024))).trans ?_
  refine Finset.sum_congr rfl fun I _ => ?_
  have hb : ∀ a : Fin 8, blk ⟨8 * I.val + a.val, lt_blocks (by norm_num) I a⟩ = I := fun a =>
    Fin.ext (by show (8 * I.val + a.val) / 8 = I.val; omega)
  simp only [hb, Finset.sum_const, Finset.card_univ, Fintype.card_fin, nsmul_eq_mul]
  push_cast
  ring

/-! ## The tiled, scaled accumulation is the result -/

/-- Tile (I, J) contributes T I J, the sum over the tile of the products of the two centred matrices (the second
    transposed). Row i of the 64 x 128 partial-sum array holds, in each of its 128 lanes, zero plus the eight
    contributions of its row block, each scaled by 2^-10. Zero plus the sum of that array, over 16769025, is the result:
    each block's contributions are counted 8 · 128 = 1024 times at weight 1/1024, and the tiles cover the matrix. -/
theorem tiling (x y : Arr) (hx : Finite x) (hy : Finite y) (T : Fin 8 → Fin 8 → EReal)
    (hT : ∀ I J, T I J = ∑ r : Fin 512, ∑ c : Fin 512,
      cen (rbf x) (pos I r) (pos J c) * cen (rbf y) (pos J c) (pos I r))
    (O : Fin 64 → Fin 128 → EReal)
    (hO : ∀ i j, O i j = Ideal.ofBits .f32 0x00000000#32
      + ∑ J : Fin 8, T (blk i) J * Ideal.ofBits .f32 0x3A800000#32) :
    Ideal.div (Ideal.ofBits .f32 0x00000000#32 + ∑ i : Fin 64, ∑ j : Fin 128, O i j) cN = hsic x y := by
  obtain ⟨xr, rfl⟩ := hx.exists_up
  obtain ⟨yr, rfl⟩ := hy.exists_up
  have hT' : ∀ I J, T I J = ((∑ r : Fin 512, ∑ c : Fin 512,
      cenR (rbfR xr) (pos I r) (pos J c) * cenR (rbfR yr) (pos J c) (pos I r) : ℝ) : EReal) := by
    intro I J
    rw [hT, rbf_up, rbf_up, cen_up, cen_up]
    simp only [← EReal.coe_mul, coe_sum]
  have hO' : ∀ i j, O i j = (((∑ J : Fin 8, ∑ r : Fin 512, ∑ c : Fin 512,
      cenR (rbfR xr) (pos (blk i) r) (pos J c) * cenR (rbfR yr) (pos J c) (pos (blk i) r)) * (1 / 1024) : ℝ) : EReal) := by
    intro i j
    rw [hO, Ideal.ofBits_zero_f32, zero_add, ofBits_scale]
    simp only [hT', ← EReal.coe_mul, coe_sum]
    rw [Finset.sum_mul]
  rw [Ideal.ofBits_zero_f32, zero_add, hsic_up, ofBits_N]
  simp only [hO', coe_sum]
  rw [div_coe_coe _ _ (by norm_num)]
  unfold hsicR
  refine congrArg (fun t : ℝ => ((t / 16769025 : ℝ) : EReal)) ?_
  exact (sum_rows_R (fun I => ∑ J : Fin 8, ∑ r : Fin 512, ∑ c : Fin 512,
      cenR (rbfR xr) (pos I r) (pos J c) * cenR (rbfR yr) (pos J c) (pos I r))).trans
    (sum_tiles_R (fun p q => cenR (rbfR xr) p q * cenR (rbfR yr) q p))

end Cert.Hsic

end
-- ==== Proof.LibRowBlocks.lean ====
/- General lemmas about a reduction carried block by block.

   A kernel that reduces a long axis in tiles keeps a running value: the first tile combines its own reduction with the
   neutral start, every later tile combines its reduction with what the tile before left. The lemmas below say that the value
   after the last tile is the reduction of all the tiles' reductions, for a sum in any commutative additive monoid (the extended
   reals at the ideal reading of floats) and for a maximum in any join-semilattice, and that a sum over positions
   `a · B + b` of a long axis is the sum over tiles `a` of the sums over positions `b` inside the tile. Nothing here mentions a
   program. -/
import Mathlib.Algebra.BigOperators.Fin
import Mathlib.Data.Finset.Range
import Mathlib.Algebra.BigOperators.Group.Finset.Basic
import Mathlib.Order.Lattice
import Mathlib.Data.Finset.Lattice.Fold
import Mathlib.Logic.Equiv.Fin.Basic

namespace RowBlocks

open Finset

/-- A running sum: `S 0 = z + s 0` and `S (t + 1) = S t + s (t + 1)` up to tile `n` give `S n = z + ∑ t ≤ n, s t`. -/
theorem running_sum {α : Type*} [AddCommMonoid α] (s S : ℕ → α) (z : α) (n : ℕ) (h0 : S 0 = z + s 0)
    (hs : ∀ t, t < n → S (t + 1) = S t + s (t + 1)) : S n = z + ∑ t ∈ range (n + 1), s t := by
  induction n with
  | zero => simpa using h0
  | succ k ih =>
    rw [hs k (Nat.lt_succ_self k), ih fun t ht => hs t (Nat.lt_succ_of_lt ht), sum_range_succ (fun t => s t) (k + 1), add_assoc]

/-- A running maximum: `M 0 = z ⊔ m 0` and `M (t + 1) = M t ⊔ m (t + 1)` up to tile `n` give `M n = z ⊔ sup_{t ≤ n} m t`. -/
theorem running_sup {β : Type*} [SemilatticeSup β] (m M : ℕ → β) (z : β) (n : ℕ) (h0 : M 0 = z ⊔ m 0)
    (hs : ∀ t, t < n → M (t + 1) = M t ⊔ m (t + 1)) : M n = z ⊔ (range (n + 1)).sup' nonempty_range_add_one m := by
  induction n with
  | zero => simpa using h0
  | succ k ih =>
    rw [hs k (Nat.lt_succ_self k), ih fun t ht => hs t (Nat.lt_succ_of_lt ht), sup_assoc]
    congr 1
    apply le_antisymm
    · refine sup_le (sup'_le _ _ fun t ht => le_sup' m (mem_range.mpr (Nat.lt_succ_of_lt (mem_range.mp ht)))) (le_sup' m (mem_range.mpr (Nat.lt_succ_self _)))
    · refine sup'_le _ _ fun t ht => ?_
      rcases Nat.lt_succ_iff_lt_or_eq.mp (mem_range.mp ht) with h | h
      · exact le_sup_of_le_left (le_sup' m (mem_range.mpr h))
      · subst h; exact le_sup_right

/-- A sum over the positions of a long axis of extent `A · B`, position `a · B + b` being position `b` of tile `a`, is the sum
    over the tiles of the sums inside each tile. -/
theorem sum_tiles {α : Type*} [AddCommMonoid α] (A B : ℕ) (f : Fin (A * B) → α) :
    ∑ k : Fin (A * B), f k = ∑ a : Fin A, ∑ b : Fin B, f (finProdFinEquiv (a, b)) := by
  rw [← Fintype.sum_prod_type' (fun a b => f (finProdFinEquiv (a, b)))]
  exact (Equiv.sum_comp finProdFinEquiv f).symm

end RowBlocks
-- ==== Proof.TraceValueI.lean ====
/-
  The trace region's output array at the ideal values, entry by entry.

  The third region runs over an 8 × 8 grid of tiles (I, J). At tile (I, J) the body centres the 512 × 512 tile (I, J) of
  the first Gaussian-kernel matrix (entry minus its row's mean, minus its column's mean, plus the grand mean), centres
  the mirrored tile (J, I) of the second matrix the same way, multiplies the first with the transpose of the second entry
  by entry and sums the tile to one number. That number, scaled by 2⁻¹⁰, is added to every entry of the 8 × 128 output
  block of row-block I, which starts from zeros at J = 0, is carried across the eight column tiles, and is written back
  as rows 8·I … 8·I + 7 of a 64 × 128 array after J = 7.

  Over the extended reals this file proves:
    * one step at an entry: what the block held there plus the tile's number times 2⁻¹⁰ (`acc2_at`), and the zeroed
      block reads zero (`zero2_at`);
    * grid point t is tile (⌊t/8⌋, t mod 8), and each window's block at t, read at a block coordinate, is its array read
      at block index × block size + coordinate (`idx_all`, `iblk2_0_at` … `iblk2_7_at`); so the number the body computes
      at t is the tile's number `tile V c I J`, a double sum over the tile of products of centred entries of the arrays
      as the region finds them (`step_at`);
    * the running sum over a row-block's eight points: after the last one every entry of the block is zero plus the eight
      scaled tile numbers (`row_sum`, `flush_sum`);
    * the eight write-backs cover the array, each with its own row-block (`flushed8_eq`, `cover8`), so after the region
      the array's entry (i, j) is zero plus the sum over J of tile (⌊i/8⌋, J) times 2⁻¹⁰ (`final2`).
-/
import proofs.«147226_j26061861552238_2_alg».proof.Proof.TraceRegionI
import proofs.«147226_j26061861552238_2_alg».proof.Proof.PayloadTraceI
import proofs.«147226_j26061861552238_2_alg».proof.Proof.HsicSpec
import proofs.«147226_j26061861552238_2_alg».proof.Proof.LibRowBlocks
import Idealize.ShloMosaic.Lib.Pipeline.Value
import Idealize.ShloMosaic.Lib.ValueIdx

noncomputable section

open scoped BigOperators

namespace Cert.KernelIdeal.TraceValue

open Cert.KernelIdeal Cert.KernelIdeal.Gen Cert.KernelIdeal.Hand2 Cert.KernelIdeal.Pay
open Cert.Hsic (pos blk)
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One step of the accumulation at an entry -/

theorem hz : (![0, 0] : Fin 2 → Nat) = fun _ => 0 := funext fun a => by fin_cases a <;> rfl

/-- The scale 2⁻¹⁰ and the zero the accumulation starts from, as the words the body uses. -/
abbrev sc : EReal := Ideal.ofBits .f32 0x3A800000#32
abbrev z0 : EReal := Ideal.ofBits .f32 0x00000000#32

/-- The zeroed output block reads zero at every entry. -/
theorem zero2_at (a : Fin 8) (b : Fin 128) : zero2 (F := Ideal) (ix2 a b) = z0 := by
  unfold zero2
  rw [View.canon_unit_zero hz]
  exact k2_pay2_at a b

/-- One step at an entry: what the block held there, plus the tile's number scaled. -/
theorem acc2_at (x0 x1 : Vec Ideal S512x512 .f32) (x2 : Vec Ideal S512x1 .f32) (x3 : Vec Ideal S1x512 .f32) (x4 : Vec Ideal S1x1 .f32)
    (x5 : Vec Ideal S512x1 .f32) (x6 : Vec Ideal S1x512 .f32) (x7 : Vec Ideal S1x1 .f32) (prev : Vec Ideal S8x128 .f32)
    (a : Fin 8) (b : Fin 128) :
    acc2 x0 x1 x2 x3 x4 x5 x6 x7 prev (ix2 a b)
      = prev (ix2 a b) + (∑ r : Fin 512, ∑ cc : Fin 512, cenTile x0 x2 x3 x4 r cc * cenTile x1 x5 x6 x7 cc r) * sc := by
  unfold acc2
  rw [View.canon_unit_zero hz]
  simp only [View.ld_unit_zero (S := S512x512) hz, View.ld_unit_zero (S := S512x1) hz, View.ld_unit_zero (S := S1x512) hz,
    View.ld_unit_zero (S := S1x1) hz, View.ld_unit_zero (S := S8x128) hz]
  rw [k2_pay1_at, k2_pay3_at]

/-! ## The windows' block indices, decided over the grid -/

/-- Point `t` is tile (⌊t/8⌋, t mod 8) of the grid: each window's block index at `t`. -/
theorem idx_all : ∀ t : Fin cfg2.N,
    (win2_0.index t (0 : Fin 2) = t.val / 8 ∧ win2_0.index t (1 : Fin 2) = t.val % 8)
    ∧ (win2_1.index t (0 : Fin 2) = t.val % 8 ∧ win2_1.index t (1 : Fin 2) = t.val / 8)
    ∧ (win2_2.index t (0 : Fin 2) = t.val / 8 ∧ win2_2.index t (1 : Fin 2) = 0)
    ∧ (win2_3.index t (0 : Fin 2) = 0 ∧ win2_3.index t (1 : Fin 2) = t.val % 8)
    ∧ (win2_4.index t (0 : Fin 2) = 0 ∧ win2_4.index t (1 : Fin 2) = 0)
    ∧ (win2_5.index t (0 : Fin 2) = t.val % 8 ∧ win2_5.index t (1 : Fin 2) = 0)
    ∧ (win2_6.index t (0 : Fin 2) = 0 ∧ win2_6.index t (1 : Fin 2) = t.val / 8)
    ∧ (win2_7.index t (0 : Fin 2) = 0 ∧ win2_7.index t (1 : Fin 2) = 0)
    ∧ (win2_8.index t (0 : Fin 2) = t.val / 8 ∧ win2_8.index t (1 : Fin 2) = 0) :=
  (by decide +kernel : ∀ t : Fin grid2.N, _)

theorem lt64 (t : Fin cfg2.N) : t.val < 64 := lt_of_lt_of_eq t.isLt (show cfg2.N = 64 from N_2)

/-- The row-block and the column-block of a point. -/
abbrev rowB (t : Fin cfg2.N) : Fin 8 := ⟨t.val / 8, by have := lt64 t; omega⟩
abbrev colB (t : Fin cfg2.N) : Fin 8 := ⟨t.val % 8, by omega⟩

/-! ## Each window's block, read off its array -/

theorem iblk2_0_at (c : Dev nD) (t : Fin cfg2.N) (p q : Fin 512) :
    (iblk2 V c 0 t : Vec Ideal S512x512 .f32) (ix2 p q)
      = (V c main_v10 : S4096x4096.Idx → EReal) (ix2 (pos (rowB t) p) (pos (colB t) q)) := by
  obtain ⟨⟨e0, e1⟩, -⟩ := idx_all t
  unfold iblk2
  rw [View.read_apply]
  show V c main_v10 _ = V c main_v10 _
  refine congrArg (V c main_v10) ?_
  funext a; apply Fin.ext
  match a with
  | ⟨0, _⟩ => show win2_0.index t (0 : Fin 2) * 512 + 1 * p.val = 512 * (t.val / 8) + p.val; rw [e0]; omega
  | ⟨1, _⟩ => show win2_0.index t (1 : Fin 2) * 512 + 1 * q.val = 512 * (t.val % 8) + q.val; rw [e1]; omega

theorem iblk2_1_at (c : Dev nD) (t : Fin cfg2.N) (p : Fin 512) (q : Fin 512) :
    (iblk2 V c 1 t : Vec Ideal S512x512 .f32) (ix2 p q)
      = (V c main_v11 : S4096x4096.Idx → EReal) (ix2 (pos (colB t) p) (pos (rowB t) q)) := by
  obtain ⟨-, ⟨e0, e1⟩, -⟩ := idx_all t
  unfold iblk2
  rw [View.read_apply]
  show V c main_v11 _ = V c main_v11 _
  refine congrArg (V c main_v11) ?_
  funext a; apply Fin.ext
  match a with
  | ⟨0, _⟩ => show win2_1.index t (0 : Fin 2) * 512 + 1 * p.val = 512 * (t.val % 8) + p.val; rw [e0]; omega
  | ⟨1, _⟩ => show win2_1.index t (1 : Fin 2) * 512 + 1 * q.val = 512 * (t.val / 8) + q.val; rw [e1]; omega

theorem iblk2_2_at (c : Dev nD) (t : Fin cfg2.N) (p : Fin 512)  :
    (iblk2 V c 2 t : Vec Ideal S512x1 .f32) (ix2 p (0 : Fin 1))
      = (V c main_v15 : S4096x1.Idx → EReal) (ix2 (pos (rowB t) p) (0 : Fin 1)) := by
  obtain ⟨-, -, ⟨e0, e1⟩, -⟩ := idx_all t
  unfold iblk2
  rw [View.read_apply]
  show V c main_v15 _ = V c main_v15 _
  refine congrArg (V c main_v15) ?_
  funext a; apply Fin.ext
  match a with
  | ⟨0, _⟩ => show win2_2.index t (0 : Fin 2) * 512 + 1 * p.val = 512 * (t.val / 8) + p.val; rw [e0]; omega
  | ⟨1, _⟩ => show win2_2.index t (1 : Fin 2) * 1 + 1 * 0 = 0; rw [e1]

theorem iblk2_3_at (c : Dev nD) (t : Fin cfg2.N)  (q : Fin 512) :
    (iblk2 V c 3 t : Vec Ideal S1x512 .f32) (ix2 (0 : Fin 1) q)
      = (V c main_v19 : S1x4096.Idx → EReal) (ix2 (0 : Fin 1) (pos (colB t) q)) := by
  obtain ⟨-, -, -, ⟨e0, e1⟩, -⟩ := idx_all t
  unfold iblk2
  rw [View.read_apply]
  show V c main_v19 _ = V c main_v19 _
  refine congrArg (V c main_v19) ?_
  funext a; apply Fin.ext
  match a with
  | ⟨0, _⟩ => show win2_3.index t (0 : Fin 2) * 1 + 1 * 0 = 0; rw [e0]
  | ⟨1, _⟩ => show win2_3.index t (1 : Fin 2) * 512 + 1 * q.val = 512 * (t.val % 8) + q.val; rw [e1]; omega

theorem iblk2_4_at (c : Dev nD) (t : Fin cfg2.N)   :
    (iblk2 V c 4 t : Vec Ideal S1x1 .f32) (ix2 (0 : Fin 1) (0 : Fin 1))
      = (V c main_v22 : S1x1.Idx → EReal) (ix2 (0 : Fin 1) (0 : Fin 1)) := by
  obtain ⟨-, -, -, -, ⟨e0, e1⟩, -⟩ := idx_all t
  unfold iblk2
  rw [View.read_apply]
  show V c main_v22 _ = V c main_v22 _
  refine congrArg (V c main_v22) ?_
  funext a; apply Fin.ext
  match a with
  | ⟨0, _⟩ => show win2_4.index t (0 : Fin 2) * 1 + 1 * 0 = 0; rw [e0]
  | ⟨1, _⟩ => show win2_4.index t (1 : Fin 2) * 1 + 1 * 0 = 0; rw [e1]

theorem iblk2_5_at (c : Dev nD) (t : Fin cfg2.N) (p : Fin 512)  :
    (iblk2 V c 5 t : Vec Ideal S512x1 .f32) (ix2 p (0 : Fin 1))
      = (V c main_v26 : S4096x1.Idx → EReal) (ix2 (pos (colB t) p) (0 : Fin 1)) := by
  obtain ⟨-, -, -, -, -, ⟨e0, e1⟩, -⟩ := idx_all t
  unfold iblk2
  rw [View.read_apply]
  show V c main_v26 _ = V c main_v26 _
  refine congrArg (V c main_v26) ?_
  funext a; apply Fin.ext
  match a with
  | ⟨0, _⟩ => show win2_5.index t (0 : Fin 2) * 512 + 1 * p.val = 512 * (t.val % 8) + p.val; rw [e0]; omega
  | ⟨1, _⟩ => show win2_5.index t (1 : Fin 2) * 1 + 1 * 0 = 0; rw [e1]

theorem iblk2_6_at (c : Dev nD) (t : Fin cfg2.N)  (q : Fin 512) :
    (iblk2 V c 6 t : Vec Ideal S1x512 .f32) (ix2 (0 : Fin 1) q)
      = (V c main_v30 : S1x4096.Idx → EReal) (ix2 (0 : Fin 1) (pos (rowB t) q)) := by
  obtain ⟨-, -, -, -, -, -, ⟨e0, e1⟩, -⟩ := idx_all t
  unfold iblk2
  rw [View.read_apply]
  show V c main_v30 _ = V c main_v30 _
  refine congrArg (V c main_v30) ?_
  funext a; apply Fin.ext
  match a with
  | ⟨0, _⟩ => show win2_6.index t (0 : Fin 2) * 1 + 1 * 0 = 0; rw [e0]
  | ⟨1, _⟩ => show win2_6.index t (1 : Fin 2) * 512 + 1 * q.val = 512 * (t.val / 8) + q.val; rw [e1]; omega

theorem iblk2_7_at (c : Dev nD) (t : Fin cfg2.N)   :
    (iblk2 V c 7 t : Vec Ideal S1x1 .f32) (ix2 (0 : Fin 1) (0 : Fin 1))
      = (V c main_v33 : S1x1.Idx → EReal) (ix2 (0 : Fin 1) (0 : Fin 1)) := by
  obtain ⟨-, -, -, -, -, -, -, ⟨e0, e1⟩, -⟩ := idx_all t
  unfold iblk2
  rw [View.read_apply]
  show V c main_v33 _ = V c main_v33 _
  refine congrArg (V c main_v33) ?_
  funext a; apply Fin.ext
  match a with
  | ⟨0, _⟩ => show win2_7.index t (0 : Fin 2) * 1 + 1 * 0 = 0; rw [e0]
  | ⟨1, _⟩ => show win2_7.index t (1 : Fin 2) * 1 + 1 * 0 = 0; rw [e1]

/-! ## The tile's number -/

/-- Tile (I, J) of two 4096×4096 matrices `K`, `K'` with their row statistics `rm`, `rm'`, column statistics `cm`, `cm'`
    and scalars `gm`, `gm'`: the sum over the tile of the first matrix's centred entry times the second matrix's centred
    entry at the mirrored position. -/
def tileOf (K : S4096x4096.Idx → EReal) (rm : S4096x1.Idx → EReal) (cm : S1x4096.Idx → EReal) (gm : S1x1.Idx → EReal)
    (K' : S4096x4096.Idx → EReal) (rm' : S4096x1.Idx → EReal) (cm' : S1x4096.Idx → EReal) (gm' : S1x1.Idx → EReal)
    (I J : Fin 8) : EReal := ∑ r : Fin 512, ∑ cc : Fin 512,
    (K (ix2 (pos I r) (pos J cc)) - rm (ix2 (pos I r) (0 : Fin 1)) - cm (ix2 (0 : Fin 1) (pos J cc)) + gm (ix2 (0 : Fin 1) (0 : Fin 1)))
    * (K' (ix2 (pos J cc) (pos I r)) - rm' (ix2 (pos J cc) (0 : Fin 1)) - cm' (ix2 (0 : Fin 1) (pos I r)) + gm' (ix2 (0 : Fin 1) (0 : Fin 1)))

/-- The same of the eight arrays the region reads, as it finds them. -/
def tile (c : Dev nD) (I J : Fin 8) : EReal :=
  tileOf (V c main_v10) (V c main_v15) (V c main_v19) (V c main_v22) (V c main_v11) (V c main_v26) (V c main_v30) (V c main_v33) I J

/-- The number the body computes from the eight blocks at point `t` is the tile's. -/
theorem step_at (c : Dev nD) (t : Fin cfg2.N) :
    (∑ r : Fin 512, ∑ cc : Fin 512, cenTile (iblk2 V c 0 t) (iblk2 V c 2 t) (iblk2 V c 3 t) (iblk2 V c 4 t) r cc
        * cenTile (iblk2 V c 1 t) (iblk2 V c 5 t) (iblk2 V c 6 t) (iblk2 V c 7 t) cc r)
      = tile V c (rowB t) (colB t) := by
  unfold tile tileOf
  refine Finset.sum_congr rfl fun r _ => Finset.sum_congr rfl fun cc _ => ?_
  unfold cenTile
  rw [iblk2_0_at, iblk2_1_at, iblk2_2_at, iblk2_3_at, iblk2_4_at, iblk2_5_at, iblk2_6_at, iblk2_7_at]

/-! ## The running sum over a row-block's eight points -/

/-- Point `n mod 8` of row-block `I`. -/
abbrev pt (I : Fin 8) (n : ℕ) : Fin cfg2.N :=
  ⟨8 * I.val + n % 8, by have := I.isLt; rw [show cfg2.N = 64 from N_2]; omega⟩

theorem rowB_pt (I : Fin 8) (n : ℕ) : rowB (pt I n) = I :=
  Fin.ext (by have := I.isLt; show (8 * I.val + n % 8) / 8 = I.val; omega)

theorem colB_pt (I : Fin 8) (n : ℕ) : colB (pt I n) = ⟨n % 8, Nat.mod_lt _ (by norm_num)⟩ :=
  Fin.ext (by show (8 * I.val + n % 8) % 8 = n % 8; omega)

/-- After the last point of row-block `I` every entry of the output block holds zero plus the eight tiles' numbers, each
    scaled. -/
theorem row_sum (c : Dev nD) (I : Fin 8) (a : Fin 8) (b : Fin 128) :
    ((dat2 V c).after 8 (pt I 7) : Vec Ideal S8x128 .f32) (ix2 a b)
      = z0 + ∑ n ∈ Finset.range 8, tile V c I ⟨n % 8, Nat.mod_lt _ (by norm_num)⟩ * sc := by
  refine RowBlocks.running_sum (fun n => tile V c I ⟨n % 8, Nat.mod_lt _ (by norm_num)⟩ * sc)
    (fun n => ((dat2 V c).after 8 (pt I n) : Vec Ideal S8x128 .f32) (ix2 a b)) z0 7 ?_ ?_
  · show ((dat2 V c).after 8 (pt I 0) : Vec Ideal S8x128 .f32) (ix2 a b) = z0 + tile V c I ⟨0 % 8, Nat.mod_lt _ (by norm_num)⟩ * sc
    rw [after2_8_first V c (pt I 0) (by show (8 * I.val + 0 % 8) % 8 = 0; omega), acc2_at, zero2_at, step_at, rowB_pt, colB_pt]
  · intro n hn
    beta_reduce
    have e : (⟨(pt I (n + 1)).val - 1, Nat.lt_of_le_of_lt (Nat.sub_le _ _) (pt I (n + 1)).isLt⟩ : Fin cfg2.N) = pt I n :=
      Fin.ext (by show 8 * I.val + (n + 1) % 8 - 1 = 8 * I.val + n % 8; omega)
    rw [after2_8_next V c (pt I (n + 1)) (by show (8 * I.val + (n + 1) % 8) % 8 ≠ 0; omega), acc2_at, step_at, rowB_pt, colB_pt, e]

/-- The same with the eight tiles indexed by their column-block. -/
theorem range_to_fin (c : Dev nD) (I : Fin 8) :
    ∑ n ∈ Finset.range 8, tile V c I ⟨n % 8, Nat.mod_lt _ (by norm_num)⟩ * sc = ∑ J : Fin 8, tile V c I J * sc := by
  rw [Finset.sum_range]
  refine Finset.sum_congr rfl fun J _ => ?_
  have e : (⟨J.val % 8, Nat.mod_lt _ (by norm_num)⟩ : Fin 8) = J := Fin.ext (Nat.mod_eq_of_lt J.isLt)
  rw [e]

/-- At a point that writes the output block back (the last of its row-block), every entry of the block. -/
theorem flush_sum (c : Dev nD) (t : Fin cfg2.N) (h7 : t.val % 8 = 7) (a : Fin 8) (b : Fin 128) :
    ((dat2 V c).after 8 t : Vec Ideal S8x128 .f32) (ix2 a b) = z0 + ∑ J : Fin 8, tile V c (rowB t) J * sc := by
  have ht : pt (rowB t) 7 = t := Fin.ext (by show 8 * (t.val / 8) + 7 % 8 = t.val; omega)
  have h := row_sum V c (rowB t) a b
  rw [ht, range_to_fin] at h
  exact h

/-! ## The output array after the region -/

/-- What the output array ends holding: at row `i` (of 64) every entry is zero plus the eight scaled tile numbers of
    row-block `⌊i/8⌋`. -/
def G (c : Dev nD) : S64x128.Idx → EReal := fun x => z0 + ∑ J : Fin 8, tile V c (blk (x 0)) J * sc

/-- An index of the array is in point `t`'s block iff each coordinate is in the block's range on its axis. -/
theorem mem_blk8 (t : Fin cfg2.N) (i : S64x128.Idx) :
    i ∈ ((cfg2.win 8).blk t).view.set ↔ ∀ a : Fin 2, win2_8.index t a * S8x128.size a ≤ (i a).val
      ∧ (i a).val < win2_8.index t a * S8x128.size a + S8x128.size a := by
  show i ∈ ((View.whole main_v34).slice (win2_8.rect t)).set ↔ _
  rw [View.set_slice_whole, Rect.mem_set_unit]
  exact Iff.rfl

/-- What a point writes back is its block of `G`. -/
theorem flushed8_eq (c : Dev nD) (t : Fin cfg2.N) (hf : (cfg2.win 8).flush t = true) :
    (dat2 V c).flushed 8 t = ((cfg2.win 8).blk t).view.read (Elt Ideal) (G V c) := by
  have h7 : t.val % 8 = 7 := (flush2_8 t).mp hf
  obtain ⟨-, -, -, -, -, -, -, -, ⟨e0, e1⟩⟩ := idx_all t
  show (cfg2.win 8).cut (grid2.coords t) ((dat2 V c).after 8 t) = _
  funext j
  obtain ⟨a, b, rfl⟩ : ∃ (a : Fin 8) (b : Fin 128), j = ix2 a b := ⟨j 0, j 1, eq_ix2 j⟩
  rw [View.read_apply]
  show ((dat2 V c).after 8 t : Vec Ideal S8x128 .f32) (ix2 a b) = G V c (((cfg2.win 8).blk t).view.emb (ix2 a b))
  rw [flush_sum V c t h7 a b]
  unfold G
  have e : blk ((((cfg2.win 8).blk t).view.emb (ix2 a b) : S64x128.Idx) 0) = rowB t :=
    Fin.ext (by show (win2_8.index t (0 : Fin 2) * 8 + 1 * a.val) / 8 = t.val / 8; rw [e0]; omega)
  rw [e]

/-- Every index of the array is in the block of the last point of its row-block. -/
theorem cover8 (i : S64x128.Idx) : ∃ t : Fin cfg2.N, (cfg2.win 8).flush t = true ∧ i ∈ ((cfg2.win 8).blk t).view.set := by
  have hi0 : (i 0).val < 64 := (i 0).isLt
  have hi1 : (i 1).val < 128 := (i 1).isLt
  obtain ⟨t, ht⟩ : ∃ t : Fin cfg2.N, t.val = 8 * ((i 0).val / 8) + 7 :=
    ⟨⟨8 * ((i 0).val / 8) + 7, by rw [show cfg2.N = 64 from N_2]; omega⟩, rfl⟩
  obtain ⟨-, -, -, -, -, -, -, -, ⟨e0, e1⟩⟩ := idx_all t
  refine ⟨t, (flush2_8 t).mpr (by omega), ?_⟩
  rw [mem_blk8]
  intro a
  match a with
  | ⟨0, _⟩ =>
    show win2_8.index t (0 : Fin 2) * 8 ≤ (i 0).val ∧ (i 0).val < win2_8.index t (0 : Fin 2) * 8 + 8
    rw [e0, ht]; omega
  | ⟨1, _⟩ =>
    show win2_8.index t (1 : Fin 2) * 128 ≤ (i 1).val ∧ (i 1).val < win2_8.index t (1 : Fin 2) * 128 + 128
    rw [e1]; omega

/-- THE OUTPUT ARRAY after the region, at an entry: zero plus the eight tiles of the entry's row-block, each scaled by 2⁻¹⁰. -/
theorem final2 (c : Dev nD) (i : Fin 64) (j : Fin 128) :
    ((dat2 V c).arrAt 8 cfg2.N : S64x128.Idx → EReal) (ix2 i j)
      = Ideal.ofBits .f32 0x00000000#32 + ∑ J : Fin 8, tile V c (blk i) J * Ideal.ofBits .f32 0x3A800000#32 := by
  rw [(dat2 V c).arrAt_eq_of_cover 8 (G V c) (flushed8_eq V c) cover8]
  rfl

end Cert.KernelIdeal.TraceValue

end
-- ==== Proof.HostValuesI.lean ====
/-
  The host stretches of the kernel's program, read at an index at the ideal values, over an arbitrary valuation of
  the buffers: the rounding of the two arguments (the identity here) and their rows' sums of squares; the row means,
  column means and grand mean of the two kernel matrices; the sum of the partial-sum array over 16769025. A sum's zero
  start is dropped (`zero_add`) except in the last quotient, which keeps it as the tiling law states it.
-/
import proofs.«147226_j26061861552238_2_alg».proof.Proof.Gen.KernelIdeal.Regions
import proofs.«147226_j26061861552238_2_alg».proof.Proof.HsicSpec
import Idealize.ShloMosaic.Lib.Pipeline.Value
import Idealize.ShloMosaic.Lib.ValueIdx
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.ShloMosaic.StableHlo
  Idealize.ShloMosaic.ValueIdx Cert.Hsic

/-! ## The three means of a 4096 x 4096 matrix, as the operations spell them, read at an index -/

/-- A matrix as the buffers hold it. -/
abbrev MatBuf : Type := (⟨S4096x4096, .f32⟩ : BufTy).Contents (Elt Ideal)

/-- The row means, as a column: the row sums from zero, broadcast to a column, over the broadcast 4096. -/
abbrev rowMeanTerm (K : MatBuf) : (⟨S4096x1, .f32⟩ : BufTy).Contents (Elt Ideal) :=
  Host.divf (F := Ideal)
    (broadcastInDim S4096x1 ![0] bcast_S4096_S4096x1_0
      (Host.reduceAdd (F := Ideal) K (constant (F := Ideal) S_ .f32 0x00000000#32) reducesTo_S4096x4096_S4096_d1 h_S_))
    (broadcastInDim S4096x1 ![] bcast_S_S4096x1 (constant (F := Ideal) S_ .f32 0x45800000#32))

/-- The column means, as a row. -/
abbrev colMeanTerm (K : MatBuf) : (⟨S1x4096, .f32⟩ : BufTy).Contents (Elt Ideal) :=
  Host.divf (F := Ideal)
    (broadcastInDim S1x4096 ![1] bcast_S4096_S1x4096_1
      (Host.reduceAdd (F := Ideal) K (constant (F := Ideal) S_ .f32 0x00000000#32) reducesTo_S4096x4096_S4096_d0 h_S_))
    (broadcastInDim S1x4096 ![] bcast_S_S1x4096 (constant (F := Ideal) S_ .f32 0x45800000#32))

/-- The grand mean, before it is reshaped to one row and one column. -/
abbrev grandMeanTerm (K : MatBuf) : (⟨S_, .f32⟩ : BufTy).Contents (Elt Ideal) :=
  Host.divf (F := Ideal)
    (Host.reduceAdd (F := Ideal) K (constant (F := Ideal) S_ .f32 0x00000000#32) reducesTo_S4096x4096_S_d0_1 h_S_)
    (constant (F := Ideal) S_ .f32 0x4B800000#32)

/-- The sum along a row, from zero. -/
theorem reduce_d1_apply (K : MatBuf) (p : Fin 4096) :
    Host.reduceAdd (F := Ideal) K (constant (F := Ideal) S_ .f32 0x00000000#32) reducesTo_S4096x4096_S4096_d1 h_S_ (ix1 p)
      = ∑ q : Fin 4096, K (ix2 p q) := by
  simp only [Host.reduceAdd, Ideal.hostReduceAdd_def]
  rw [Ideal.hostReduceAdd_single reducesTo_S4096x4096_S4096_d1 (by decide)]
  refine Eq.trans (congrArg (· + _) (Ideal.ofBits_zero_f32)) ((zero_add _).trans (Finset.sum_congr rfl fun k _ => ?_))
  exact congrArg K (funext fun a => Fin.ext (by match a with | ⟨0, _⟩ => rfl | ⟨1, _⟩ => rfl))

/-- The sum along a column, from zero. -/
theorem reduce_d0_apply (K : MatBuf) (q : Fin 4096) :
    Host.reduceAdd (F := Ideal) K (constant (F := Ideal) S_ .f32 0x00000000#32) reducesTo_S4096x4096_S4096_d0 h_S_ (ix1 q)
      = ∑ p : Fin 4096, K (ix2 p q) := by
  simp only [Host.reduceAdd, Ideal.hostReduceAdd_def]
  rw [Ideal.hostReduceAdd_single reducesTo_S4096x4096_S4096_d0 (by decide)]
  refine Eq.trans (congrArg (· + _) (Ideal.ofBits_zero_f32)) ((zero_add _).trans (Finset.sum_congr rfl fun k _ => ?_))
  exact congrArg K (funext fun a => Fin.ext (by match a with | ⟨0, _⟩ => rfl | ⟨1, _⟩ => rfl))

/-- The sum of the whole matrix, from zero. -/
theorem reduce_total_apply (K : MatBuf) (i : S_.Idx) :
    Host.reduceAdd (F := Ideal) K (constant (F := Ideal) S_ .f32 0x00000000#32) reducesTo_S4096x4096_S_d0_1 h_S_ i
      = ∑ p : Fin 4096, ∑ q : Fin 4096, K (ix2 p q) := by
  simp only [Host.reduceAdd, Ideal.hostReduceAdd_def]
  rw [Ideal.hostReduceAdd_total reducesTo_S4096x4096_S_d0_1 (fun b => b.elim0) K _ i, sum_idx2]
  exact Eq.trans (congrArg (· + _) (Ideal.ofBits_zero_f32)) (zero_add _)

theorem rowMeanTerm_apply (K : MatBuf) (p : Fin 4096) (j : Fin 1) :
    rowMeanTerm K (ix2 p j) = Ideal.div (∑ q : Fin 4096, K (ix2 p q)) c4096 := by
  show FloatOps.hostDivf _ _ = _
  rw [Ideal.hostDivf_def,
    broadcastInDim_apply _ bcast_S4096_S4096x1_0 _ (ix2 p j) (ix1 p) (fun a => match a with
      | ⟨0, _⟩ => by show p.val = if (4096 : Nat) = 1 then 0 else p.val; rw [if_neg (by decide)]),
    broadcastInDim_apply _ bcast_S_S4096x1 _ (ix2 p j) ix0 (fun a => a.elim0),
    reduce_d1_apply]
  rfl

theorem colMeanTerm_apply (K : MatBuf) (j : Fin 1) (q : Fin 4096) :
    colMeanTerm K (ix2 j q) = Ideal.div (∑ p : Fin 4096, K (ix2 p q)) c4096 := by
  show FloatOps.hostDivf _ _ = _
  rw [Ideal.hostDivf_def,
    broadcastInDim_apply _ bcast_S4096_S1x4096_1 _ (ix2 j q) (ix1 q) (fun a => match a with
      | ⟨0, _⟩ => by show q.val = if (4096 : Nat) = 1 then 0 else q.val; rw [if_neg (by decide)]),
    broadcastInDim_apply _ bcast_S_S1x4096 _ (ix2 j q) ix0 (fun a => a.elim0),
    reduce_d0_apply]
  rfl

theorem grandMeanTerm_apply (K : MatBuf) (i : S_.Idx) :
    grandMeanTerm K i = Ideal.div (∑ p : Fin 4096, ∑ q : Fin 4096, K (ix2 p q)) c2p24 := by
  show FloatOps.hostDivf _ _ = _
  rw [Ideal.hostDivf_def, reduce_total_apply]
  rfl

/-- A scalar reshaped to one row and one column is the scalar. -/
theorem reshape_scalar_apply (v : (⟨S_, .f32⟩ : BufTy).Contents (Elt Ideal)) (a b : Fin 1) :
    shapeCast S1x1 v shapeCasts_S_S1x1 (ix2 a b) = v ix0 := by
  unfold shapeCast
  exact congrArg v (funext fun a => a.elim0)

/-! ## After the second host stretch: the means of the two kernel matrices -/

section H2
variable (W : Valuation τ sig (Elt Ideal))

theorem v15_term : (StableHlo.after (Gen.hostOps2 (F := Ideal)) W main_v15 : S4096x1.Idx → EReal) = rowMeanTerm (W main_v10) := by
  after_results <;> rfl
theorem v19_term : (StableHlo.after (Gen.hostOps2 (F := Ideal)) W main_v19 : S1x4096.Idx → EReal) = colMeanTerm (W main_v10) := by
  after_results <;> rfl
theorem v22_term : (StableHlo.after (Gen.hostOps2 (F := Ideal)) W main_v22 : S1x1.Idx → EReal)
    = fun i => shapeCast S1x1 (grandMeanTerm (W main_v10)) shapeCasts_S_S1x1 i := by
  after_results <;> rfl
theorem v26_term : (StableHlo.after (Gen.hostOps2 (F := Ideal)) W main_v26 : S4096x1.Idx → EReal) = rowMeanTerm (W main_v11) := by
  after_results <;> rfl
theorem v30_term : (StableHlo.after (Gen.hostOps2 (F := Ideal)) W main_v30 : S1x4096.Idx → EReal) = colMeanTerm (W main_v11) := by
  after_results <;> rfl
theorem v33_term : (StableHlo.after (Gen.hostOps2 (F := Ideal)) W main_v33 : S1x1.Idx → EReal)
    = fun i => shapeCast S1x1 (grandMeanTerm (W main_v11)) shapeCasts_S_S1x1 i := by
  after_results <;> rfl

/-- The two kernel matrices pass the stretch unchanged. -/
theorem v10_after : StableHlo.after (Gen.hostOps2 (F := Ideal)) W main_v10 = W main_v10 :=
  StableHlo.after_of_writes_sub hostOps2 _ hostOps2_writes (by decide)
theorem v11_after : StableHlo.after (Gen.hostOps2 (F := Ideal)) W main_v11 = W main_v11 :=
  StableHlo.after_of_writes_sub hostOps2 _ hostOps2_writes (by decide)

/-- The first matrix's row means, column means and grand mean. -/
theorem v15_at (p : Fin 4096) (j : Fin 1) :
    StableHlo.after (Gen.hostOps2 (F := Ideal)) W main_v15 (ix2 p j)
      = Ideal.div (∑ q : Fin 4096, W main_v10 (ix2 p q)) c4096 :=
  (congrFun (v15_term W) (ix2 p j)).trans (rowMeanTerm_apply (W main_v10) p j)
theorem v19_at (j : Fin 1) (q : Fin 4096) :
    StableHlo.after (Gen.hostOps2 (F := Ideal)) W main_v19 (ix2 j q)
      = Ideal.div (∑ p : Fin 4096, W main_v10 (ix2 p q)) c4096 :=
  (congrFun (v19_term W) (ix2 j q)).trans (colMeanTerm_apply (W main_v10) j q)
theorem v22_at (a b : Fin 1) :
    StableHlo.after (Gen.hostOps2 (F := Ideal)) W main_v22 (ix2 a b)
      = Ideal.div (∑ p : Fin 4096, ∑ q : Fin 4096, W main_v10 (ix2 p q)) c2p24 :=
  (congrFun (v22_term W) (ix2 a b)).trans
    ((reshape_scalar_apply (grandMeanTerm (W main_v10)) a b).trans (grandMeanTerm_apply (W main_v10) ix0))

/-- The second matrix's. -/
theorem v26_at (p : Fin 4096) (j : Fin 1) :
    StableHlo.after (Gen.hostOps2 (F := Ideal)) W main_v26 (ix2 p j)
      = Ideal.div (∑ q : Fin 4096, W main_v11 (ix2 p q)) c4096 :=
  (congrFun (v26_term W) (ix2 p j)).trans (rowMeanTerm_apply (W main_v11) p j)
theorem v30_at (j : Fin 1) (q : Fin 4096) :
    StableHlo.after (Gen.hostOps2 (F := Ideal)) W main_v30 (ix2 j q)
      = Ideal.div (∑ p : Fin 4096, W main_v11 (ix2 p q)) c4096 :=
  (congrFun (v30_term W) (ix2 j q)).trans (colMeanTerm_apply (W main_v11) j q)
theorem v33_at (a b : Fin 1) :
    StableHlo.after (Gen.hostOps2 (F := Ideal)) W main_v33 (ix2 a b)
      = Ideal.div (∑ p : Fin 4096, ∑ q : Fin 4096, W main_v11 (ix2 p q)) c2p24 :=
  (congrFun (v33_term W) (ix2 a b)).trans
    ((reshape_scalar_apply (grandMeanTerm (W main_v11)) a b).trans (grandMeanTerm_apply (W main_v11) ix0))

end H2

/-! ## After the first host stretch: the rounded arguments and their rows' sums of squares -/

/-- An argument array as the buffers hold it. -/
abbrev ArgBuf : Type := (⟨S4096x1024, .f32⟩ : BufTy).Contents (Elt Ideal)

/-- The rows' sums of squares of the rounded array, as a column. -/
abbrev sqTerm (x : ArgBuf) : (⟨S4096x1, .f32⟩ : BufTy).Contents (Elt Ideal) :=
  broadcastInDim S4096x1 ![0] bcast_S4096_S4096x1_0
    (Host.reduceAdd (F := Ideal)
      (mulf (extf .f32 (truncf .bf16 x bitsLt_bf16_f32) bitsLt_bf16_f32) (extf .f32 (truncf .bf16 x bitsLt_bf16_f32) bitsLt_bf16_f32))
      (constant (F := Ideal) S_ .f32 0x00000000#32) reducesTo_S4096x1024_S4096_d1 h_S_)

/-- The sum along a row of 1024, from zero. -/
theorem reduce_1024_apply (Y : ArgBuf) (p : Fin 4096) :
    Host.reduceAdd (F := Ideal) Y (constant (F := Ideal) S_ .f32 0x00000000#32) reducesTo_S4096x1024_S4096_d1 h_S_ (ix1 p)
      = ∑ k : Fin 1024, Y (ix2 p k) := by
  simp only [Host.reduceAdd, Ideal.hostReduceAdd_def]
  rw [Ideal.hostReduceAdd_single reducesTo_S4096x1024_S4096_d1 (by decide)]
  refine Eq.trans (congrArg (· + _) (Ideal.ofBits_zero_f32)) ((zero_add _).trans (Finset.sum_congr rfl fun k _ => ?_))
  exact congrArg Y (funext fun a => Fin.ext (by match a with | ⟨0, _⟩ => rfl | ⟨1, _⟩ => rfl))

/-- Rounding to the narrower format and back is the identity here, so the column holds each row's sum of squares. -/
theorem sqTerm_apply (x : ArgBuf) (p : Fin 4096) (j : Fin 1) : sqTerm x (ix2 p j) = sqn x p := by
  show broadcastInDim (s := S4096) S4096x1 ![0] bcast_S4096_S4096x1_0 _ (ix2 p j) = _
  rw [broadcastInDim_apply _ bcast_S4096_S4096x1_0 _ (ix2 p j) (ix1 p) (fun a => match a with
      | ⟨0, _⟩ => by show p.val = if (4096 : Nat) = 1 then 0 else p.val; rw [if_neg (by decide)]),
    reduce_1024_apply]
  rfl

section H0
variable (W : Valuation τ sig (Elt Ideal))

theorem v0_term : (StableHlo.after (Gen.hostOps0 (F := Ideal)) W main_v0 : S4096x1024.Idx → EReal) = W main_arg0 := by
  after_results <;> rfl
theorem v1_term : (StableHlo.after (Gen.hostOps0 (F := Ideal)) W main_v1 : S4096x1024.Idx → EReal) = W main_arg1 := by
  after_results <;> rfl
theorem v5_term : (StableHlo.after (Gen.hostOps0 (F := Ideal)) W main_v5 : S4096x1.Idx → EReal) = sqTerm (W main_arg0) := by
  after_results <;> rfl
theorem v9_term : (StableHlo.after (Gen.hostOps0 (F := Ideal)) W main_v9 : S4096x1.Idx → EReal) = sqTerm (W main_arg1) := by
  after_results <;> rfl

/-- The rounded arguments are the arguments. -/
theorem v0_at (i : S4096x1024.Idx) : StableHlo.after (Gen.hostOps0 (F := Ideal)) W main_v0 i = W main_arg0 i :=
  congrFun (v0_term W) i
theorem v1_at (i : S4096x1024.Idx) : StableHlo.after (Gen.hostOps0 (F := Ideal)) W main_v1 i = W main_arg1 i :=
  congrFun (v1_term W) i

/-- Their rows' sums of squares. -/
theorem v5_at (p : Fin 4096) (j : Fin 1) :
    StableHlo.after (Gen.hostOps0 (F := Ideal)) W main_v5 (ix2 p j) = sqn (W main_arg0) p :=
  (congrFun (v5_term W) (ix2 p j)).trans (sqTerm_apply (W main_arg0) p j)
theorem v9_at (p : Fin 4096) (j : Fin 1) :
    StableHlo.after (Gen.hostOps0 (F := Ideal)) W main_v9 (ix2 p j) = sqn (W main_arg1) p :=
  (congrFun (v9_term W) (ix2 p j)).trans (sqTerm_apply (W main_arg1) p j)

end H0

/-! ## After the last host stretch: the partial sums' total over 16769025 -/

/-- The partial-sum array as the buffers hold it. -/
abbrev PartBuf : Type := (⟨S64x128, .f32⟩ : BufTy).Contents (Elt Ideal)

abbrev totalTerm (O : PartBuf) : (⟨S_, .f32⟩ : BufTy).Contents (Elt Ideal) :=
  Host.divf (F := Ideal)
    (Host.reduceAdd (F := Ideal) O (constant (F := Ideal) S_ .f32 0x00000000#32) reducesTo_S64x128_S_d0_1 h_S_)
    (constant (F := Ideal) S_ .f32 0x4B7FE001#32)

/-- Zero plus the sum of the partial-sum array, over 16769025. -/
abbrev partTotal (O : PartBuf) : EReal :=
  Ideal.div (Ideal.ofBits .f32 0x00000000#32 + ∑ a : Fin 64, ∑ b : Fin 128, O (ix2 a b)) cN

theorem totalTerm_apply (O : PartBuf) (i : S_.Idx) : totalTerm O i = partTotal O := by
  show FloatOps.hostDivf _ _ = _
  rw [Ideal.hostDivf_def]
  simp only [Host.reduceAdd, Ideal.hostReduceAdd_def]
  rw [Ideal.hostReduceAdd_total reducesTo_S64x128_S_d0_1 (fun b => b.elim0) O _ i, sum_idx2]
  rfl

section H3
variable (W : Valuation τ sig (Elt Ideal))

theorem v36_term : (StableHlo.after (Gen.hostOps3 (F := Ideal)) W main_v36 : S_.Idx → EReal) = totalTerm (W main_v34) := by
  after_results <;> rfl

/-- The result. -/
theorem v36_at (i : S_.Idx) : StableHlo.after (Gen.hostOps3 (F := Ideal)) W main_v36 i = partTotal (W main_v34) :=
  (congrFun (v36_term W) i).trans (totalTerm_apply (W main_v34) i)

end H3

end Cert.KernelIdeal.HostVal

end
-- ==== Proof.KernelMeansI.lean ====
/-
  The means the kernel's program computes between its regions are the specification's: if the two kernel-matrix
  buffers hold matrices K and L, then after the host stretch that follows them the six mean buffers hold the row
  means, column means and grand mean of K and of L, and a tile's sum of products of the centred entries, spelt
  over the eight buffers, is the tile's sum of products of the centred matrices.
-/
import proofs.«147226_j26061861552238_2_alg».proof.Proof.HostValuesI
import proofs.«147226_j26061861552238_2_alg».proof.Proof.HsicSpec

noncomputable section

open scoped BigOperators

namespace Cert.KernelIdeal.Means

open Cert.KernelIdeal Cert.KernelIdeal.Gen Idealize.ShloMosaic Idealize.ShloMosaic.TcCoe Idealize.ShloMosaic.StableHlo
  Idealize.ShloMosaic.ValueIdx Cert.Hsic Cert.KernelIdeal.HostVal

/-- The first matrix passes the stretch unchanged. -/
theorem m10 (W : Valuation τ sig (Elt Ideal)) (K : Mat) (h10 : ∀ p q, W main_v10 (ix2 p q) = K p q) (p q : Fin 4096) :
    StableHlo.after (Gen.hostOps2 (F := Ideal)) W main_v10 (ix2 p q) = K p q :=
  (congrFun (v10_after W) (ix2 p q)).trans (h10 p q)

/-- So does the second. -/
theorem m11 (W : Valuation τ sig (Elt Ideal)) (L : Mat) (h11 : ∀ p q, W main_v11 (ix2 p q) = L p q) (p q : Fin 4096) :
    StableHlo.after (Gen.hostOps2 (F := Ideal)) W main_v11 (ix2 p q) = L p q :=
  (congrFun (v11_after W) (ix2 p q)).trans (h11 p q)

/-- The first matrix's row means. -/
theorem m15 (W : Valuation τ sig (Elt Ideal)) (K : Mat) (h10 : ∀ p q, W main_v10 (ix2 p q) = K p q) (p : Fin 4096) (j : Fin 1) :
    StableHlo.after (Gen.hostOps2 (F := Ideal)) W main_v15 (ix2 p j) = rowMean K p :=
  (v15_at W p j).trans (congrArg (fun s : EReal => Ideal.div s c4096) (Finset.sum_congr rfl fun q _ => h10 p q))

/-- Its column means. -/
theorem m19 (W : Valuation τ sig (Elt Ideal)) (K : Mat) (h10 : ∀ p q, W main_v10 (ix2 p q) = K p q) (j : Fin 1) (q : Fin 4096) :
    StableHlo.after (Gen.hostOps2 (F := Ideal)) W main_v19 (ix2 j q) = colMean K q :=
  (v19_at W j q).trans (congrArg (fun s : EReal => Ideal.div s c4096) (Finset.sum_congr rfl fun p _ => h10 p q))

/-- Its grand mean. -/
theorem m22 (W : Valuation τ sig (Elt Ideal)) (K : Mat) (h10 : ∀ p q, W main_v10 (ix2 p q) = K p q) (a b : Fin 1) :
    StableHlo.after (Gen.hostOps2 (F := Ideal)) W main_v22 (ix2 a b) = grandMean K :=
  (v22_at W a b).trans (congrArg (fun s : EReal => Ideal.div s c2p24)
    (Finset.sum_congr rfl fun p _ => Finset.sum_congr rfl fun q _ => h10 p q))

/-- The second matrix's row means, column means and grand mean. -/
theorem m26 (W : Valuation τ sig (Elt Ideal)) (L : Mat) (h11 : ∀ p q, W main_v11 (ix2 p q) = L p q) (p : Fin 4096) (j : Fin 1) :
    StableHlo.after (Gen.hostOps2 (F := Ideal)) W main_v26 (ix2 p j) = rowMean L p :=
  (v26_at W p j).trans (congrArg (fun s : EReal => Ideal.div s c4096) (Finset.sum_congr rfl fun q _ => h11 p q))
theorem m30 (W : Valuation τ sig (Elt Ideal)) (L : Mat) (h11 : ∀ p q, W main_v11 (ix2 p q) = L p q) (j : Fin 1) (q : Fin 4096) :
    StableHlo.after (Gen.hostOps2 (F := Ideal)) W main_v30 (ix2 j q) = colMean L q :=
  (v30_at W j q).trans (congrArg (fun s : EReal => Ideal.div s c4096) (Finset.sum_congr rfl fun p _ => h11 p q))
theorem m33 (W : Valuation τ sig (Elt Ideal)) (L : Mat) (h11 : ∀ p q, W main_v11 (ix2 p q) = L p q) (a b : Fin 1) :
    StableHlo.after (Gen.hostOps2 (F := Ideal)) W main_v33 (ix2 a b) = grandMean L :=
  (v33_at W a b).trans (congrArg (fun s : EReal => Ideal.div s c2p24)
    (Finset.sum_congr rfl fun p _ => Finset.sum_congr rfl fun q _ => h11 p q))

/-- A tile's sum, spelt over the eight buffers, in the specification's form: the first factor is the centred first
    matrix at (row, column), the second the centred second matrix at (column, row). -/
theorem tile_eq (W : Valuation τ sig (Elt Ideal)) (K L : Mat)
    (h10 : ∀ p q, W main_v10 (ix2 p q) = K p q) (h11 : ∀ p q, W main_v11 (ix2 p q) = L p q)
    (k10 k11 : S4096x4096.Idx → EReal) (r15 r26 : S4096x1.Idx → EReal) (c19 c30 : S1x4096.Idx → EReal)
    (g22 g33 : S1x1.Idx → EReal)
    (e10 : k10 = StableHlo.after (Gen.hostOps2 (F := Ideal)) W main_v10)
    (e11 : k11 = StableHlo.after (Gen.hostOps2 (F := Ideal)) W main_v11)
    (e15 : r15 = StableHlo.after (Gen.hostOps2 (F := Ideal)) W main_v15)
    (e19 : c19 = StableHlo.after (Gen.hostOps2 (F := Ideal)) W main_v19)
    (e22 : g22 = StableHlo.after (Gen.hostOps2 (F := Ideal)) W main_v22)
    (e26 : r26 = StableHlo.after (Gen.hostOps2 (F := Ideal)) W main_v26)
    (e30 : c30 = StableHlo.after (Gen.hostOps2 (F := Ideal)) W main_v30)
    (e33 : g33 = StableHlo.after (Gen.hostOps2 (F := Ideal)) W main_v33) (I J : Fin 8) :
    (∑ r : Fin 512, ∑ cc : Fin 512,
        (k10 (ix2 (pos I r) (pos J cc)) - r15 (ix2 (pos I r) (0 : Fin 1)) - c19 (ix2 (0 : Fin 1) (pos J cc))
          + g22 (ix2 (0 : Fin 1) (0 : Fin 1)))
      * (k11 (ix2 (pos J cc) (pos I r)) - r26 (ix2 (pos J cc) (0 : Fin 1)) - c30 (ix2 (0 : Fin 1) (pos I r))
          + g33 (ix2 (0 : Fin 1) (0 : Fin 1))))
      = ∑ r : Fin 512, ∑ cc : Fin 512, cen K (pos I r) (pos J cc) * cen L (pos J cc) (pos I r) := by
  subst e10 e11 e15 e19 e22 e26 e30 e33
  refine Finset.sum_congr rfl fun r _ => Finset.sum_congr rfl fun cc _ => ?_
  rw [m10 W K h10, m11 W L h11, m15 W K h10, m19 W K h10, m22 W K h10, m26 W L h11, m30 W L h11, m33 W L h11]
  rfl

end Cert.KernelIdeal.Means

end
-- ==== Proof.KernelValueI.lean ====
/-
  The kernel program's result at the ideal values.

  From a launch memory whose two argument arrays x and y hold real numbers, the run's last valuation gives the result
  buffer the Hilbert–Schmidt independence statistic of the specification: the first stretch leaves x, y and their rows'
  squared norms; the first two regions leave the Gaussian-kernel matrices exp(xₚ·x_q − |xₚ|²) and the same of y; the
  middle stretch leaves their row, column and grand means; the trace region leaves, in every entry of row-block I of its
  output, the sum over the eight column tiles J of the tile's trace contribution scaled by 2⁻¹⁰; the last stretch sums
  the 64×128 entries and divides by 4095². The 8·128 = 1024 copies of each scaled contribution add up to it, and the
  tiles' contributions to the sum over all (p, q) of the centred entries' products.
-/
import proofs.«147226_j26061861552238_2_alg».proof.Proof.AsmI
import proofs.«147226_j26061861552238_2_alg».proof.Proof.RbfValueI
import proofs.«147226_j26061861552238_2_alg».proof.Proof.TraceValueI
import proofs.«147226_j26061861552238_2_alg».proof.Proof.HostValuesI
import proofs.«147226_j26061861552238_2_alg».proof.Proof.KernelMeansI
import proofs.«147226_j26061861552238_2_alg».proof.Proof.HsicSpec

noncomputable section

namespace Cert.KernelIdeal.Result

open Idealize.ShloMosaic Idealize.ShloMosaic.TcCoe Idealize.SL.Sem Idealize.ShloMosaic.ValueIdx
open Cert.KernelIdeal Cert.KernelIdeal.Gen Cert.KernelIdeal.Asm Cert.Hsic

variable (m : (ℓ : Loc nD τ sig) → Buf (Elt Ideal) ℓ) (c : Dev nD)

/-- The two argument arrays of the launch memory. -/
abbrev xin : Arr := m ((c.tc : Thread nD τ).loc main_arg0)
abbrev yin : Arr := m ((c.tc : Thread nD τ).loc main_arg1)

/-! ## Buffers a region or a stretch does not write -/

theorem W2_of_ne (r : Ref sig .tc) (h : r ≠ main_v10) : W2 m c (Proc.devRef .tc r) = Gen.V1 m c (Proc.devRef .tc r) := by
  unfold W2; exact Function.update_of_ne (StableHlo.devRef_ne_of_ne h : (Proc.devRef .tc r : DevRef τ sig) ≠ Proc.devRef .tc main_v10) _ _
theorem W2_v10 : W2 m c (Proc.devRef .tc main_v10) = A10 m c := by
  unfold W2; exact Function.update_self (Proc.devRef .tc main_v10 : DevRef τ sig) (A10 m c) (Gen.V1 m c)
theorem W3_v11 : W3 m c (Proc.devRef .tc main_v11) = A11 m c := by
  unfold W3; exact Function.update_self (Proc.devRef .tc main_v11 : DevRef τ sig) (A11 m c) (W2 m c)
theorem W3_v10 : W3 m c (Proc.devRef .tc main_v10) = A10 m c := by
  unfold W3; exact (Function.update_of_ne (StableHlo.devRef_ne_of_ne (by decide) : (Proc.devRef .tc main_v10 : DevRef τ sig) ≠ Proc.devRef .tc main_v11) _ _).trans (W2_v10 m c)
theorem W5_v34 : W5 m c (Proc.devRef .tc main_v34) = A34 m c := by
  unfold W5; exact Function.update_self (Proc.devRef .tc main_v34 : DevRef τ sig) (A34 m c) (W4 m c)

/-! ## The two Gaussian-kernel matrices -/

/-- The first region leaves the Gaussian-kernel matrix of x. -/
theorem a10 (p q : Fin 4096) : (A10 m c : S4096x4096.Idx → EReal) (ix2 p q) = rbf (xin m c) p q := by
  unfold A10
  refine (RbfValue.final0_exp (E1 m) c (xin m c) (fun i => sqn (xin m c) ⟨(i 0).val, (i 0).isLt⟩) ?_ ?_ p q).trans rfl
  · exact (funext fun i => (HostVal.v0_at (Gen.V0 m c) i)).symm
  · exact funext fun i => by
      obtain ⟨p', j, rfl⟩ : ∃ (p' : Fin 4096) (j : Fin 1), i = ix2 p' j := ⟨i 0, i 1, eq_ix2 i⟩
      exact (HostVal.v5_at (Gen.V0 m c) p' j).symm

/-- The second region leaves the Gaussian-kernel matrix of y. -/
theorem a11 (p q : Fin 4096) : (A11 m c : S4096x4096.Idx → EReal) (ix2 p q) = rbf (yin m c) p q := by
  unfold A11
  refine (RbfValue.final1_exp (E2 m) c (yin m c) (fun i => sqn (yin m c) ⟨(i 0).val, (i 0).isLt⟩) ?_ ?_ p q).trans rfl
  · exact (funext fun i => (congrFun (W2_of_ne m c main_v1 (by decide)) i).trans (HostVal.v1_at (Gen.V0 m c) i)).symm
  · exact funext fun i => by
      obtain ⟨p', j, rfl⟩ : ∃ (p' : Fin 4096) (j : Fin 1), i = ix2 p' j := ⟨i 0, i 1, eq_ix2 i⟩
      exact ((congrFun (W2_of_ne m c main_v9 (by decide)) (ix2 p' j)).trans (HostVal.v9_at (Gen.V0 m c) p' j)).symm

/-! ## The means, the tiles, the output of the trace region -/

theorem h10 (p q : Fin 4096) : W3 m c (Proc.devRef .tc main_v10) (ix2 p q) = rbf (xin m c) p q :=
  (congrFun (W3_v10 m c) (ix2 p q)).trans (a10 m c p q)
theorem h11 (p q : Fin 4096) : W3 m c (Proc.devRef .tc main_v11) (ix2 p q) = rbf (yin m c) p q :=
  (congrFun (W3_v11 m c) (ix2 p q)).trans (a11 m c p q)

/-- A tile's trace contribution, as the trace region reads it off the middle stretch's values, is the specification's:
    the sum over the tile of the first centred matrix's entry times the second's mirrored entry. -/
theorem tile_spec (I J : Fin 8) :
    TraceValue.tile (E4 m) c I J
      = ∑ r : Fin 512, ∑ cc : Fin 512, cen (rbf (xin m c)) (pos I r) (pos J cc) * cen (rbf (yin m c)) (pos J cc) (pos I r) := by
  unfold TraceValue.tile TraceValue.tileOf
  exact Means.tile_eq (W3 m c) (rbf (xin m c)) (rbf (yin m c)) (h10 m c) (h11 m c)
    (E4 m c main_v10) (E4 m c main_v11) (E4 m c main_v15) (E4 m c main_v26) (E4 m c main_v19) (E4 m c main_v30) (E4 m c main_v22) (E4 m c main_v33)
    rfl rfl rfl rfl rfl rfl rfl rfl I J

/-- Every entry of row-block I of the trace region's output: zero plus the eight scaled contributions of that row of tiles. -/
theorem a34 (i : Fin 64) (j : Fin 128) :
    (A34 m c : S64x128.Idx → EReal) (ix2 i j)
      = Ideal.ofBits .f32 0x00000000#32 + ∑ J : Fin 8, TraceValue.tile (E4 m) c (blk i) J * Ideal.ofBits .f32 0x3A800000#32 := by
  unfold A34
  exact TraceValue.final2 (E4 m) c i j

/-! ## The result -/

/-- The result buffer at the last valuation: the specification's statistic of the two argument arrays. -/
theorem result (hx : Finite (xin m c)) (hy : Finite (yin m c)) (i : S_.Idx) :
    Gen.V6 m (outs m) c (Proc.devRef .tc main_v36) i = hsic (xin m c) (yin m c) := by
  show StableHlo.after hostOps3 (Gen.V5 m (outs m) c) (Proc.devRef .tc main_v36) i = _
  rw [V5_eq]
  refine (HostVal.v36_at (W5 m c) i).trans ?_
  refine tiling (xin m c) (yin m c) hx hy (fun I J => TraceValue.tile (E4 m) c I J) (fun I J => tile_spec m c I J)
    (fun a b => W5 m c (Proc.devRef .tc main_v34) (ix2 a b)) (fun a b => ?_)
  exact (congrFun (W5_v34 m c) (ix2 a b)).trans (a34 m c a b)

end Cert.KernelIdeal.Result

end
-- ==== Proof.RefIsSpec.lean ====
/-
  The reference's result is the value `Cert.Hsic.hsic` of its two argument arrays, when both are finite.
  Read one element at a time, bottom up: the row's sum of squares, the product with the transpose, the
  kernel matrix, its row, column and grand means, the centred matrix; the same for the second argument;
  then the transpose of the second centred matrix, the elementwise product, its total, and the quotient.
-/
import proofs.«147226_j26061861552238_2_alg».proof.Proof.HsicSpec
import proofs.«147226_j26061861552238_2_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx Cert.Hsic

/-! ## The first argument's matrix -/

/-- The row's sum of squares. -/
theorem v1_at (x : ArrR) (p : Fin 4096) :
    val_main_v1 (F := Ideal) (up x) (ix1 p) = (sqnR x p : EReal) := by
  have hi : ∀ k : Fin 1024, idx_main_v1 (ix1 p) k = ix2 p k := fun k =>
    funext fun a => by match a with | ⟨0, _⟩ => rfl | ⟨1, _⟩ => rfl
  rw [val_main_v1_apply, val_main_cst_apply, Ideal.ofBits_def, Ideal.ofBits_zero_f32, zero_add]
  refine Eq.trans (Finset.sum_congr rfl fun k _ => ?_) (sqn_up x p)
  rw [val_main_v0_apply, hi k, Ideal.mulf_def]

/-- Row p against row q: the product with the transpose, read at (p, q). -/
theorem v5_at (x : ArrR) (p q : Fin 4096) :
    val_main_v5 (F := Ideal) (up x) (ix2 p q) = (dotR x p q : EReal) := by
  have hl : ∀ k : Fin 1024, lidx_main_v5 (ix2 p q) k = ix2 p k := fun k =>
    funext fun a => by match a with | ⟨0, _⟩ => rfl | ⟨1, _⟩ => rfl
  have hr : ∀ k : Fin 1024, idx_main_v4 (ridx_main_v5 (ix2 p q) k) = ix2 q k := fun k =>
    funext fun a => by match a with | ⟨0, _⟩ => rfl | ⟨1, _⟩ => rfl
  rw [val_main_v5_apply]
  refine Eq.trans (Finset.sum_congr rfl fun k _ => ?_) (dot_up x p q)
  rw [val_main_v4_apply, hl k, hr k]

/-- The kernel matrix: minus (twice the squared norm minus twice the product), halved, exponentiated, is
    the exponential of the product minus the squared norm. -/
theorem v13_at (x : ArrR) (p q : Fin 4096) :
    val_main_v13 (F := Ideal) (up x) (ix2 p q) = (rbfR x p q : EReal) := by
  have h8 : idx_main_v2 (idx_main_v8 (ix2 p q)) = ix1 p :=
    funext fun a => by match a with | ⟨0, _⟩ => rfl
  rw [val_main_v13_apply, val_main_v12_apply, val_main_v10_apply, val_main_v9_apply, val_main_v8_apply,
    val_main_v3_apply, val_main_v2_apply, val_main_v7_apply, val_main_v6_apply, val_main_cst_0_apply,
    val_main_v11_apply, val_main_cst_1_apply, h8, v1_at, v5_at]
  simp only [Ideal.hostUnary_exp_def, Ideal.hostDivf_def, Ideal.hostNegf_def, Ideal.negf_def, Ideal.subf_def,
    Ideal.addf_def, Ideal.mulf_def, Ideal.ofBits_def, ofBits_two]
  rw [← EReal.coe_add, ← EReal.coe_mul, ← EReal.coe_sub, ← EReal.coe_neg, div_coe_coe _ _ two_ne_zero, Ideal.exp_coe]
  unfold rbfR
  refine congrArg (fun t : ℝ => ((Real.exp t : ℝ) : EReal)) ?_
  ring

/-- The row sums. -/
theorem v14_at (x : ArrR) (p : Fin 4096) :
    val_main_v14 (F := Ideal) (up x) (ix1 p) = ∑ q : Fin 4096, upM (rbfR x) p q := by
  have hi : ∀ k : Fin 4096, idx_main_v14 (ix1 p) k = ix2 p k := fun k =>
    funext fun a => by match a with | ⟨0, _⟩ => rfl | ⟨1, _⟩ => rfl
  rw [val_main_v14_apply, val_main_cst_2_apply, Ideal.ofBits_def, Ideal.ofBits_zero_f32, zero_add]
  exact Finset.sum_congr rfl fun k _ => by rw [hi k, v13_at]

/-- The row means, kept as a column. -/
theorem v17_at (x : ArrR) (p : Fin 4096) (j : Fin 1) :
    val_main_v17 (F := Ideal) (up x) (ix2 p j) = rowMean (upM (rbfR x)) p := by
  have h : idx_main_v15 (ix2 p j) = ix1 p := funext fun a => by match a with | ⟨0, _⟩ => rfl
  rw [val_main_v17_apply, val_main_v15_apply, val_main_v16_apply, val_main_cst_3_apply, h, v14_at,
    Ideal.hostDivf_def, Ideal.ofBits_def]
  rfl

/-- The column sums. -/
theorem v18_at (x : ArrR) (q : Fin 4096) :
    val_main_v18 (F := Ideal) (up x) (ix1 q) = ∑ p : Fin 4096, upM (rbfR x) p q := by
  have hi : ∀ k : Fin 4096, idx_main_v18 (ix1 q) k = ix2 k q := fun k =>
    funext fun a => by match a with | ⟨0, _⟩ => rfl | ⟨1, _⟩ => rfl
  rw [val_main_v18_apply, val_main_cst_4_apply, Ideal.ofBits_def, Ideal.ofBits_zero_f32, zero_add]
  exact Finset.sum_congr rfl fun k _ => by rw [hi k, v13_at]

/-- The column means, kept as a row. -/
theorem v21_at (x : ArrR) (j : Fin 1) (q : Fin 4096) :
    val_main_v21 (F := Ideal) (up x) (ix2 j q) = colMean (upM (rbfR x)) q := by
  have h : idx_main_v19 (ix2 j q) = ix1 q := funext fun a => by match a with | ⟨0, _⟩ => rfl
  rw [val_main_v21_apply, val_main_v19_apply, val_main_v20_apply, val_main_cst_5_apply, h, v18_at,
    Ideal.hostDivf_def, Ideal.ofBits_def]
  rfl

/-- The grand mean. -/
theorem v23_at (x : ArrR) (i : S_.Idx) :
    val_main_v23 (F := Ideal) (up x) i = grandMean (upM (rbfR x)) := by
  rw [val_main_v23_apply, val_main_v22_apply, val_main_cst_6_apply, val_main_cst_7_apply, sum_idx2]
  simp only [Ideal.hostDivf_def, Ideal.ofBits_def, Ideal.ofBits_zero_f32, zero_add, v13_at]
  rfl

/-- The doubly centred matrix. -/
theorem v29_at (x : ArrR) (p q : Fin 4096) :
    val_main_v29 (F := Ideal) (up x) (ix2 p q) = cen (upM (rbfR x)) p q := by
  have h24 : idx_main_v24 (ix2 p q) = ix2 p (⟨0, Nat.one_pos⟩ : Fin 1) :=
    funext fun a => by match a with | ⟨0, _⟩ => rfl | ⟨1, _⟩ => rfl
  have h26 : idx_main_v26 (ix2 p q) = ix2 (⟨0, Nat.one_pos⟩ : Fin 1) q :=
    funext fun a => by match a with | ⟨0, _⟩ => rfl | ⟨1, _⟩ => rfl
  rw [val_main_v29_apply, val_main_v27_apply, val_main_v25_apply, val_main_v24_apply, val_main_v26_apply,
    val_main_v28_apply, h24, h26, v17_at, v21_at, v23_at, v13_at]
  simp only [Ideal.addf_def, Ideal.subf_def]
  rfl

/-! ## The second argument's matrix: the same steps -/

/-- The row's sum of squares. -/
theorem v31_at (x : ArrR) (p : Fin 4096) :
    val_main_v31 (F := Ideal) (up x) (ix1 p) = (sqnR x p : EReal) := by
  have hi : ∀ k : Fin 1024, idx_main_v31 (ix1 p) k = ix2 p k := fun k =>
    funext fun a => by match a with | ⟨0, _⟩ => rfl | ⟨1, _⟩ => rfl
  rw [val_main_v31_apply, val_main_cst_8_apply, Ideal.ofBits_def, Ideal.ofBits_zero_f32, zero_add]
  refine Eq.trans (Finset.sum_congr rfl fun k _ => ?_) (sqn_up x p)
  rw [val_main_v30_apply, hi k, Ideal.mulf_def]

/-- Row p against row q: the product with the transpose, read at (p, q). -/
theorem v35_at (x : ArrR) (p q : Fin 4096) :
    val_main_v35 (F := Ideal) (up x) (ix2 p q) = (dotR x p q : EReal) := by
  have hl : ∀ k : Fin 1024, lidx_main_v35 (ix2 p q) k = ix2 p k := fun k =>
    funext fun a => by match a with | ⟨0, _⟩ => rfl | ⟨1, _⟩ => rfl
  have hr : ∀ k : Fin 1024, idx_main_v34 (ridx_main_v35 (ix2 p q) k) = ix2 q k := fun k =>
    funext fun a => by match a with | ⟨0, _⟩ => rfl | ⟨1, _⟩ => rfl
  rw [val_main_v35_apply]
  refine Eq.trans (Finset.sum_congr rfl fun k _ => ?_) (dot_up x p q)
  rw [val_main_v34_apply, hl k, hr k]

/-- The kernel matrix: minus (twice the squared norm minus twice the product), halved, exponentiated, is
    the exponential of the product minus the squared norm. -/
theorem v43_at (x : ArrR) (p q : Fin 4096) :
    val_main_v43 (F := Ideal) (up x) (ix2 p q) = (rbfR x p q : EReal) := by
  have h8 : idx_main_v32 (idx_main_v38 (ix2 p q)) = ix1 p :=
    funext fun a => by match a with | ⟨0, _⟩ => rfl
  rw [val_main_v43_apply, val_main_v42_apply, val_main_v40_apply, val_main_v39_apply, val_main_v38_apply,
    val_main_v33_apply, val_main_v32_apply, val_main_v37_apply, val_main_v36_apply, val_main_cst_9_apply,
    val_main_v41_apply, val_main_cst_10_apply, h8, v31_at, v35_at]
  simp only [Ideal.hostUnary_exp_def, Ideal.hostDivf_def, Ideal.hostNegf_def, Ideal.negf_def, Ideal.subf_def,
    Ideal.addf_def, Ideal.mulf_def, Ideal.ofBits_def, ofBits_two]
  rw [← EReal.coe_add, ← EReal.coe_mul, ← EReal.coe_sub, ← EReal.coe_neg, div_coe_coe _ _ two_ne_zero, Ideal.exp_coe]
  unfold rbfR
  refine congrArg (fun t : ℝ => ((Real.exp t : ℝ) : EReal)) ?_
  ring

/-- The row sums. -/
theorem v44_at (x : ArrR) (p : Fin 4096) :
    val_main_v44 (F := Ideal) (up x) (ix1 p) = ∑ q : Fin 4096, upM (rbfR x) p q := by
  have hi : ∀ k : Fin 4096, idx_main_v44 (ix1 p) k = ix2 p k := fun k =>
    funext fun a => by match a with | ⟨0, _⟩ => rfl | ⟨1, _⟩ => rfl
  rw [val_main_v44_apply, val_main_cst_11_apply, Ideal.ofBits_def, Ideal.ofBits_zero_f32, zero_add]
  exact Finset.sum_congr rfl fun k _ => by rw [hi k, v43_at]

/-- The row means, kept as a column. -/
theorem v47_at (x : ArrR) (p : Fin 4096) (j : Fin 1) :
    val_main_v47 (F := Ideal) (up x) (ix2 p j) = rowMean (upM (rbfR x)) p := by
  have h : idx_main_v45 (ix2 p j) = ix1 p := funext fun a => by match a with | ⟨0, _⟩ => rfl
  rw [val_main_v47_apply, val_main_v45_apply, val_main_v46_apply, val_main_cst_12_apply, h, v44_at,
    Ideal.hostDivf_def, Ideal.ofBits_def]
  rfl

/-- The column sums. -/
theorem v48_at (x : ArrR) (q : Fin 4096) :
    val_main_v48 (F := Ideal) (up x) (ix1 q) = ∑ p : Fin 4096, upM (rbfR x) p q := by
  have hi : ∀ k : Fin 4096, idx_main_v48 (ix1 q) k = ix2 k q := fun k =>
    funext fun a => by match a with | ⟨0, _⟩ => rfl | ⟨1, _⟩ => rfl
  rw [val_main_v48_apply, val_main_cst_13_apply, Ideal.ofBits_def, Ideal.ofBits_zero_f32, zero_add]
  exact Finset.sum_congr rfl fun k _ => by rw [hi k, v43_at]

/-- The column means, kept as a row. -/
theorem v51_at (x : ArrR) (j : Fin 1) (q : Fin 4096) :
    val_main_v51 (F := Ideal) (up x) (ix2 j q) = colMean (upM (rbfR x)) q := by
  have h : idx_main_v49 (ix2 j q) = ix1 q := funext fun a => by match a with | ⟨0, _⟩ => rfl
  rw [val_main_v51_apply, val_main_v49_apply, val_main_v50_apply, val_main_cst_14_apply, h, v48_at,
    Ideal.hostDivf_def, Ideal.ofBits_def]
  rfl

/-- The grand mean. -/
theorem v53_at (x : ArrR) (i : S_.Idx) :
    val_main_v53 (F := Ideal) (up x) i = grandMean (upM (rbfR x)) := by
  rw [val_main_v53_apply, val_main_v52_apply, val_main_cst_15_apply, val_main_cst_16_apply, sum_idx2]
  simp only [Ideal.hostDivf_def, Ideal.ofBits_def, Ideal.ofBits_zero_f32, zero_add, v43_at]
  rfl

/-- The doubly centred matrix. -/
theorem v59_at (x : ArrR) (p q : Fin 4096) :
    val_main_v59 (F := Ideal) (up x) (ix2 p q) = cen (upM (rbfR x)) p q := by
  have h24 : idx_main_v54 (ix2 p q) = ix2 p (⟨0, Nat.one_pos⟩ : Fin 1) :=
    funext fun a => by match a with | ⟨0, _⟩ => rfl | ⟨1, _⟩ => rfl
  have h26 : idx_main_v56 (ix2 p q) = ix2 (⟨0, Nat.one_pos⟩ : Fin 1) q :=
    funext fun a => by match a with | ⟨0, _⟩ => rfl | ⟨1, _⟩ => rfl
  rw [val_main_v59_apply, val_main_v57_apply, val_main_v55_apply, val_main_v54_apply, val_main_v56_apply,
    val_main_v58_apply, h24, h26, v47_at, v51_at, v53_at, v43_at]
  simp only [Ideal.addf_def, Ideal.subf_def]
  rfl

/-! ## The result -/

/-- The reference's result, for finite arguments. -/
theorem ref_eq_spec (x y : Arr) (hx : Finite x) (hy : Finite y) :
    val_main_v63 (F := Ideal) x y = fun _ => hsic x y := by
  obtain ⟨xr, rfl⟩ := hx.exists_up
  obtain ⟨yr, rfl⟩ := hy.exists_up
  funext i
  have h60 : ∀ p q : Fin 4096, idx_main_v60 (ix2 p q) = ix2 q p := fun p q =>
    funext fun a => by match a with | ⟨0, _⟩ => rfl | ⟨1, _⟩ => rfl
  rw [val_main_v63_apply, val_main_v62_apply, val_main_cst_17_apply, val_main_cst_18_apply, sum_idx2]
  simp only [Ideal.hostDivf_def, Ideal.ofBits_def, Ideal.ofBits_zero_f32, zero_add, val_main_v61_apply,
    val_main_v60_apply, h60, v29_at, v59_at, Ideal.mulf_def]
  unfold hsic
  rw [rbf_up, rbf_up]

end Cert.ReferenceIdeal.RefValue

end
-- ==== Proof.FiniteInputs.lean ====
/-
  From the precondition to "every entry of both argument arrays is a real number".

  The precondition is the conjunction of two tests, one per argument array: every entry v of the array has
  |v| < +infinity, where |v| = max v (-v) and +infinity is what the f32 word 0x7F800000 denotes. Each test is a
  reduction by "and" over all entries, started from 1, so its result is 1 exactly when every entry passes. An extended
  real v with max v (-v) < +infinity is neither +infinity nor -infinity (which would make -v = +infinity), so it is a
  real number.
-/
import proofs.«147226_j26061861552238_2_alg».proof.Defs
import proofs.«147226_j26061861552238_2_alg».proof.Proof.Gen.Pre_finite_inputs
import proofs.«147226_j26061861552238_2_alg».proof.Proof.HsicSpec
import Idealize.ShloMosaic.Lib.ReduceAll
import Idealize.ShloMosaic.Lib.Affine
import Idealize.ShloMosaic.Lib.ValueIdx

noncomputable section

namespace Cert.Proof.FiniteInputs

open Idealize.ShloMosaic Idealize.ShloMosaic.ValueIdx Idealize.SL.Sem

/-- The shape of a scalar has exactly one index. -/
instance : Subsingleton Cert.Pre_finite_inputs.S_.Idx := ⟨fun a b => funext fun d => d.elim0⟩

/-- The f32 word 0x7F800000 denotes +infinity. -/
theorem ofBits_inf : Ideal.ofBits .f32 0x7F800000#32 = (⊤ : EReal) := by
  simp [Ideal.ofBits, Ideal.ieee]

/-- An extended real whose absolute value max v (-v) is below +infinity is a real number. -/
theorem real_of_abs_lt (v : EReal) (h : Ideal.cmp .olt (max v (-v)) (Ideal.ofBits .f32 0x7F800000#32) = 1#1) :
    ∃ r : ℝ, v = (r : EReal) := by
  rw [ofBits_inf] at h
  have hlt : max v (-v) < ⊤ := by
    unfold Ideal.cmp at h
    by_contra hn
    simp [hn] at h
  have h1 : v ≠ ⊤ := fun e => by rw [e] at hlt; simp at hlt
  have h2 : v ≠ ⊥ := fun e => by rw [e] at hlt; simp at hlt
  exact ⟨v.toReal, (EReal.coe_toReal h1 h2).symm⟩

/-- If the finiteness test of the two arrays is all ones, every entry of both is a real number. -/
theorem finite_of_pre [Cert.Pre_finite_inputs.Facts] (x y : FVec Ideal Cert.Pre_finite_inputs.S4096x1024 .f32)
    (h : Cert.Pre_finite_inputs.fn (F := Ideal) x y = fun _ => 1#1) : Cert.Hsic.Finite x ∧ Cert.Hsic.Finite y := by
  have h0 := congrFun h ix0
  dsimp only [Cert.Pre_finite_inputs.fn] at h0
  obtain ⟨h1, h2⟩ := IntOp.andi_eq_one.1 h0
  have e1 := fun i => Host.reduce_andi_all _ _ _ _ _ h1 i
  have e2 := fun i => Host.reduce_andi_all _ _ _ _ _ h2 i
  exact ⟨fun i => real_of_abs_lt (x i) (e1 i), fun i => real_of_abs_lt (y i) (e2 i)⟩

/-- The same from the claim's precondition: on every device both argument arrays of the launch memory are finite. -/
theorem finite_of_Pre [Cert.Pre_finite_inputs.Facts]
    (m : (ℓ : Loc Cert.KernelIdeal.nD Cert.KernelIdeal.τ Cert.KernelIdeal.sig) → Buf (Elt Ideal) ℓ)
    (hPre : Cert.Pre_KernelIdeal m) (c : Dev Cert.KernelIdeal.nD) :
    Cert.Hsic.Finite (m ((c.tc : Thread Cert.KernelIdeal.nD Cert.KernelIdeal.τ).loc Cert.KernelIdeal.main_arg0))
      ∧ Cert.Hsic.Finite (m ((c.tc : Thread Cert.KernelIdeal.nD Cert.KernelIdeal.τ).loc Cert.KernelIdeal.main_arg1)) :=
  finite_of_pre _ _ (hPre c)

end Cert.Proof.FiniteInputs

end
-- ==== Proof.lean ====
/-
  The certificate: a Pallas computation of the Hilbert–Schmidt independence statistic of two 4096×1024 arrays against
  its plain reference, equal over the extended reals on finite inputs.

  Both programs form, for each input, the Gaussian-kernel matrix K[p,q] = exp(xₚ·x_q − |xₚ|²) (the reference spells the
  exponent −((s+s) − 2·xₚ·x_q)/2 with s = |xₚ|², the same real number), centre it (entry minus row mean minus column
  mean plus grand mean), and return the sum over (p, q) of the first centred matrix times the transpose of the second,
  over 4095². The kernel program computes the two matrices in 8×8 tiles of 512×512, and the last sum tile by tile: each
  tile's contribution, scaled by 2⁻¹⁰, is added to all 8·128 entries of the tile row's output block, so that summing
  the 64×128 output gives every contribution back once. Finiteness of the inputs makes every intermediate value a
  real number, where the rearrangements of sums and the cancellation of the scale are laws of the reals.

  The three frames: the word-level and the idealized kernel programs run through their three kernel regions and the
  host stretches between them, each region's record proved from its body's run at every grid point; the reference is a
  straight line of host operations. The idealization rewrote nothing, so there is nothing to preserve.
-/
import proofs.«147226_j26061861552238_2_alg».proof.Defs
import proofs.«147226_j26061861552238_2_alg».proof.Proof.Gen.Kernel
import proofs.«147226_j26061861552238_2_alg».proof.Proof.Gen.KernelIdeal
import proofs.«147226_j26061861552238_2_alg».proof.Proof.Gen.ReferenceIdeal
import proofs.«147226_j26061861552238_2_alg».proof.Proof.Gen.ReferenceIdeal.Run
import proofs.«147226_j26061861552238_2_alg».proof.Proof.Gen.ReferenceIdeal.Read
import proofs.«147226_j26061861552238_2_alg».proof.Proof.Gen.Pre_finite_inputs
import proofs.«147226_j26061861552238_2_alg».proof.Proof.AsmK
import proofs.«147226_j26061861552238_2_alg».proof.Proof.KernelValueI
import proofs.«147226_j26061861552238_2_alg».proof.Proof.RefIsSpec
import proofs.«147226_j26061861552238_2_alg».proof.Proof.FiniteInputs

noncomputable section

namespace Cert.Proof

open Idealize.ShloMosaic Idealize.ShloMosaic.TcCoe Idealize.SL.Sem

theorem frame_k : Cert.frame_Kernel := fun m ρ _ => Cert.Kernel.Asm.frame m ρ
theorem frame_ki : Cert.frame_KernelIdeal := fun m ρ _ => Cert.KernelIdeal.Asm.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two argument arrays, finite by the precondition, both programs end with the
    specification's statistic of the arguments in their result buffer. -/
theorem algebraic : Cert.algebraic_KernelIdeal_ReferenceIdeal := by
  intro m ρ m' ρ' hpre hagree
  have hfin := fun c => Cert.Proof.FiniteInputs.finite_of_pre _ _ (hpre c)
  refine ⟨fun c _ => Cert.Hsic.hsic (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Asm.run_all m ρ)
    · refine (h c _ (Cert.KernelIdeal.Asm.mem_uc Cert.KernelIdeal.main_v36 (by decide))).trans ?_
      exact funext fun i => Cert.KernelIdeal.Result.result m c (hfin c).1 (hfin c).2 i
    · exact (h c _ (Cert.KernelIdeal.Asm.mem_uc Cert.KernelIdeal.main_arg0 (by decide))).trans (Cert.KernelIdeal.Gen.V6_main_arg0 m _ c)
    · exact (h c _ (Cert.KernelIdeal.Asm.mem_uc Cert.KernelIdeal.main_arg1 (by decide))).trans (Cert.KernelIdeal.Gen.V6_main_arg1 m _ c)
  · refine (θ_run Cert.ReferenceIdeal.defs _ _).mono (fun r h c => ⟨?_, (h c).2⟩) (Cert.ReferenceIdeal.Value.run (F := Ideal) m' ρ')
    rw [(h c).1, Cert.ReferenceIdeal.Read.val_main_v63_eq, (hagree c).1, (hagree c).2]
    exact Cert.ReferenceIdeal.RefValue.ref_eq_spec _ _ (hfin c).1 (hfin c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
